-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S262144x128 : Shape := ⟨2, ![262144, 128]⟩
abbrev S262144x6 : Shape := ⟨2, ![262144, 6]⟩
abbrev S2097152x42 : Shape := ⟨2, ![2097152, 42]⟩
abbrev S2097152 : Shape := ⟨1, ![2097152]⟩
abbrev S128x128 : Shape := ⟨2, ![128, 128]⟩
abbrev S128 : Shape := ⟨1, ![128]⟩
abbrev S6x8 : Shape := ⟨2, ![6, 8]⟩
abbrev S8x128 : Shape := ⟨2, ![8, 128]⟩
abbrev S42x8 : Shape := ⟨2, ![42, 8]⟩
abbrev S8x64 : Shape := ⟨2, ![8, 64]⟩
abbrev S128x64 : Shape := ⟨2, ![128, 64]⟩
abbrev S64x128 : Shape := ⟨2, ![64, 128]⟩
abbrev S1x2x128x128 : Shape := ⟨4, ![1, 2, 128, 128]⟩
abbrev S1x2x128 : Shape := ⟨3, ![1, 2, 128]⟩
abbrev S2x2x128x128 : Shape := ⟨4, ![2, 2, 128, 128]⟩
abbrev S2x2x128 : Shape := ⟨3, ![2, 2, 128]⟩
abbrev S_ : Shape := ⟨0, ![]⟩

class Facts : Prop where
  bcast_S_S262144x128 : S_.BroadcastsInDim S262144x128 (![] : Fin 0 → Fin S262144x128.rank)
  reducesTo_S262144x128_S_d0_1 : S262144x128.ReducesTo [0, 1] S_
  h_S_ : 0 < S_.numel
  bcast_S_S262144x6 : S_.BroadcastsInDim S262144x6 (![] : Fin 0 → Fin S262144x6.rank)
  reducesTo_S262144x6_S_d0_1 : S262144x6.ReducesTo [0, 1] S_
  bcast_S_S2097152x42 : S_.BroadcastsInDim S2097152x42 (![] : Fin 0 → Fin S2097152x42.rank)
  reducesTo_S2097152x42_S_d0_1 : S2097152x42.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S6x8 : S_.BroadcastsInDim S6x8 (![] : Fin 0 → Fin S6x8.rank)
  reducesTo_S6x8_S_d0_1 : S6x8.ReducesTo [0, 1] S_
  bcast_S_S8x128 : S_.BroadcastsInDim S8x128 (![] : Fin 0 → Fin S8x128.rank)
  reducesTo_S8x128_S_d0_1 : S8x128.ReducesTo [0, 1] S_
  bcast_S_S42x8 : S_.BroadcastsInDim S42x8 (![] : Fin 0 → Fin S42x8.rank)
  reducesTo_S42x8_S_d0_1 : S42x8.ReducesTo [0, 1] S_
  bcast_S_S8x64 : S_.BroadcastsInDim S8x64 (![] : Fin 0 → Fin S8x64.rank)
  reducesTo_S8x64_S_d0_1 : S8x64.ReducesTo [0, 1] S_
  bcast_S_S128x64 : S_.BroadcastsInDim S128x64 (![] : Fin 0 → Fin S128x64.rank)
  reducesTo_S128x64_S_d0_1 : S128x64.ReducesTo [0, 1] S_
  bcast_S_S64x128 : S_.BroadcastsInDim S64x128 (![] : Fin 0 → Fin S64x128.rank)
  reducesTo_S64x128_S_d0_1 : S64x128.ReducesTo [0, 1] S_
  bcast_S_S1x2x128x128 : S_.BroadcastsInDim S1x2x128x128 (![] : Fin 0 → Fin S1x2x128x128.rank)
  reducesTo_S1x2x128x128_S_d0_1_2_3 : S1x2x128x128.ReducesTo [0, 1, 2, 3] S_
  bcast_S_S1x2x128 : S_.BroadcastsInDim S1x2x128 (![] : Fin 0 → Fin S1x2x128.rank)
  reducesTo_S1x2x128_S_d0_1_2 : S1x2x128.ReducesTo [0, 1, 2] S_
  bcast_S_S2x2x128x128 : S_.BroadcastsInDim S2x2x128x128 (![] : Fin 0 → Fin S2x2x128x128.rank)
  reducesTo_S2x2x128x128_S_d0_1_2_3 : S2x2x128x128.ReducesTo [0, 1, 2, 3] S_
  bcast_S_S2x2x128 : S_.BroadcastsInDim S2x2x128 (![] : Fin 0 → Fin S2x2x128.rank)
  reducesTo_S2x2x128_S_d0_1_2 : S2x2x128.ReducesTo [0, 1, 2] S_

variable [Facts]

def fn_part5 {F : FTy → Type} [FloatOps F] (main_arg20 : FVec F S2x2x128 .f32) (main_v83 : IVec S_ 1) (main_v84 : FVec F S2x2x128x128 .f32) (main_cst_32 : FVec F S_ .f32) : IVec S_ 1 :=
  let main_v85 : FVec F S2x2x128x128 .f32 := broadcastInDim S2x2x128x128 ![] bcast_S_S2x2x128x128 main_cst_32
  let main_v86 : IVec S2x2x128x128 1 := cmpf .olt main_v84 main_v85
  let main_c_33 : IVec S_ 1 := constantI S_ 1 1#1
  let main_v87 : IVec S_ 1 := (fun x v => Host.reduce IntOp.andi x v reducesTo_S2x2x128x128_S_d0_1_2_3 h_S_) main_v86 main_c_33
  let main_v88 : IVec S_ 1 := andi main_v83 main_v87
  let main_v89 : FVec F S2x2x128 .f32 := Host.absf main_arg20
  let main_cst_34 : FVec F S_ .f32 := constant S_ .f32 0x7F800000#32
  let main_v90 : FVec F S2x2x128 .f32 := broadcastInDim S2x2x128 ![] bcast_S_S2x2x128 main_cst_34
  let main_v91 : IVec S2x2x128 1 := cmpf .olt main_v89 main_v90
  let main_c_35 : IVec S_ 1 := constantI S_ 1 1#1
  let main_v92 : IVec S_ 1 := (fun x v => Host.reduce IntOp.andi x v reducesTo_S2x2x128_S_d0_1_2 h_S_) main_v91 main_c_35
  let main_v93 : IVec S_ 1 := andi main_v88 main_v92
  main_v93

def fn_part4 {F : FTy → Type} [FloatOps F] (main_arg16 : FVec F S1x2x128 .f32) (main_arg17 : FVec F S128x128 .f32) (main_arg18 : FVec F S128 .f32) (main_arg19 : FVec F S2x2x128x128 .f32) (main_arg20 : FVec F S2x2x128 .f32) (main_v63 : IVec S_ 1) (main_v67 : IVec S_ 1) : IVec S_ 1 :=
  let main_v68 : IVec S_ 1 := andi main_v63 main_v67
  let main_v69 : FVec F S1x2x128 .f32 := Host.absf main_arg16
  let main_cst_26 : FVec F S_ .f32 := constant S_ .f32 0x7F800000#32
  let main_v70 : FVec F S1x2x128 .f32 := broadcastInDim S1x2x128 ![] bcast_S_S1x2x128 main_cst_26
  let main_v71 : IVec S1x2x128 1 := cmpf .olt main_v69 main_v70
  let main_c_27 : IVec S_ 1 := constantI S_ 1 1#1
  let main_v72 : IVec S_ 1 := (fun x v => Host.reduce IntOp.andi x v reducesTo_S1x2x128_S_d0_1_2 h_S_) main_v71 main_c_27
  let main_v73 : IVec S_ 1 := andi main_v68 main_v72
  let main_v74 : FVec F S128x128 .f32 := Host.absf main_arg17
  let main_cst_28 : FVec F S_ .f32 := constant S_ .f32 0x7F800000#32
  let main_v75 : FVec F S128x128 .f32 := broadcastInDim S128x128 ![] bcast_S_S128x128 main_cst_28
  let main_v76 : IVec S128x128 1 := cmpf .olt main_v74 main_v75
  let main_c_29 : IVec S_ 1 := constantI S_ 1 1#1
  let main_v77 : IVec S_ 1 := (fun x v => Host.reduce IntOp.andi x v reducesTo_S128x128_S_d0_1 h_S_) main_v76 main_c_29
  let main_v78 : IVec S_ 1 := andi main_v73 main_v77
  let main_v79 : FVec F S128 .f32 := Host.absf main_arg18
  let main_cst_30 : FVec F S_ .f32 := constant S_ .f32 0x7F800000#32
  let main_v80 : FVec F S128 .f32 := broadcastInDim S128 ![] bcast_S_S128 main_cst_30
  let main_v81 : IVec S128 1 := cmpf .olt main_v79 main_v80
  let main_c_31 : IVec S_ 1 := constantI S_ 1 1#1
  let main_v82 : IVec S_ 1 := (fun x v => Host.reduce IntOp.andi x v reducesTo_S128_S_d0 h_S_) main_v81 main_c_31
  let main_v83 : IVec S_ 1 := andi main_v78 main_v82
  let main_v84 : FVec F S2x2x128x128 .f32 := Host.absf main_arg19
  let main_cst_32 : FVec F S_ .f32 := constant S_ .f32 0x7F800000#32
  fn_part5 (F := F) main_arg20 main_v83 main_v84 main_cst_32

def fn_part3 {F : FTy → Type} [FloatOps F] (main_arg13 : FVec F S128x128 .f32) (main_arg14 : FVec F S128 .f32) (main_arg15 : FVec F S1x2x128x128 .f32) (main_arg16 : FVec F S1x2x128 .f32) (main_arg17 : FVec F S128x128 .f32) (main_arg18 : FVec F S128 .f32) (main_arg19 : FVec F S2x2x128x128 .f32) (main_arg20 : FVec F S2x2x128 .f32) (main_v48 : IVec S_ 1) (main_v49 : FVec F S64x128 .f32) (main_v50 : FVec F S64x128 .f32) : IVec S_ 1 :=
  let main_v51 : IVec S64x128 1 := cmpf .olt main_v49 main_v50
  let main_c_19 : IVec S_ 1 := constantI S_ 1 1#1
  let main_v52 : IVec S_ 1 := (fun x v => Host.reduce IntOp.andi x v reducesTo_S64x128_S_d0_1 h_S_) main_v51 main_c_19
  let main_v53 : IVec S_ 1 := andi main_v48 main_v52
  let main_v54 : FVec F S128x128 .f32 := Host.absf main_arg13
  let main_cst_20 : FVec F S_ .f32 := constant S_ .f32 0x7F800000#32
  let main_v55 : FVec F S128x128 .f32 := broadcastInDim S128x128 ![] bcast_S_S128x128 main_cst_20
  let main_v56 : IVec S128x128 1 := cmpf .olt main_v54 main_v55
  let main_c_21 : IVec S_ 1 := constantI S_ 1 1#1
  let main_v57 : IVec S_ 1 := (fun x v => Host.reduce IntOp.andi x v reducesTo_S128x128_S_d0_1 h_S_) main_v56 main_c_21
  let main_v58 : IVec S_ 1 := andi main_v53 main_v57
  let main_v59 : FVec F S128 .f32 := Host.absf main_arg14
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S1x2x128x128 .f32 := Host.absf main_arg15
  let main_cst_24 : FVec F S_ .f32 := constant S_ .f32 0x7F800000#32
  let main_v65 : FVec F S1x2x128x128 .f32 := broadcastInDim S1x2x128x128 ![] bcast_S_S1x2x128x128 main_cst_24
  let main_v66 : IVec S1x2x128x128 1 := cmpf .olt main_v64 main_v65
  let main_c_25 : IVec S_ 1 := constantI S_ 1 1#1
  let main_v67 : IVec S_ 1 := (fun x v => Host.reduce IntOp.andi x v reducesTo_S1x2x128x128_S_d0_1_2_3 h_S_) main_v66 main_c_25
  fn_part4 (F := F) main_arg16 main_arg17 main_arg18 main_arg19 main_arg20 main_v63 main_v67

def fn_part2 {F : FTy → Type} [FloatOps F] (main_arg9 : FVec F S42x8 .f32) (main_arg10 : FVec F S8x64 .f32) (main_arg11 : FVec F S128x64 .f32) (main_arg12 : FVec F S64x128 .f32) (main_arg13 : FVec F S128x128 .f32) (main_arg14 : FVec F S128 .f32) (main_arg15 : FVec F S1x2x128x128 .f32) (main_arg16 : FVec F S1x2x128 .f32) (main_arg17 : FVec F S128x128 .f32) (main_arg18 : FVec F S128 .f32) (main_arg19 : FVec F S2x2x128x128 .f32) (main_arg20 : FVec F S2x2x128 .f32) (main_v33 : IVec S_ 1) : IVec S_ 1 :=
  let main_v34 : FVec F S42x8 .f32 := Host.absf main_arg9
  let main_cst_12 : FVec F S_ .f32 := constant S_ .f32 0x7F800000#32
  let main_v35 : FVec F S42x8 .f32 := broadcastInDim S42x8 ![] bcast_S_S42x8 main_cst_12
  let main_v36 : IVec S42x8 1 := cmpf .olt main_v34 main_v35
  let main_c_13 : IVec S_ 1 := constantI S_ 1 1#1
  let main_v37 : IVec S_ 1 := (fun x v => Host.reduce IntOp.andi x v reducesTo_S42x8_S_d0_1 h_S_) main_v36 main_c_13
  let main_v38 : IVec S_ 1 := andi main_v33 main_v37
  let main_v39 : FVec F S8x64 .f32 := Host.absf main_arg10
  let main_cst_14 : FVec F S_ .f32 := constant S_ .f32 0x7F800000#32
  let main_v40 : FVec F S8x64 .f32 := broadcastInDim S8x64 ![] bcast_S_S8x64 main_cst_14
  let main_v41 : IVec S8x64 1 := cmpf .olt main_v39 main_v40
  let main_c_15 : IVec S_ 1 := constantI S_ 1 1#1
  let main_v42 : IVec S_ 1 := (fun x v => Host.reduce IntOp.andi x v reducesTo_S8x64_S_d0_1 h_S_) main_v41 main_c_15
  let main_v43 : IVec S_ 1 := andi main_v38 main_v42
  let main_v44 : FVec F S128x64 .f32 := Host.absf main_arg11
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64x128 .f32 := Host.absf main_arg12
  let main_cst_18 : FVec F S_ .f32 := constant S_ .f32 0x7F800000#32
  let main_v50 : FVec F S64x128 .f32 := broadcastInDim S64x128 ![] bcast_S_S64x128 main_cst_18
  fn_part3 (F := F) main_arg13 main_arg14 main_arg15 main_arg16 main_arg17 main_arg18 main_arg19 main_arg20 main_v48 main_v49 main_v50

def fn_part1 {F : FTy → Type} [FloatOps F] (main_arg6 : FVec F S128 .f32) (main_arg7 : FVec F S6x8 .f32) (main_arg8 : FVec F S8x128 .f32) (main_arg9 : FVec F S42x8 .f32) (main_arg10 : FVec F S8x64 .f32) (main_arg11 : FVec F S128x64 .f32) (main_arg12 : FVec F S64x128 .f32) (main_arg13 : FVec F S128x128 .f32) (main_arg14 : FVec F S128 .f32) (main_arg15 : FVec F S1x2x128x128 .f32) (main_arg16 : FVec F S1x2x128 .f32) (main_arg17 : FVec F S128x128 .f32) (main_arg18 : FVec F S128 .f32) (main_arg19 : FVec F S2x2x128x128 .f32) (main_arg20 : FVec F S2x2x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S6x8 .f32 := Host.absf main_arg7
  let main_cst_8 : FVec F S_ .f32 := constant S_ .f32 0x7F800000#32
  let main_v25 : FVec F S6x8 .f32 := broadcastInDim S6x8 ![] bcast_S_S6x8 main_cst_8
  let main_v26 : IVec S6x8 1 := cmpf .olt main_v24 main_v25
  let main_c_9 : IVec S_ 1 := constantI S_ 1 1#1
  let main_v27 : IVec S_ 1 := (fun x v => Host.reduce IntOp.andi x v reducesTo_S6x8_S_d0_1 h_S_) main_v26 main_c_9
  let main_v28 : IVec S_ 1 := andi main_v23 main_v27
  let main_v29 : FVec F S8x128 .f32 := Host.absf main_arg8
  let main_cst_10 : FVec F S_ .f32 := constant S_ .f32 0x7F800000#32
  let main_v30 : FVec F S8x128 .f32 := broadcastInDim S8x128 ![] bcast_S_S8x128 main_cst_10
  let main_v31 : IVec S8x128 1 := cmpf .olt main_v29 main_v30
  let main_c_11 : IVec S_ 1 := constantI S_ 1 1#1
  let main_v32 : IVec S_ 1 := (fun x v => Host.reduce IntOp.andi x v reducesTo_S8x128_S_d0_1 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_v33

def fn {F : FTy → Type} [FloatOps F] (main_arg0 : FVec F S262144x128 .f32) (main_arg1 : FVec F S262144x6 .f32) (main_arg2 : FVec F S2097152x42 .f32) (main_arg3 : IVec S2097152 32) (main_arg4 : IVec S2097152 32) (main_arg5 : FVec F S128x128 .f32) (main_arg6 : FVec F S128 .f32) (main_arg7 : FVec F S6x8 .f32) (main_arg8 : FVec F S8x128 .f32) (main_arg9 : FVec F S42x8 .f32) (main_arg10 : FVec F S8x64 .f32) (main_arg11 : FVec F S128x64 .f32) (main_arg12 : FVec F S64x128 .f32) (main_arg13 : FVec F S128x128 .f32) (main_arg14 : FVec F S128 .f32) (main_arg15 : FVec F S1x2x128x128 .f32) (main_arg16 : FVec F S1x2x128 .f32) (main_arg17 : FVec F S128x128 .f32) (main_arg18 : FVec F S128 .f32) (main_arg19 : FVec F S2x2x128x128 .f32) (main_arg20 : FVec F S2x2x128 .f32) : IVec S_ 1 :=
  let main_v0 : FVec F S262144x128 .f32 := Host.absf main_arg0
  let main_cst : FVec F S_ .f32 := constant S_ .f32 0x7F800000#32
  let main_v1 : FVec F S262144x128 .f32 := broadcastInDim S262144x128 ![] bcast_S_S262144x128 main_cst
  let main_v2 : IVec S262144x128 1 := cmpf .olt main_v0 main_v1
  let main_c : IVec S_ 1 := constantI S_ 1 1#1
  let main_v3 : IVec S_ 1 := (fun x v => Host.reduce IntOp.andi x v reducesTo_S262144x128_S_d0_1 h_S_) main_v2 main_c
  let main_v4 : FVec F S262144x6 .f32 := Host.absf main_arg1
  let main_cst_0 : FVec F S_ .f32 := constant S_ .f32 0x7F800000#32
  let main_v5 : FVec F S262144x6 .f32 := broadcastInDim S262144x6 ![] bcast_S_S262144x6 main_cst_0
  let main_v6 : IVec S262144x6 1 := cmpf .olt main_v4 main_v5
  let main_c_1 : IVec S_ 1 := constantI S_ 1 1#1
  let main_v7 : IVec S_ 1 := (fun x v => Host.reduce IntOp.andi x v reducesTo_S262144x6_S_d0_1 h_S_) main_v6 main_c_1
  let main_v8 : IVec S_ 1 := andi main_v3 main_v7
  let main_v9 : FVec F S2097152x42 .f32 := Host.absf main_arg2
  let main_cst_2 : FVec F S_ .f32 := constant S_ .f32 0x7F800000#32
  let main_v10 : FVec F S2097152x42 .f32 := broadcastInDim S2097152x42 ![] bcast_S_S2097152x42 main_cst_2
  let main_v11 : IVec S2097152x42 1 := cmpf .olt main_v9 main_v10
  let main_c_3 : IVec S_ 1 := constantI S_ 1 1#1
  let main_v12 : IVec S_ 1 := (fun x v => Host.reduce IntOp.andi x v reducesTo_S2097152x42_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_v13 main_v16
-- ==== Kernel.lean ====
abbrev S262144x128 : Shape := ⟨2, ![262144, 128]⟩
abbrev S262144x6 : Shape := ⟨2, ![262144, 6]⟩
abbrev S2097152x42 : Shape := ⟨2, ![2097152, 42]⟩
abbrev S2097152 : Shape := ⟨1, ![2097152]⟩
abbrev S128x128 : Shape := ⟨2, ![128, 128]⟩
abbrev S128 : Shape := ⟨1, ![128]⟩
abbrev S6x8 : Shape := ⟨2, ![6, 8]⟩
abbrev S8x128 : Shape := ⟨2, ![8, 128]⟩
abbrev S42x8 : Shape := ⟨2, ![42, 8]⟩
abbrev S8x64 : Shape := ⟨2, ![8, 64]⟩
abbrev S128x64 : Shape := ⟨2, ![128, 64]⟩
abbrev S64x128 : Shape := ⟨2, ![64, 128]⟩
abbrev S1x2x128x128 : Shape := ⟨4, ![1, 2, 128, 128]⟩
abbrev S1x2x128 : Shape := ⟨3, ![1, 2, 128]⟩
abbrev S2x2x128x128 : Shape := ⟨4, ![2, 2, 128, 128]⟩
abbrev S2x2x128 : Shape := ⟨3, ![2, 2, 128]⟩
abbrev S6x128 : Shape := ⟨2, ![6, 128]⟩
abbrev S42x64 : Shape := ⟨2, ![42, 64]⟩
abbrev S262144x64 : Shape := ⟨2, ![262144, 64]⟩
abbrev S4096x128 : Shape := ⟨2, ![4096, 128]⟩
abbrev S4096x6 : Shape := ⟨2, ![4096, 6]⟩
abbrev S4096x64 : Shape := ⟨2, ![4096, 64]⟩
abbrev S1x128 : Shape := ⟨2, ![1, 128]⟩
abbrev S_ : Shape := ⟨0, ![]⟩
abbrev S2097152x1 : Shape := ⟨2, ![2097152, 1]⟩
abbrev S2097152x64 : Shape := ⟨2, ![2097152, 64]⟩
abbrev S8192x42 : Shape := ⟨2, ![8192, 42]⟩
abbrev S8192x64 : Shape := ⟨2, ![8192, 64]⟩
abbrev S1x1x128x128 : Shape := ⟨4, ![1, 1, 128, 128]⟩
abbrev S1x1x128 : Shape := ⟨3, ![1, 1, 128]⟩

abbrev nBuf : Space → Nat
  | .hbm => 41
  | .vmem => 30
  | .smem => 0
  | _ => 0

abbrev bufTy : (tb : Table) → Fin (tcTables nBuf tb) → BufTy
  | .hbm, ⟨0, _⟩ => ⟨S262144x128, .f32⟩
  | .hbm, ⟨1, _⟩ => ⟨S262144x6, .f32⟩
  | .hbm, ⟨2, _⟩ => ⟨S2097152x42, .f32⟩
  | .hbm, ⟨3, _⟩ => ⟨S2097152, .i32⟩
  | .hbm, ⟨4, _⟩ => ⟨S2097152, .i32⟩
  | .hbm, ⟨5, _⟩ => ⟨S128x128, .f32⟩
  | .hbm, ⟨6, _⟩ => ⟨S128, .f32⟩
  | .hbm, ⟨7, _⟩ => ⟨S6x8, .f32⟩
  | .hbm, ⟨8, _⟩ => ⟨S8x128, .f32⟩
  | .hbm, ⟨9, _⟩ => ⟨S42x8, .f32⟩
  | .hbm, ⟨10, _⟩ => ⟨S8x64, .f32⟩
  | .hbm, ⟨11, _⟩ => ⟨S128x64, .f32⟩
  | .hbm, ⟨12, _⟩ => ⟨S64x128, .f32⟩
  | .hbm, ⟨13, _⟩ => ⟨S128x128, .f32⟩
  | .hbm, ⟨14, _⟩ => ⟨S128, .f32⟩
  | .hbm, ⟨15, _⟩ => ⟨S1x2x128x128, .f32⟩
  | .hbm, ⟨16, _⟩ => ⟨S1x2x128, .f32⟩
  | .hbm, ⟨17, _⟩ => ⟨S128x128, .f32⟩
  | .hbm, ⟨18, _⟩ => ⟨S128, .f32⟩
  | .hbm, ⟨19, _⟩ => ⟨S2x2x128x128, .f32⟩
  | .hbm, ⟨20, _⟩ => ⟨S2x2x128, .f32⟩
  | .hbm, ⟨21, _⟩ => ⟨S6x128, .f32⟩
  | .hbm, ⟨22, _⟩ => ⟨S42x64, .f32⟩
  | .hbm, ⟨23, _⟩ => ⟨S262144x64, .bf16⟩
  | .hbm, ⟨24, _⟩ => ⟨S_, .i32⟩
  | .hbm, ⟨25, _⟩ => ⟨S2097152, .i32⟩
  | .hbm, ⟨26, _⟩ => ⟨S2097152, .i1⟩
  | .hbm, ⟨27, _⟩ => ⟨S_, .i32⟩
  | .hbm, ⟨28, _⟩ => ⟨S2097152, .i32⟩
  | .hbm, ⟨29, _⟩ => ⟨S2097152, .i32⟩
  | .hbm, ⟨30, _⟩ => ⟨S2097152, .i32⟩
  | .hbm, ⟨31, _⟩ => ⟨S2097152x1, .i32⟩
  | .hbm, ⟨32, _⟩ => ⟨S2097152x64, .bf16⟩
  | .hbm, ⟨33, _⟩ => ⟨S2097152x64, .f32⟩
  | .hbm, ⟨34, _⟩ => ⟨S2097152x64, .f32⟩
  | .hbm, ⟨35, _⟩ => ⟨S2097152x64, .f32⟩
  | .hbm, ⟨36, _⟩ => ⟨S_, .f32⟩
  | .hbm, ⟨37, _⟩ => ⟨S262144x64, .f32⟩
  | .hbm, ⟨38, _⟩ => ⟨S2097152x1, .i32⟩
  | .hbm, ⟨39, _⟩ => ⟨S262144x64, .f32⟩
  | .hbm, ⟨40, _⟩ => ⟨S262144x128, .f32⟩
  | .local _ .vmem, ⟨0, _⟩ => ⟨S4096x128, .f32⟩
  | .local _ .vmem, ⟨1, _⟩ => ⟨S4096x128, .f32⟩
  | .local _ .vmem, ⟨2, _⟩ => ⟨S4096x6, .f32⟩
  | .local _ .vmem, ⟨3, _⟩ => ⟨S4096x6, .f32⟩
  | .local _ .vmem, ⟨4, _⟩ => ⟨S128x128, .f32⟩
  | .local _ .vmem, ⟨5, _⟩ => ⟨S128, .f32⟩
  | .local _ .vmem, ⟨6, _⟩ => ⟨S6x128, .f32⟩
  | .local _ .vmem, ⟨7, _⟩ => ⟨S128x64, .f32⟩
  | .local _ .vmem, ⟨8, _⟩ => ⟨S4096x64, .bf16⟩
  | .local _ .vmem, ⟨9, _⟩ => ⟨S4096x64, .bf16⟩
  | .local _ .vmem, ⟨10, _⟩ => ⟨S8192x42, .f32⟩
  | .local _ .vmem, ⟨11, _⟩ => ⟨S8192x42, .f32⟩
  | .local _ .vmem, ⟨12, _⟩ => ⟨S42x64, .f32⟩
  | .local _ .vmem, ⟨13, _⟩ => ⟨S8192x64, .f32⟩
  | .local _ .vmem, ⟨14, _⟩ => ⟨S8192x64, .f32⟩
  | .local _ .vmem, ⟨15, _⟩ => ⟨S4096x64, .f32⟩
  | .local _ .vmem, ⟨16, _⟩ => ⟨S4096x64, .f32⟩
  | .local _ .vmem, ⟨17, _⟩ => ⟨S4096x128, .f32⟩
  | .local _ .vmem, ⟨18, _⟩ => ⟨S4096x128, .f32⟩
  | .local _ .vmem, ⟨19, _⟩ => ⟨S64x128, .f32⟩
  | .local _ .vmem, ⟨20, _⟩ => ⟨S128x128, .f32⟩
  | .local _ .vmem, ⟨21, _⟩ => ⟨S128, .f32⟩
  | .local _ .vmem, ⟨22, _⟩ => ⟨S1x2x128x128, .f32⟩
  | .local _ .vmem, ⟨23, _⟩ => ⟨S1x2x128, .f32⟩
  | .local _ .vmem, ⟨24, _⟩ => ⟨S128x128, .f32⟩
  | .local _ .vmem, ⟨25, _⟩ => ⟨S128, .f32⟩
  | .local _ .vmem, ⟨26, _⟩ => ⟨S2x2x128x128, .f32⟩
  | .local _ .vmem, ⟨27, _⟩ => ⟨S2x2x128, .f32⟩
  | .local _ .vmem, ⟨28, _⟩ => ⟨S4096x128, .f32⟩
  | .local _ .vmem, ⟨29, _⟩ => ⟨S4096x128, .f32⟩
  | _, _ => ⟨S262144x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_c : Ref sig .tc := ⟨.hbm, 24, rfl⟩
abbrev main_v3 : Ref sig .tc := ⟨.hbm, 25, rfl⟩
abbrev main_v4 : Ref sig .tc := ⟨.hbm, 26, rfl⟩
abbrev main_c_0 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_cst : Ref sig .tc := ⟨.hbm, 36, rfl⟩
abbrev main_v13 : Ref sig .tc := ⟨.hbm, 37, rfl⟩
abbrev main_v14 : Ref sig .tc := ⟨.hbm, 38, rfl⟩
abbrev main_v15 : Ref sig .tc := ⟨.hbm, 39, rfl⟩
abbrev main_v16 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg2_1 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg3_0 : Ref sig .tc := ⟨.vmem, 20, rfl⟩
abbrev cc2_stg4_0 : Ref sig .tc := ⟨.vmem, 21, rfl⟩
abbrev cc2_stg5_0 : Ref sig .tc := ⟨.vmem, 22, rfl⟩
abbrev cc2_stg6_0 : Ref sig .tc := ⟨.vmem, 23, rfl⟩
abbrev cc2_stg7_0 : Ref sig .tc := ⟨.vmem, 24, rfl⟩
abbrev cc2_stg8_0 : Ref sig .tc := ⟨.vmem, 25, rfl⟩
abbrev cc2_stg9_0 : Ref sig .tc := ⟨.vmem, 26, rfl⟩
abbrev cc2_stg10_0 : Ref sig .tc := ⟨.vmem, 27, rfl⟩
abbrev cc2_stg11_0 : Ref sig .tc := ⟨.vmem, 28, rfl⟩
abbrev cc2_stg11_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem2_1 : DmaSem sig := 14
abbrev cc2_sem0_0 : DmaSem sig := 15
abbrev cc2_sem0_1 : DmaSem sig := 16
abbrev cc2_sem1_0 : DmaSem sig := 17
abbrev cc2_sem1_1 : DmaSem sig := 18
abbrev cc2_sem2_0 : DmaSem sig := 19
abbrev cc2_sem3_0 : DmaSem sig := 20
abbrev cc2_sem4_0 : DmaSem sig := 21
abbrev cc2_sem5_0 : DmaSem sig := 22
abbrev cc2_sem6_0 : DmaSem sig := 23
abbrev cc2_sem7_0 : DmaSem sig := 24
abbrev cc2_sem8_0 : DmaSem sig := 25
abbrev cc2_sem9_0 : DmaSem sig := 26
abbrev cc2_sem10_0 : DmaSem sig := 27
abbrev cc2_sem11_0 : DmaSem sig := 28
abbrev cc2_sem11_1 : DmaSem sig := 29

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x6 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S6x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4096x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![256], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S8192x42 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S42x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S8192x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![64], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_5 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc2_transform_6 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 1 → Nat :=
  let arg0 : BitVec 32 := BitVec.ofNat 32 (i 0).val
  let c0_i32 : BitVec 32 := 0#32
  let c0_i32_0 : BitVec 32 := 0#32
  ![c0_i32.toNat]

def cc2_transform_9 (i : grid2.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc2_transform_10 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_11 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4096x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S4096x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x2x128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x2x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S128 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S2x2x128x128 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 1 → Memref sig .tc .vmem S2x2x128 .f32 := fun | 0 => Memref.whole cc2_stg10_0 | ⟨_ + 1, h⟩ => absurd h (Nat.not_lt.2 (Nat.le_add_left _ _))
abbrev sem2_10 : Fin 1 → DmaSem sig := fun | 0 => cc2_sem10_0 | ⟨_ + 1, h⟩ => absurd h (Nat.not_lt.2 (Nat.le_add_left _ _))
abbrev reads2_10 : Fin grid2.rank → Bool := ![false]

abbrev stage2_11 : Fin 2 → Memref sig .tc .vmem S4096x128 .f32 := fun | 0 => Memref.whole cc2_stg11_0 | 1 => Memref.whole cc2_stg11_1 | ⟨_ + 2, h⟩ => absurd h (Nat.not_lt.2 (Nat.le_add_left _ _))
abbrev sem2_11 : Fin 2 → DmaSem sig := fun | 0 => cc2_sem11_0 | 1 => cc2_sem11_1 | ⟨_ + 2, h⟩ => absurd h (Nat.not_lt.2 (Nat.le_add_left _ _))
abbrev reads2_11 : Fin grid2.rank → Bool := ![true]

class Facts₀ : Prop where
  inb_S4096x128_S4096x128_0_0 : ∀ a, (![0, 0] : Fin 2 → Nat) a + S4096x128.size a ≤ S4096x128.size a
  h_S4096x128 : 0 < S4096x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S4096x128 : S1x128.Broadcasts S4096x128
  inb_S4096x6_S4096x6_0_0 : ∀ a, (![0, 0] : Fin 2 → Nat) a + S4096x6.size a ≤ S4096x6.size a
  h_S4096x6 : 0 < S4096x6.numel
  inb_S6x128_S6x128_0_0 : ∀ a, (![0, 0] : Fin 2 → Nat) a + S6x128.size a ≤ S6x128.size a
  h_S6x128 : 0 < S6x128.numel
  shapeCasts_S6x128_S6x128 : S6x128.ShapeCasts S6x128
  inb_S128x64_S128x64_0_0 : ∀ a, (![0, 0] : Fin 2 → Nat) a + S128x64.size a ≤ S128x64.size a
  h_S128x64 : 0 < S128x64.numel
  inb_S4096x64_S4096x64_0_0 : ∀ a, (![0, 0] : Fin 2 → Nat) a + S4096x64.size a ≤ S4096x64.size a
  h_S4096x64 : 0 < S4096x64.numel
  packedbf16_S4096x64_S4096x64_0_0 : (Rect.unit (s := S4096x64) ![0, 0] S4096x64.size inb_S4096x64_S4096x64_0_0).PackedRows (EltTy.packing .bf16)
  bcast_S_S2097152 : S_.BroadcastsInDim S2097152 (![] : Fin 0 → Fin S2097152.rank)
  bcast_S2097152_S2097152x1_0 : S2097152.BroadcastsInDim S2097152x1 (![0] : Fin 1 → Fin S2097152x1.rank)
  inb_S8192x42_S8192x42_0_0 : ∀ a, (![0, 0] : Fin 2 → Nat) a + S8192x42.size a ≤ S8192x42.size a
  h_S8192x42 : 0 < S8192x42.numel
  inb_S42x64_S42x64_0_0 : ∀ a, (![0, 0] : Fin 2 → Nat) a + S42x64.size a ≤ S42x64.size a
  h_S42x64 : 0 < S42x64.numel
  shapeCasts_S42x64_S42x64 : S42x64.ShapeCasts S42x64
  inb_S8192x64_S8192x64_0_0 : ∀ a, (![0, 0] : Fin 2 → Nat) a + S8192x64.size a ≤ S8192x64.size a
  h_S8192x64 : 0 < S8192x64.numel
  bcast_S_S262144x64 : S_.BroadcastsInDim S262144x64 (![] : Fin 0 → Fin S262144x64.rank)
  shapeCasts_S4096x64_S4096x64 : S4096x64.ShapeCasts S4096x64
  inb_S64x128_S64x128_0_0 : ∀ a, (![0, 0] : Fin 2 → Nat) a + S64x128.size a ≤ S64x128.size a
  h_S64x128 : 0 < S64x128.numel
  inb_S1x2x128x128_S1x2x128x128_0_0_0_0 : ∀ a, (![0, 0, 0, 0] : Fin 4 → Nat) a + S1x2x128x128.size a ≤ S1x2x128x128.size a
  h_S1x2x128x128 : 0 < S1x2x128x128.numel
  inb_S1x2x128_S1x2x128_0_0_0 : ∀ a, (![0, 0, 0] : Fin 3 → Nat) a + S1x2x128.size a ≤ S1x2x128.size a
  h_S1x2x128 : 0 < S1x2x128.numel
  slices_S1x2x128x128_o0_0_0_0_S1x1x128x128 : S1x2x128x128.Slices ![0, 0, 0, 0] S1x1x128x128
  shapeCasts_S1x1x128x128_S128x128 : S1x1x128x128.ShapeCasts S128x128
  slices_S1x2x128_o0_0_0_S1x1x128 : S1x2x128.Slices ![0, 0, 0] S1x1x128
  shapeCasts_S1x1x128_S128 : S1x1x128.ShapeCasts S128
  slices_S1x2x128x128_o0_1_0_0_S1x1x128x128 : S1x2x128x128.Slices ![0, 1, 0, 0] S1x1x128x128
  slices_S1x2x128_o0_1_0_S1x1x128 : S1x2x128.Slices ![0, 1, 0] S1x1x128
  inb_S2x2x128x128_S2x2x128x128_0_0_0_0 : ∀ a, (![0, 0, 0, 0] : Fin 4 → Nat) a + S2x2x128x128.size a ≤ S2x2x128x128.size a
  h_S2x2x128x128 : 0 < S2x2x128x128.numel
  inb_S2x2x128_S2x2x128_0_0_0 : ∀ a, (![0, 0, 0] : Fin 3 → Nat) a + S2x2x128.size a ≤ S2x2x128.size a
  h_S2x2x128 : 0 < S2x2x128.numel
  slices_S2x2x128x128_o0_0_0_0_S1x1x128x128 : S2x2x128x128.Slices ![0, 0, 0, 0] S1x1x128x128
  slices_S2x2x128_o0_0_0_S1x1x128 : S2x2x128.Slices ![0, 0, 0] S1x1x128
  slices_S2x2x128x128_o0_1_0_0_S1x1x128x128 : S2x2x128x128.Slices ![0, 1, 0, 0] S1x1x128x128
  slices_S2x2x128_o0_1_0_S1x1x128 : S2x2x128.Slices ![0, 1, 0] S1x1x128
  slices_S2x2x128x128_o1_0_0_0_S1x1x128x128 : S2x2x128x128.Slices ![1, 0, 0, 0] S1x1x128x128
  slices_S2x2x128_o1_0_0_S1x1x128 : S2x2x128.Slices ![1, 0, 0] S1x1x128
  slices_S2x2x128x128_o1_1_0_0_S1x1x128x128 : S2x2x128x128.Slices ![1, 1, 0, 0] S1x1x128x128
  slices_S2x2x128_o1_1_0_S1x1x128 : S2x2x128.Slices ![1, 1, 0] S1x1x128
  dot_S6x8_S8x128_S6x128_1_0_0_1_n_n_wf : DotDims.WF S6x8 S8x128 S6x128 [1] [0] [0] [1] [] []
  dot_S42x8_S8x64_S42x64_1_0_0_1_n_n_wf : DotDims.WF S42x8 S8x64 S42x64 [1] [0] [0] [1] [] []
  dot_S4096x128_S128x128_S4096x128_1_0_0_1_n_n_wf : DotDims.WF S4096x128 S128x128 S4096x128 [1] [0] [0] [1] [] []
  dot_S4096x6_S6x128_S4096x128_1_0_0_1_n_n_wf : DotDims.WF S4096x6 S6x128 S4096x128 [1] [0] [0] [1] [] []
  dot_S4096x128_S128x64_S4096x64_1_0_0_1_n_n_wf : DotDims.WF S4096x128 S128x64 S4096x64 [1] [0] [0] [1] [] []
  gather_S262144x64_S2097152x1_S2097152x64_1_0_n_n_0_1_164_wf : GatherDims.WF S262144x64 S2097152x1 S2097152x64 [1] [0] [] [0] [] 1 ![1, 64]
  dot_S8192x42_S42x64_S8192x64_1_0_0_1_n_n_wf : DotDims.WF S8192x42 S42x64 S8192x64 [1] [0] [0] [1] [] []
  scatter_S262144x64_S2097152x1_S2097152x64_1_0_0_1_wf : ScatterDims.WF S262144x64 S2097152x1 S2097152x64 [1] [0] [0] 1
  dot_S4096x64_S64x128_S4096x128_1_0_0_1_n_n_wf : DotDims.WF S4096x64 S64x128 S4096x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x128.size a ≤ S262144x128.size a
  hwx0_0 : ∀ i : grid0.Coords, EltTy.bits .f32 = 32 ∨ (Rect.block (s := S262144x128) S4096x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x6.size a ≤ S262144x6.size a
  hwx0_1 : ∀ i : grid0.Coords, EltTy.bits .f32 = 32 ∨ (Rect.block (s := S262144x6) S4096x6.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S6x128.size a ≤ S6x128.size a
  hwx0_4 : ∀ i : grid0.Coords, EltTy.bits .f32 = 32 ∨ (Rect.block (s := S6x128) S6x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x64.size a ≤ S128x64.size a
  hwx0_5 : ∀ i : grid0.Coords, EltTy.bits .f32 = 32 ∨ (Rect.block (s := S128x64) S128x64.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S4096x64.size a ≤ S262144x64.size a
  hwx0_6 : ∀ i : grid0.Coords, EltTy.bits .bf16 = 32 ∨ (Rect.block (s := S262144x64) S4096x64.size (cc0_transform_6 i) (hinb0_6 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8192x42.size a ≤ S2097152x42.size a
  hwx1_0 : ∀ i : grid1.Coords, EltTy.bits .f32 = 32 ∨ (Rect.block (s := S2097152x42) S8192x42.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S42x64.size a ≤ S42x64.size a
  hwx1_1 : ∀ i : grid1.Coords, EltTy.bits .f32 = 32 ∨ (Rect.block (s := S42x64) S42x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8192x64.size a ≤ S2097152x64.size a
  hwx1_2 : ∀ i : grid1.Coords, EltTy.bits .f32 = 32 ∨ (Rect.block (s := S2097152x64) S8192x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4096x64.size a ≤ S262144x64.size a
  hwx2_0 : ∀ i : grid2.Coords, EltTy.bits .f32 = 32 ∨ (Rect.block (s := S262144x64) S4096x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S4096x128.size a ≤ S262144x128.size a
  hwx2_1 : ∀ i : grid2.Coords, EltTy.bits .f32 = 32 ∨ (Rect.block (s := S262144x128) S4096x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x128.size a ≤ S64x128.size a
  hwx2_2 : ∀ i : grid2.Coords, EltTy.bits .f32 = 32 ∨ (Rect.block (s := S64x128) S64x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S128x128.size a ≤ S128x128.size a
  hwx2_3 : ∀ i : grid2.Coords, EltTy.bits .f32 = 32 ∨ (Rect.block (s := S128x128) S128x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128.size a ≤ S128.size a
  hwx2_4 : ∀ i : grid2.Coords, EltTy.bits .f32 = 32 ∨ (Rect.block (s := S128) S128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x2x128x128.size a ≤ S1x2x128x128.size a
  hwx2_5 : ∀ i : grid2.Coords, EltTy.bits .f32 = 32 ∨ (Rect.block (s := S1x2x128x128) S1x2x128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x2x128.size a ≤ S1x2x128.size a
  hwx2_6 : ∀ i : grid2.Coords, EltTy.bits .f32 = 32 ∨ (Rect.block (s := S1x2x128) S1x2x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x128.size a ≤ S128x128.size a
  hwx2_7 : ∀ i : grid2.Coords, EltTy.bits .f32 = 32 ∨ (Rect.block (s := S128x128) S128x128.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S128.size a ≤ S128.size a
  hwx2_8 : ∀ i : grid2.Coords, EltTy.bits .f32 = 32 ∨ (Rect.block (s := S128) S128.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S2x2x128x128.size a ≤ S2x2x128x128.size a
  hwx2_9 : ∀ i : grid2.Coords, EltTy.bits .f32 = 32 ∨ (Rect.block (s := S2x2x128x128) S2x2x128x128.size (cc2_transform_9 i) (hinb2_9 i)).WholeWords (EltTy.packing .f32)
  hstage2_10 : ∀ j, (stage2_10 j).IsWhole
  nbuf2_10 : grid2.bufCount reads2_10 true = 1
  hreads2_10 : ∀ i i' : grid2.Coords, (∀ a, reads2_10 a = true → i a = i' a) → cc2_transform_10 i = cc2_transform_10 i'
  hinb2_10 : ∀ (i : grid2.Coords) a, (cc2_transform_10 i a + 1) * S2x2x128.size a ≤ S2x2x128.size a
  hwx2_10 : ∀ i : grid2.Coords, EltTy.bits .f32 = 32 ∨ (Rect.block (s := S2x2x128) S2x2x128.size (cc2_transform_10 i) (hinb2_10 i)).WholeWords (EltTy.packing .f32)
  hstage2_11 : ∀ j, (stage2_11 j).IsWhole
  nbuf2_11 : grid2.bufCount reads2_11 false = 2
  hreads2_11 : ∀ i i' : grid2.Coords, (∀ a, reads2_11 a = true → i a = i' a) → cc2_transform_11 i = cc2_transform_11 i'
  hinb2_11 : ∀ (i : grid2.Coords) a, (cc2_transform_11 i a + 1) * S4096x128.size a ≤ S262144x128.size a
  hwx2_11 : ∀ i : grid2.Coords, EltTy.bits .f32 = 32 ∨ (Rect.block (s := S262144x128) S4096x128.size (cc2_transform_11 i) (hinb2_11 i)).WholeWords (EltTy.packing .f32)

variable [Facts₀]

def dot_S6x8_S8x128_S6x128_1_0_0_1_n_n : DotDims S6x8 S8x128 S6x128 where
  lhsContracting := [1]
  rhsContracting := [0]
  lhsNonContracting := [0]
  rhsNonContracting := [1]
  lhsBatch := []
  rhsBatch := []
  wf := dot_S6x8_S8x128_S6x128_1_0_0_1_n_n_wf
def dot_S42x8_S8x64_S42x64_1_0_0_1_n_n : DotDims S42x8 S8x64 S42x64 where
  lhsContracting := [1]
  rhsContracting := [0]
  lhsNonContracting := [0]
  rhsNonContracting := [1]
  lhsBatch := []
  rhsBatch := []
  wf := dot_S42x8_S8x64_S42x64_1_0_0_1_n_n_wf
def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf
def dot_S4096x6_S6x128_S4096x128_1_0_0_1_n_n : DotDims S4096x6 S6x128 S4096x128 where
  lhsContracting := [1]
  rhsContracting := [0]
  lhsNonContracting := [0]
  rhsNonContracting := [1]
  lhsBatch := []
  rhsBatch := []
  wf := dot_S4096x6_S6x128_S4096x128_1_0_0_1_n_n_wf
def dot_S4096x128_S128x64_S4096x64_1_0_0_1_n_n : DotDims S4096x128 S128x64 S4096x64 where
  lhsContracting := [1]
  rhsContracting := [0]
  lhsNonContracting := [0]
  rhsNonContracting := [1]
  lhsBatch := []
  rhsBatch := []
  wf := dot_S4096x128_S128x64_S4096x64_1_0_0_1_n_n_wf
def gather_S262144x64_S2097152x1_S2097152x64_1_0_n_n_0_1_164 : GatherDims S262144x64 S2097152x1 S2097152x64 where
  offsetDims := [1]
  collapsedSliceDims := [0]
  operandBatchingDims := []
  startIndicesBatchingDims := []
  startIndexMap := [0]
  indexVectorDim := 1
  sliceSizes := ![1, 64]
  wf := gather_S262144x64_S2097152x1_S2097152x64_1_0_n_n_0_1_164_wf
def dot_S8192x42_S42x64_S8192x64_1_0_0_1_n_n : DotDims S8192x42 S42x64 S8192x64 where
  lhsContracting := [1]
  rhsContracting := [0]
  lhsNonContracting := [0]
  rhsNonContracting := [1]
  lhsBatch := []
  rhsBatch := []
  wf := dot_S8192x42_S42x64_S8192x64_1_0_0_1_n_n_wf
def scatter_S262144x64_S2097152x1_S2097152x64_1_0_0_1 : ScatterDims S262144x64 S2097152x1 S2097152x64 where
  updateWindowDims := [1]
  insertedWindowDims := [0]
  scatterDimsToOperandDims := [0]
  indexVectorDim := 1
  wf := scatter_S262144x64_S2097152x1_S2097152x64_1_0_0_1_wf
def dot_S4096x64_S64x128_S4096x128_1_0_0_1_n_n : DotDims S4096x64 S64x128 S4096x128 where
  lhsContracting := [1]
  rhsContracting := [0]
  lhsNonContracting := [0]
  rhsNonContracting := [1]
  lhsBatch := []
  rhsBatch := []
  wf := dot_S4096x64_S64x128_S4096x128_1_0_0_1_n_n_wf

abbrev win0_0 : Pipeline.Window sig grid0 :=
  Pipeline.Window.ofSpec (Memref.whole main_arg0) S4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S4096x6.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg5) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S6x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg11) S128x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v2) S4096x64.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_arg2) S8192x42.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S42x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v10) S8192x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v15) S4096x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S4096x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg12) S64x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_arg13) S128x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg14) S128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg15) S1x2x128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg16) S1x2x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg17) S128x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_arg18) S128.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_arg19) S2x2x128x128.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_arg20) S2x2x128.size cc2_transform_10 reads2_10 false true 1 stage2_10 sem2_10
    hrank2 hreads2_10 hinb2_10 nbuf2_10 (Memref.isWhole_whole _) hwx2_10 hstage2_10

abbrev win2_11 : Pipeline.Window sig grid2 :=
  Pipeline.Window.ofSpec (Memref.whole main_v16) S4096x128.size cc2_transform_11 reads2_11 true false 2 stage2_11 sem2_11
    hrank2 hreads2_11 hinb2_11 nbuf2_11 (Memref.isWhole_whole _) hwx2_11 hstage2_11

abbrev win2 : Fin 12 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | 11 => win2_11 | ⟨_ + 12, h⟩ => absurd h (Nat.not_lt.2 (Nat.le_add_left _ _))
abbrev spec2 : Fin 12 → Pipeline.WinSpec sig grid2.rank := fun w => (win2 w).toWinSpec

class Facts : Prop extends Facts₀ where

variable [Facts]
-- ==== ReferenceIdeal.lean ====
abbrev S262144x128 : Shape := ⟨2, ![262144, 128]⟩
abbrev S262144x6 : Shape := ⟨2, ![262144, 6]⟩
abbrev S2097152x42 : Shape := ⟨2, ![2097152, 42]⟩
abbrev S2097152 : Shape := ⟨1, ![2097152]⟩
abbrev S128x128 : Shape := ⟨2, ![128, 128]⟩
abbrev S128 : Shape := ⟨1, ![128]⟩
abbrev S6x8 : Shape := ⟨2, ![6, 8]⟩
abbrev S8x128 : Shape := ⟨2, ![8, 128]⟩
abbrev S42x8 : Shape := ⟨2, ![42, 8]⟩
abbrev S8x64 : Shape := ⟨2, ![8, 64]⟩
abbrev S128x64 : Shape := ⟨2, ![128, 64]⟩
abbrev S64x128 : Shape := ⟨2, ![64, 128]⟩
abbrev S1x2x128x128 : Shape := ⟨4, ![1, 2, 128, 128]⟩
abbrev S1x2x128 : Shape := ⟨3, ![1, 2, 128]⟩
abbrev S2x2x128x128 : Shape := ⟨4, ![2, 2, 128, 128]⟩
abbrev S2x2x128 : Shape := ⟨3, ![2, 2, 128]⟩
abbrev S1x128 : Shape := ⟨2, ![1, 128]⟩
abbrev S_ : Shape := ⟨0, ![]⟩
abbrev S262144x8 : Shape := ⟨2, ![262144, 8]⟩
abbrev S262144x64 : Shape := ⟨2, ![262144, 64]⟩
abbrev S2097152x1 : Shape := ⟨2, ![2097152, 1]⟩
abbrev S2097152x64 : Shape := ⟨2, ![2097152, 64]⟩
abbrev S2097152x8 : Shape := ⟨2, ![2097152, 8]⟩
abbrev S1x1x128x128 : Shape := ⟨4, ![1, 1, 128, 128]⟩
abbrev S1x1x128 : Shape := ⟨3, ![1, 1, 128]⟩

abbrev nBuf : Space → Nat
  | .hbm => 206
  | .vmem => 0
  | .smem => 0
  | _ => 0

abbrev hbmTy0_0 (i : Nat) : BufTy := match i % 128 with
  | 0 => ⟨S262144x128, .f32⟩
  | 1 => ⟨S262144x6, .f32⟩
  | 2 => ⟨S2097152x42, .f32⟩
  | 3 => ⟨S2097152, .i32⟩
  | 4 => ⟨S2097152, .i32⟩
  | 5 => ⟨S128x128, .f32⟩
  | 6 => ⟨S128, .f32⟩
  | 7 => ⟨S6x8, .f32⟩
  | 8 => ⟨S8x128, .f32⟩
  | 9 => ⟨S42x8, .f32⟩
  | 10 => ⟨S8x64, .f32⟩
  | 11 => ⟨S128x64, .f32⟩
  | 12 => ⟨S64x128, .f32⟩
  | 13 => ⟨S128x128, .f32⟩
  | 14 => ⟨S128, .f32⟩
  | 15 => ⟨S1x2x128x128, .f32⟩
  | 16 => ⟨S1x2x128, .f32⟩
  | 17 => ⟨S128x128, .f32⟩
  | 18 => ⟨S128, .f32⟩
  | 19 => ⟨S2x2x128x128, .f32⟩
  | 20 => ⟨S2x2x128, .f32⟩
  | 21 => ⟨S262144x128, .f32⟩
  | 22 => ⟨S1x128, .f32⟩
  | 23 => ⟨S262144x128, .f32⟩
  | 24 => ⟨S262144x128, .f32⟩
  | 25 => ⟨S262144x128, .f32⟩
  | 26 => ⟨S262144x128, .f32⟩
  | 27 => ⟨S_, .f32⟩
  | 28 => ⟨S262144x128, .f32⟩
  | 29 => ⟨S262144x128, .f32⟩
  | 30 => ⟨S_, .f32⟩
  | 31 => ⟨S262144x128, .f32⟩
  | 32 => ⟨S262144x128, .f32⟩
  | 33 => ⟨S262144x128, .f32⟩
  | 34 => ⟨S262144x8, .f32⟩
  | 35 => ⟨S262144x128, .f32⟩
  | 36 => ⟨S262144x128, .f32⟩
  | 37 => ⟨S262144x64, .f32⟩
  | 38 => ⟨S262144x64, .f32⟩
  | 39 => ⟨S262144x64, .f32⟩
  | 40 => ⟨S_, .f32⟩
  | 41 => ⟨S262144x64, .f32⟩
  | 42 => ⟨S262144x64, .f32⟩
  | 43 => ⟨S_, .f32⟩
  | 44 => ⟨S262144x64, .f32⟩
  | 45 => ⟨S262144x64, .f32⟩
  | 46 => ⟨S262144x64, .f32⟩
  | 47 => ⟨S_, .i32⟩
  | 48 => ⟨S2097152, .i32⟩
  | 49 => ⟨S2097152, .i1⟩
  | 50 => ⟨S_, .i32⟩
  | 51 => ⟨S2097152, .i32⟩
  | 52 => ⟨S2097152, .i32⟩
  | 53 => ⟨S2097152, .i32⟩
  | 54 => ⟨S2097152x1, .i32⟩
  | 55 => ⟨S2097152x64, .f32⟩
  | 56 => ⟨S2097152x8, .f32⟩
  | 57 => ⟨S2097152x64, .f32⟩
  | 58 => ⟨S2097152x64, .f32⟩
  | 59 => ⟨S_, .f32⟩
  | 60 => ⟨S262144x64, .f32⟩
  | 61 => ⟨S2097152x1, .i32⟩
  | 62 => ⟨S262144x64, .f32⟩
  | 63 => ⟨S262144x128, .f32⟩
  | 64 => ⟨S262144x128, .f32⟩
  | 65 => ⟨S262144x128, .f32⟩
  | 66 => ⟨S_, .f32⟩
  | 67 => ⟨S262144x128, .f32⟩
  | 68 => ⟨S262144x128, .f32⟩
  | 69 => ⟨S_, .f32⟩
  | 70 => ⟨S262144x128, .f32⟩
  | 71 => ⟨S262144x128, .f32⟩
  | 72 => ⟨S262144x128, .f32⟩
  | 73 => ⟨S262144x128, .f32⟩
  | 74 => ⟨S1x128, .f32⟩
  | 75 => ⟨S262144x128, .f32⟩
  | 76 => ⟨S262144x128, .f32⟩
  | 77 => ⟨S262144x128, .f32⟩
  | 78 => ⟨S262144x128, .f32⟩
  | 79 => ⟨S_, .f32⟩
  | 80 => ⟨S262144x128, .f32⟩
  | 81 => ⟨S262144x128, .f32⟩
  | 82 => ⟨S_, .f32⟩
  | 83 => ⟨S262144x128, .f32⟩
  | 84 => ⟨S262144x128, .f32⟩
  | 85 => ⟨S262144x128, .f32⟩
  | 86 => ⟨S262144x128, .f32⟩
  | 87 => ⟨S1x1x128x128, .f32⟩
  | 88 => ⟨S128x128, .f32⟩
  | 89 => ⟨S262144x128, .f32⟩
  | 90 => ⟨S1x1x128, .f32⟩
  | 91 => ⟨S128, .f32⟩
  | 92 => ⟨S1x128, .f32⟩
  | 93 => ⟨S262144x128, .f32⟩
  | 94 => ⟨S262144x128, .f32⟩
  | 95 => ⟨S262144x128, .f32⟩
  | 96 => ⟨S262144x128, .f32⟩
  | 97 => ⟨S_, .f32⟩
  | 98 => ⟨S262144x128, .f32⟩
  | 99 => ⟨S262144x128, .f32⟩
  | 100 => ⟨S_, .f32⟩
  | 101 => ⟨S262144x128, .f32⟩
  | 102 => ⟨S262144x128, .f32⟩
  | 103 => ⟨S262144x128, .f32⟩
  | 104 => ⟨S1x1x128x128, .f32⟩
  | 105 => ⟨S128x128, .f32⟩
  | 106 => ⟨S262144x128, .f32⟩
  | 107 => ⟨S1x1x128, .f32⟩
  | 108 => ⟨S128, .f32⟩
  | 109 => ⟨S1x128, .f32⟩
  | 110 => ⟨S262144x128, .f32⟩
  | 111 => ⟨S262144x128, .f32⟩
  | 112 => ⟨S262144x128, .f32⟩
  | 113 => ⟨S262144x128, .f32⟩
  | 114 => ⟨S_, .f32⟩
  | 115 => ⟨S262144x128, .f32⟩
  | 116 => ⟨S262144x128, .f32⟩
  | 117 => ⟨S_, .f32⟩
  | 118 => ⟨S262144x128, .f32⟩
  | 119 => ⟨S262144x128, .f32⟩
  | 120 => ⟨S262144x128, .f32⟩
  | 121 => ⟨S262144x128, .f32⟩
  | 122 => ⟨S262144x128, .f32⟩
  | 123 => ⟨S1x128, .f32⟩
  | 124 => ⟨S262144x128, .f32⟩
  | 125 => ⟨S262144x128, .f32⟩
  | 126 => ⟨S262144x128, .f32⟩
  | 127 => ⟨S262144x128, .f32⟩
  | _ => ⟨S262144x128, .f32⟩

abbrev hbmTy0_1 (i : Nat) : BufTy := match i % 128 with
  | 0 => ⟨S_, .f32⟩
  | 1 => ⟨S262144x128, .f32⟩
  | 2 => ⟨S262144x128, .f32⟩
  | 3 => ⟨S_, .f32⟩
  | 4 => ⟨S262144x128, .f32⟩
  | 5 => ⟨S262144x128, .f32⟩
  | 6 => ⟨S262144x128, .f32⟩
  | 7 => ⟨S262144x128, .f32⟩
  | 8 => ⟨S1x1x128x128, .f32⟩
  | 9 => ⟨S128x128, .f32⟩
  | 10 => ⟨S262144x128, .f32⟩
  | 11 => ⟨S1x1x128, .f32⟩
  | 12 => ⟨S128, .f32⟩
  | 13 => ⟨S1x128, .f32⟩
  | 14 => ⟨S262144x128, .f32⟩
  | 15 => ⟨S262144x128, .f32⟩
  | 16 => ⟨S262144x128, .f32⟩
  | 17 => ⟨S262144x128, .f32⟩
  | 18 => ⟨S_, .f32⟩
  | 19 => ⟨S262144x128, .f32⟩
  | 20 => ⟨S262144x128, .f32⟩
  | 21 => ⟨S_, .f32⟩
  | 22 => ⟨S262144x128, .f32⟩
  | 23 => ⟨S262144x128, .f32⟩
  | 24 => ⟨S262144x128, .f32⟩
  | 25 => ⟨S1x1x128x128, .f32⟩
  | 26 => ⟨S128x128, .f32⟩
  | 27 => ⟨S262144x128, .f32⟩
  | 28 => ⟨S1x1x128, .f32⟩
  | 29 => ⟨S128, .f32⟩
  | 30 => ⟨S1x128, .f32⟩
  | 31 => ⟨S262144x128, .f32⟩
  | 32 => ⟨S262144x128, .f32⟩
  | 33 => ⟨S262144x128, .f32⟩
  | 34 => ⟨S262144x128, .f32⟩
  | 35 => ⟨S_, .f32⟩
  | 36 => ⟨S262144x128, .f32⟩
  | 37 => ⟨S262144x128, .f32⟩
  | 38 => ⟨S_, .f32⟩
  | 39 => ⟨S262144x128, .f32⟩
  | 40 => ⟨S262144x128, .f32⟩
  | 41 => ⟨S262144x128, .f32⟩
  | 42 => ⟨S262144x128, .f32⟩
  | 43 => ⟨S1x1x128x128, .f32⟩
  | 44 => ⟨S128x128, .f32⟩
  | 45 => ⟨S262144x128, .f32⟩
  | 46 => ⟨S1x1x128, .f32⟩
  | 47 => ⟨S128, .f32⟩
  | 48 => ⟨S1x128, .f32⟩
  | 49 => ⟨S262144x128, .f32⟩
  | 50 => ⟨S262144x128, .f32⟩
  | 51 => ⟨S262144x128, .f32⟩
  | 52 => ⟨S262144x128, .f32⟩
  | 53 => ⟨S_, .f32⟩
  | 54 => ⟨S262144x128, .f32⟩
  | 55 => ⟨S262144x128, .f32⟩
  | 56 => ⟨S_, .f32⟩
  | 57 => ⟨S262144x128, .f32⟩
  | 58 => ⟨S262144x128, .f32⟩
  | 59 => ⟨S262144x128, .f32⟩
  | 60 => ⟨S1x1x128x128, .f32⟩
  | 61 => ⟨S128x128, .f32⟩
  | 62 => ⟨S262144x128, .f32⟩
  | 63 => ⟨S1x1x128, .f32⟩
  | 64 => ⟨S128, .f32⟩
  | 65 => ⟨S1x128, .f32⟩
  | 66 => ⟨S262144x128, .f32⟩
  | 67 => ⟨S262144x128, .f32⟩
  | 68 => ⟨S262144x128, .f32⟩
  | 69 => ⟨S262144x128, .f32⟩
  | 70 => ⟨S_, .f32⟩
  | 71 => ⟨S262144x128, .f32⟩
  | 72 => ⟨S262144x128, .f32⟩
  | 73 => ⟨S_, .f32⟩
  | 74 => ⟨S262144x128, .f32⟩
  | 75 => ⟨S262144x128, .f32⟩
  | 76 => ⟨S262144x128, .f32⟩
  | 77 => ⟨S262144x128, .f32⟩
  | _ => ⟨S262144x128, .f32⟩

abbrev hbmTy (i : Nat) : BufTy := match i / 128 with
  | 0 => hbmTy0_0 i
  | 1 => hbmTy0_1 i
  | _ => ⟨S262144x128, .f32⟩

abbrev bufTy : (tb : Table) → Fin (tcTables nBuf tb) → BufTy
  | .hbm, ⟨i, _⟩ => hbmTy i
  | _, _ => ⟨S262144x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_v0 : Ref sig .tc := ⟨.hbm, 21, rfl⟩
abbrev main_v1 : Ref sig .tc := ⟨.hbm, 22, rfl⟩
abbrev main_v2 : Ref sig .tc := ⟨.hbm, 23, rfl⟩
abbrev main_v3 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_call1_v0 : Ref sig .tc := ⟨.hbm, 38, rfl⟩
abbrev main_call1_v1 : Ref sig .tc := ⟨.hbm, 39, rfl⟩
abbrev main_call1_cst : Ref sig .tc := ⟨.hbm, 40, rfl⟩
abbrev main_call1_v2 : Ref sig .tc := ⟨.hbm, 41, rfl⟩
abbrev main_call1_v3 : Ref sig .tc := ⟨.hbm, 42, rfl⟩
abbrev main_call1_cst_0 : Ref sig .tc := ⟨.hbm, 43, rfl⟩
abbrev main_call1_v4 : Ref sig .tc := ⟨.hbm, 44, rfl⟩
abbrev main_call1_v5 : Ref sig .tc := ⟨.hbm, 45, rfl⟩
abbrev main_v9 : Ref sig .tc := ⟨.hbm, 46, rfl⟩
abbrev main_c : Ref sig .tc := ⟨.hbm, 47, rfl⟩
abbrev main_v10 : Ref sig .tc := ⟨.hbm, 48, rfl⟩
abbrev main_v11 : Ref sig .tc := ⟨.hbm, 49, rfl⟩
abbrev main_c_0 : Ref sig .tc := ⟨.hbm, 50, rfl⟩
abbrev main_v12 : Ref sig .tc := ⟨.hbm, 51, rfl⟩
abbrev main_v13 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_v18 : Ref sig .tc := ⟨.hbm, 57, rfl⟩
abbrev main_v19 : Ref sig .tc := ⟨.hbm, 58, rfl⟩
abbrev main_cst : Ref sig .tc := ⟨.hbm, 59, rfl⟩
abbrev main_v20 : Ref sig .tc := ⟨.hbm, 60, rfl⟩
abbrev main_v21 : Ref sig .tc := ⟨.hbm, 61, rfl⟩
abbrev main_v22 : Ref sig .tc := ⟨.hbm, 62, rfl⟩
abbrev main_v23 : Ref sig .tc := ⟨.hbm, 63, rfl⟩
abbrev main_call2_v0 : Ref sig .tc := ⟨.hbm, 64, rfl⟩
abbrev main_call2_v1 : Ref sig .tc := ⟨.hbm, 65, rfl⟩
abbrev main_call2_cst : Ref sig .tc := ⟨.hbm, 66, rfl⟩
abbrev main_call2_v2 : Ref sig .tc := ⟨.hbm, 67, rfl⟩
abbrev main_call2_v3 : Ref sig .tc := ⟨.hbm, 68, rfl⟩
abbrev main_call2_cst_0 : Ref sig .tc := ⟨.hbm, 69, rfl⟩
abbrev main_call2_v4 : Ref sig .tc := ⟨.hbm, 70, rfl⟩
abbrev main_call2_v5 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_call3_v0 : Ref sig .tc := ⟨.hbm, 77, rfl⟩
abbrev main_call3_v1 : Ref sig .tc := ⟨.hbm, 78, rfl⟩
abbrev main_call3_cst : Ref sig .tc := ⟨.hbm, 79, rfl⟩
abbrev main_call3_v2 : Ref sig .tc := ⟨.hbm, 80, rfl⟩
abbrev main_call3_v3 : Ref sig .tc := ⟨.hbm, 81, rfl⟩
abbrev main_call3_cst_0 : Ref sig .tc := ⟨.hbm, 82, rfl⟩
abbrev main_call3_v4 : Ref sig .tc := ⟨.hbm, 83, rfl⟩
abbrev main_call3_v5 : Ref sig .tc := ⟨.hbm, 84, rfl⟩
abbrev main_v29 : Ref sig .tc := ⟨.hbm, 85, rfl⟩
abbrev main_v30 : Ref sig .tc := ⟨.hbm, 86, rfl⟩
abbrev main_v31 : Ref sig .tc := ⟨.hbm, 87, rfl⟩
abbrev main_v32 : Ref sig .tc := ⟨.hbm, 88, rfl⟩
abbrev main_v33 : Ref sig .tc := ⟨.hbm, 89, rfl⟩
abbrev main_v34 : Ref sig .tc := ⟨.hbm, 90, rfl⟩
abbrev main_v35 : Ref sig .tc := ⟨.hbm, 91, rfl⟩
abbrev main_v36 : Ref sig .tc := ⟨.hbm, 92, rfl⟩
abbrev main_v37 : Ref sig .tc := ⟨.hbm, 93, rfl⟩
abbrev main_v38 : Ref sig .tc := ⟨.hbm, 94, rfl⟩
abbrev main_call4_v0 : Ref sig .tc := ⟨.hbm, 95, rfl⟩
abbrev main_call4_v1 : Ref sig .tc := ⟨.hbm, 96, rfl⟩
abbrev main_call4_cst : Ref sig .tc := ⟨.hbm, 97, rfl⟩
abbrev main_call4_v2 : Ref sig .tc := ⟨.hbm, 98, rfl⟩
abbrev main_call4_v3 : Ref sig .tc := ⟨.hbm, 99, rfl⟩
abbrev main_call4_cst_0 : Ref sig .tc := ⟨.hbm, 100, rfl⟩
abbrev main_call4_v4 : Ref sig .tc := ⟨.hbm, 101, rfl⟩
abbrev main_call4_v5 : Ref sig .tc := ⟨.hbm, 102, rfl⟩
abbrev main_v39 : Ref sig .tc := ⟨.hbm, 103, rfl⟩
abbrev main_v40 : Ref sig .tc := ⟨.hbm, 104, rfl⟩
abbrev main_v41 : Ref sig .tc := ⟨.hbm, 105, rfl⟩
abbrev main_v42 : Ref sig .tc := ⟨.hbm, 106, rfl⟩
abbrev main_v43 : Ref sig .tc := ⟨.hbm, 107, rfl⟩
abbrev main_v44 : Ref sig .tc := ⟨.hbm, 108, rfl⟩
abbrev main_v45 : Ref sig .tc := ⟨.hbm, 109, rfl⟩
abbrev main_v46 : Ref sig .tc := ⟨.hbm, 110, rfl⟩
abbrev main_v47 : Ref sig .tc := ⟨.hbm, 111, rfl⟩
abbrev main_call5_v0 : Ref sig .tc := ⟨.hbm, 112, rfl⟩
abbrev main_call5_v1 : Ref sig .tc := ⟨.hbm, 113, rfl⟩
abbrev main_call5_cst : Ref sig .tc := ⟨.hbm, 114, rfl⟩
abbrev main_call5_v2 : Ref sig .tc := ⟨.hbm, 115, rfl⟩
abbrev main_call5_v3 : Ref sig .tc := ⟨.hbm, 116, rfl⟩
abbrev main_call5_cst_0 : Ref sig .tc := ⟨.hbm, 117, rfl⟩
abbrev main_call5_v4 : Ref sig .tc := ⟨.hbm, 118, rfl⟩
abbrev main_call5_v5 : Ref sig .tc := ⟨.hbm, 119, rfl⟩
abbrev main_v48 : Ref sig .tc := ⟨.hbm, 120, rfl⟩
abbrev main_v49 : Ref sig .tc := ⟨.hbm, 121, rfl⟩
abbrev main_v50 : Ref sig .tc := ⟨.hbm, 122, rfl⟩
abbrev main_v51 : Ref sig .tc := ⟨.hbm, 123, rfl⟩
abbrev main_v52 : Ref sig .tc := ⟨.hbm, 124, rfl⟩
abbrev main_v53 : Ref sig .tc := ⟨.hbm, 125, rfl⟩
abbrev main_call6_v0 : Ref sig .tc := ⟨.hbm, 126, rfl⟩
abbrev main_call6_v1 : Ref sig .tc := ⟨.hbm, 127, rfl⟩
abbrev main_call6_cst : Ref sig .tc := ⟨.hbm, 128, rfl⟩
abbrev main_call6_v2 : Ref sig .tc := ⟨.hbm, 129, rfl⟩
abbrev main_call6_v3 : Ref sig .tc := ⟨.hbm, 130, rfl⟩
abbrev main_call6_cst_0 : Ref sig .tc := ⟨.hbm, 131, rfl⟩
abbrev main_call6_v4 : Ref sig .tc := ⟨.hbm, 132, rfl⟩
abbrev main_call6_v5 : Ref sig .tc := ⟨.hbm, 133, rfl⟩
abbrev main_v54 : Ref sig .tc := ⟨.hbm, 134, rfl⟩
abbrev main_v55 : Ref sig .tc := ⟨.hbm, 135, rfl⟩
abbrev main_v56 : Ref sig .tc := ⟨.hbm, 136, rfl⟩
abbrev main_v57 : Ref sig .tc := ⟨.hbm, 137, rfl⟩
abbrev main_v58 : Ref sig .tc := ⟨.hbm, 138, rfl⟩
abbrev main_v59 : Ref sig .tc := ⟨.hbm, 139, rfl⟩
abbrev main_v60 : Ref sig .tc := ⟨.hbm, 140, rfl⟩
abbrev main_v61 : Ref sig .tc := ⟨.hbm, 141, rfl⟩
abbrev main_v62 : Ref sig .tc := ⟨.hbm, 142, rfl⟩
abbrev main_v63 : Ref sig .tc := ⟨.hbm, 143, rfl⟩
abbrev main_call7_v0 : Ref sig .tc := ⟨.hbm, 144, rfl⟩
abbrev main_call7_v1 : Ref sig .tc := ⟨.hbm, 145, rfl⟩
abbrev main_call7_cst : Ref sig .tc := ⟨.hbm, 146, rfl⟩
abbrev main_call7_v2 : Ref sig .tc := ⟨.hbm, 147, rfl⟩
abbrev main_call7_v3 : Ref sig .tc := ⟨.hbm, 148, rfl⟩
abbrev main_call7_cst_0 : Ref sig .tc := ⟨.hbm, 149, rfl⟩
abbrev main_call7_v4 : Ref sig .tc := ⟨.hbm, 150, rfl⟩
abbrev main_call7_v5 : Ref sig .tc := ⟨.hbm, 151, rfl⟩
abbrev main_v64 : Ref sig .tc := ⟨.hbm, 152, rfl⟩
abbrev main_v65 : Ref sig .tc := ⟨.hbm, 153, rfl⟩
abbrev main_v66 : Ref sig .tc := ⟨.hbm, 154, rfl⟩
abbrev main_v67 : Ref sig .tc := ⟨.hbm, 155, rfl⟩
abbrev main_v68 : Ref sig .tc := ⟨.hbm, 156, rfl⟩
abbrev main_v69 : Ref sig .tc := ⟨.hbm, 157, rfl⟩
abbrev main_v70 : Ref sig .tc := ⟨.hbm, 158, rfl⟩
abbrev main_v71 : Ref sig .tc := ⟨.hbm, 159, rfl⟩
abbrev main_v72 : Ref sig .tc := ⟨.hbm, 160, rfl⟩
abbrev main_call8_v0 : Ref sig .tc := ⟨.hbm, 161, rfl⟩
abbrev main_call8_v1 : Ref sig .tc := ⟨.hbm, 162, rfl⟩
abbrev main_call8_cst : Ref sig .tc := ⟨.hbm, 163, rfl⟩
abbrev main_call8_v2 : Ref sig .tc := ⟨.hbm, 164, rfl⟩
abbrev main_call8_v3 : Ref sig .tc := ⟨.hbm, 165, rfl⟩
abbrev main_call8_cst_0 : Ref sig .tc := ⟨.hbm, 166, rfl⟩
abbrev main_call8_v4 : Ref sig .tc := ⟨.hbm, 167, rfl⟩
abbrev main_call8_v5 : Ref sig .tc := ⟨.hbm, 168, rfl⟩
abbrev main_v73 : Ref sig .tc := ⟨.hbm, 169, rfl⟩
abbrev main_v74 : Ref sig .tc := ⟨.hbm, 170, rfl⟩
abbrev main_v75 : Ref sig .tc := ⟨.hbm, 171, rfl⟩
abbrev main_v76 : Ref sig .tc := ⟨.hbm, 172, rfl⟩
abbrev main_v77 : Ref sig .tc := ⟨.hbm, 173, rfl⟩
abbrev main_v78 : Ref sig .tc := ⟨.hbm, 174, rfl⟩
abbrev main_v79 : Ref sig .tc := ⟨.hbm, 175, rfl⟩
abbrev main_v80 : Ref sig .tc := ⟨.hbm, 176, rfl⟩
abbrev main_v81 : Ref sig .tc := ⟨.hbm, 177, rfl⟩
abbrev main_v82 : Ref sig .tc := ⟨.hbm, 178, rfl⟩
abbrev main_call9_v0 : Ref sig .tc := ⟨.hbm, 179, rfl⟩
abbrev main_call9_v1 : Ref sig .tc := ⟨.hbm, 180, rfl⟩
abbrev main_call9_cst : Ref sig .tc := ⟨.hbm, 181, rfl⟩
abbrev main_call9_v2 : Ref sig .tc := ⟨.hbm, 182, rfl⟩
abbrev main_call9_v3 : Ref sig .tc := ⟨.hbm, 183, rfl⟩
abbrev main_call9_cst_0 : Ref sig .tc := ⟨.hbm, 184, rfl⟩
abbrev main_call9_v4 : Ref sig .tc := ⟨.hbm, 185, rfl⟩
abbrev main_call9_v5 : Ref sig .tc := ⟨.hbm, 186, rfl⟩
abbrev main_v83 : Ref sig .tc := ⟨.hbm, 187, rfl⟩
abbrev main_v84 : Ref sig .tc := ⟨.hbm, 188, rfl⟩
abbrev main_v85 : Ref sig .tc := ⟨.hbm, 189, rfl⟩
abbrev main_v86 : Ref sig .tc := ⟨.hbm, 190, rfl⟩
abbrev main_v87 : Ref sig .tc := ⟨.hbm, 191, rfl⟩
abbrev main_v88 : Ref sig .tc := ⟨.hbm, 192, rfl⟩
abbrev main_v89 : Ref sig .tc := ⟨.hbm, 193, rfl⟩
abbrev main_v90 : Ref sig .tc := ⟨.hbm, 194, rfl⟩
abbrev main_v91 : Ref sig .tc := ⟨.hbm, 195, rfl⟩
abbrev main_call10_v0 : Ref sig .tc := ⟨.hbm, 196, rfl⟩
abbrev main_call10_v1 : Ref sig .tc := ⟨.hbm, 197, rfl⟩
abbrev main_call10_cst : Ref sig .tc := ⟨.hbm, 198, rfl⟩
abbrev main_call10_v2 : Ref sig .tc := ⟨.hbm, 199, rfl⟩
abbrev main_call10_v3 : Ref sig .tc := ⟨.hbm, 200, rfl⟩
abbrev main_call10_cst_0 : Ref sig .tc := ⟨.hbm, 201, rfl⟩
abbrev main_call10_v4 : Ref sig .tc := ⟨.hbm, 202, rfl⟩
abbrev main_call10_v5 : Ref sig .tc := ⟨.hbm, 203, rfl⟩
abbrev main_v92 : Ref sig .tc := ⟨.hbm, 204, rfl⟩
abbrev main_v93 : Ref sig .tc := ⟨.hbm, 205, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S262144x128_0_1 : S1x128.BroadcastsInDim S262144x128 (![0, 1] : Fin 2 → Fin S262144x128.rank)
  bcast_S_S262144x128 : S_.BroadcastsInDim S262144x128 (![] : Fin 0 → Fin S262144x128.rank)
  bcast_S_S262144x64 : S_.BroadcastsInDim S262144x64 (![] : Fin 0 → Fin S262144x64.rank)
  bcast_S_S2097152 : S_.BroadcastsInDim S2097152 (![] : Fin 0 → Fin S2097152.rank)
  bcast_S2097152_S2097152x1_0 : S2097152.BroadcastsInDim S2097152x1 (![0] : Fin 1 → Fin S2097152x1.rank)
  slices_S1x2x128x128_S1x1x128x128_0_0_0_0 : S1x2x128x128.Slices ![0, 0, 0, 0] S1x1x128x128
  shapeCasts_S1x1x128x128_S128x128 : S1x1x128x128.ShapeCasts S128x128
  slices_S1x2x128_S1x1x128_0_0_0 : S1x2x128.Slices ![0, 0, 0] S1x1x128
  shapeCasts_S1x1x128_S128 : S1x1x128.ShapeCasts S128
  slices_S1x2x128x128_S1x1x128x128_0_1_0_0 : S1x2x128x128.Slices ![0, 1, 0, 0] S1x1x128x128
  slices_S1x2x128_S1x1x128_0_1_0 : S1x2x128.Slices ![0, 1, 0] S1x1x128
  slices_S2x2x128x128_S1x1x128x128_0_0_0_0 : S2x2x128x128.Slices ![0, 0, 0, 0] S1x1x128x128
  slices_S2x2x128_S1x1x128_0_0_0 : S2x2x128.Slices ![0, 0, 0] S1x1x128
  slices_S2x2x128x128_S1x1x128x128_0_1_0_0 : S2x2x128x128.Slices ![0, 1, 0, 0] S1x1x128x128
  slices_S2x2x128_S1x1x128_0_1_0 : S2x2x128.Slices ![0, 1, 0] S1x1x128
  slices_S2x2x128x128_S1x1x128x128_1_0_0_0 : S2x2x128x128.Slices ![1, 0, 0, 0] S1x1x128x128
  slices_S2x2x128_S1x1x128_1_0_0 : S2x2x128.Slices ![1, 0, 0] S1x1x128
  slices_S2x2x128x128_S1x1x128x128_1_1_0_0 : S2x2x128x128.Slices ![1, 1, 0, 0] S1x1x128x128
  slices_S2x2x128_S1x1x128_1_1_0 : S2x2x128.Slices ![1, 1, 0] S1x1x128
  dot_S262144x128_S128x128_S262144x128_1_0_0_1_n_n_wf : DotDims.WF S262144x128 S128x128 S262144x128 [1] [0] [0] [1] [] []
  dot_S262144x6_S6x8_S262144x8_1_0_0_1_n_n_wf : DotDims.WF S262144x6 S6x8 S262144x8 [1] [0] [0] [1] [] []
  dot_S262144x8_S8x128_S262144x128_1_0_0_1_n_n_wf : DotDims.WF S262144x8 S8x128 S262144x128 [1] [0] [0] [1] [] []
  dot_S262144x128_S128x64_S262144x64_1_0_0_1_n_n_wf : DotDims.WF S262144x128 S128x64 S262144x64 [1] [0] [0] [1] [] []
  gather_S262144x64_S2097152x1_S2097152x64_1_0_n_n_0_1_164_wf : GatherDims.WF S262144x64 S2097152x1 S2097152x64 [1] [0] [] [0] [] 1 ![1, 64]
  dot_S2097152x42_S42x8_S2097152x8_1_0_0_1_n_n_wf : DotDims.WF S2097152x42 S42x8 S2097152x8 [1] [0] [0] [1] [] []
  dot_S2097152x8_S8x64_S2097152x64_1_0_0_1_n_n_wf : DotDims.WF S2097152x8 S8x64 S2097152x64 [1] [0] [0] [1] [] []
  scatter_S262144x64_S2097152x1_S2097152x64_1_0_0_1_wf : ScatterDims.WF S262144x64 S2097152x1 S2097152x64 [1] [0] [0] 1
  dot_S262144x64_S64x128_S262144x128_1_0_0_1_n_n_wf : DotDims.WF S262144x64 S64x128 S262144x128 [1] [0] [0] [1] [] []

variable [Facts₀]

def dot_S262144x128_S128x128_S262144x128_1_0_0_1_n_n : DotDims S262144x128 S128x128 S262144x128 where
  lhsContracting := [1]
  rhsContracting := [0]
  lhsNonContracting := [0]
  rhsNonContracting := [1]
  lhsBatch := []
  rhsBatch := []
  wf := dot_S262144x128_S128x128_S262144x128_1_0_0_1_n_n_wf
def dot_S262144x6_S6x8_S262144x8_1_0_0_1_n_n : DotDims S262144x6 S6x8 S262144x8 where
  lhsContracting := [1]
  rhsContracting := [0]
  lhsNonContracting := [0]
  rhsNonContracting := [1]
  lhsBatch := []
  rhsBatch := []
  wf := dot_S262144x6_S6x8_S262144x8_1_0_0_1_n_n_wf
def dot_S262144x8_S8x128_S262144x128_1_0_0_1_n_n : DotDims S262144x8 S8x128 S262144x128 where
  lhsContracting := [1]
  rhsContracting := [0]
  lhsNonContracting := [0]
  rhsNonContracting := [1]
  lhsBatch := []
  rhsBatch := []
  wf := dot_S262144x8_S8x128_S262144x128_1_0_0_1_n_n_wf
def dot_S262144x128_S128x64_S262144x64_1_0_0_1_n_n : DotDims S262144x128 S128x64 S262144x64 where
  lhsContracting := [1]
  rhsContracting := [0]
  lhsNonContracting := [0]
  rhsNonContracting := [1]
  lhsBatch := []
  rhsBatch := []
  wf := dot_S262144x128_S128x64_S262144x64_1_0_0_1_n_n_wf
def gather_S262144x64_S2097152x1_S2097152x64_1_0_n_n_0_1_164 : GatherDims S262144x64 S2097152x1 S2097152x64 where
  offsetDims := [1]
  collapsedSliceDims := [0]
  operandBatchingDims := []
  startIndicesBatchingDims := []
  startIndexMap := [0]
  indexVectorDim := 1
  sliceSizes := ![1, 64]
  wf := gather_S262144x64_S2097152x1_S2097152x64_1_0_n_n_0_1_164_wf
def dot_S2097152x42_S42x8_S2097152x8_1_0_0_1_n_n : DotDims S2097152x42 S42x8 S2097152x8 where
  lhsContracting := [1]
  rhsContracting := [0]
  lhsNonContracting := [0]
  rhsNonContracting := [1]
  lhsBatch := []
  rhsBatch := []
  wf := dot_S2097152x42_S42x8_S2097152x8_1_0_0_1_n_n_wf
def dot_S2097152x8_S8x64_S2097152x64_1_0_0_1_n_n : DotDims S2097152x8 S8x64 S2097152x64 where
  lhsContracting := [1]
  rhsContracting := [0]
  lhsNonContracting := [0]
  rhsNonContracting := [1]
  lhsBatch := []
  rhsBatch := []
  wf := dot_S2097152x8_S8x64_S2097152x64_1_0_0_1_n_n_wf
def scatter_S262144x64_S2097152x1_S2097152x64_1_0_0_1 : ScatterDims S262144x64 S2097152x1 S2097152x64 where
  updateWindowDims := [1]
  insertedWindowDims := [0]
  scatterDimsToOperandDims := [0]
  indexVectorDim := 1
  wf := scatter_S262144x64_S2097152x1_S2097152x64_1_0_0_1_wf
def dot_S262144x64_S64x128_S262144x128_1_0_0_1_n_n : DotDims S262144x64 S64x128 S262144x128 where
  lhsContracting := [1]
  rhsContracting := [0]
  lhsNonContracting := [0]
  rhsNonContracting := [1]
  lhsBatch := []
  rhsBatch := []
  wf := dot_S262144x64_S64x128_S262144x128_1_0_0_1_n_n_wf

class Facts : Prop extends Facts₀ where

variable [Facts]
-- ==== Proof.KernelRun.lean ====
/-
  The idealized kernel's run with its result named.

  The program is three pipelined regions among stretches of host operations.  Its run is a fold of the
  device's buffer contents through those six segments; the last boundary's contents are `W6`.  Here the
  run is stated once more with the result buffer read off that last boundary beside the unchanged
  arguments: every weakly fair execution terminates, and the result array holds `W6` at the result's
  reference.  What `W6` holds there, as a function of the arguments, is the business of the modules
  that follow.
-/
import proofs.«112893_j944892805681_2_alg».proof.Proof.Gen.KernelIdeal.Frame

set_option maxRecDepth 16384

noncomputable section

namespace Cert.KernelIdeal.RunV

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run of the segments from the launch memory: it terminates without a fault, the result array ends at the
    last boundary's contents and every argument array as launched. -/
theorem run_value : θ_run defs (onTc (τ := τ) (main (F := F))) ⟨m, fun _ => 0, ρ⟩ (fun r => ∀ c : Dev nD,
      r.2.mem ((c.tc : Thread nD τ).loc main_v16) = W6 m ρ c (Proc.devRef .tc main_v16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v16 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c),
       (h c _ (mem_uc main_arg15 (by decide))).trans (W6_main_arg15 m ρ c),
       (h c _ (mem_uc main_arg16 (by decide))).trans (W6_main_arg16 m ρ c),
       (h c _ (mem_uc main_arg17 (by decide))).trans (W6_main_arg17 m ρ c),
       (h c _ (mem_uc main_arg18 (by decide))).trans (W6_main_arg18 m ρ c),
       (h c _ (mem_uc main_arg19 (by decide))).trans (W6_main_arg19 m ρ c),
       (h c _ (mem_uc main_arg20 (by decide))).trans (W6_main_arg20 m ρ c)⟩)

end Cert.KernelIdeal.RunV

end
-- ==== Proof.LibRows.lean ====
/-
  Row blocks of a two-axis array at the ideal values.

  A kernel that walks an `N × C` array in blocks of `B` rows computes, at each block, the same
  function of the block's rows that a whole-array program computes of all rows at once, provided
  every operation is local to a row: a matrix product against a fixed right factor, the addition
  of a bias row, a pointwise operation.  This module states that locality once:

  * `rows off h A` is the block of `B` rows of `A` starting at row `off`;
  * `PlainSum d`: the contraction of the dot `d` is the plain matrix product
    `∑ j, f (p, j) · g (j, c)`;
  * `rows_dot`: the rows of a whole-array product are the product of the rows;
  * `rows_bias`: the rows of a bias row broadcast down the array are the bias row broadcast down
    the block;
  * `rows_silu`: `x · (1 / (1 + e^(-x)))` spelt with divide, add, exponential and negate is
    `x · logistic x`, pointwise, hence also on rows;
  * `dot_assoc`: over finite entries `(A · U) · V = A · (U · V)`.
-/
import Idealize.ShloMosaic.Lib.ValueIdx
import Idealize.ShloMosaic.Lib.Pipeline.Value
import Idealize.ShloMosaic.PureOps.Ideal.Laws

noncomputable section

namespace RowBlocks

open Idealize.ShloMosaic Idealize.ShloMosaic.ValueIdx

/-- Rows `off … off + B - 1` of an `N × C` array, as a `B × C` array. -/
def rows {α : Type} {N B C : ℕ} (off : ℕ) (h : off + B ≤ N) (A : (⟨2, ![N, C]⟩ : Shape).Idx → α) :
    (⟨2, ![B, C]⟩ : Shape).Idx → α :=
  fun y => A (ix2 (n0 := N) (n1 := C) ⟨off + (y 0).val, by have := idx2_lt0 y; omega⟩ (y 1))

theorem rows_apply {α : Type} {N B C : ℕ} (off : ℕ) (h : off + B ≤ N) (A : (⟨2, ![N, C]⟩ : Shape).Idx → α)
    (p : Fin B) (q : Fin C) :
    rows off h A (ix2 p q) = A (ix2 ⟨off + p.val, by have := p.isLt; omega⟩ q) := rfl

/-- The contraction of `d`, a dot of an `m × k` by a `k × n` array, is the plain matrix product. -/
def PlainSum {m k n : ℕ} (d : DotDims ⟨2, ![m, k]⟩ ⟨2, ![k, n]⟩ ⟨2, ![m, n]⟩) : Prop :=
  ∀ (f : (⟨2, ![m, k]⟩ : Shape).Idx → EReal) (g : (⟨2, ![k, n]⟩ : Shape).Idx → EReal) (p : Fin m) (c : Fin n),
    (∑ q : d.contr.Idx, f (d.lhsIdx (ix2 p c) q) * g (d.rhsIdx (ix2 p c) q)) = ∑ j : Fin k, f (ix2 p j) * g (ix2 j c)

/-- A dot with one contracted axis, the left factor's second against the right factor's first, and no
    batch axis, is a plain matrix product: its operand indices at output `(p, c)` and contraction
    index `j` are `(p, j)` and `(j, c)`. -/
theorem plainSum_of {m k n : ℕ} (d : DotDims ⟨2, ![m, k]⟩ ⟨2, ![k, n]⟩ ⟨2, ![m, n]⟩) (hr : d.contr.rank = 1)
    (hs : d.contr.size ⟨0, by omega⟩ = k)
    (hl0 : ∀ i q, (d.lhsIdx i q 0).val = (i 0).val) (hl1 : ∀ i q, (d.lhsIdx i q 1).val = (q ⟨0, by omega⟩).val)
    (hr0 : ∀ i q, (d.rhsIdx i q 0).val = (q ⟨0, by omega⟩).val) (hr1 : ∀ i q, (d.rhsIdx i q 1).val = (i 1).val) :
    PlainSum d := by
  intro f g p c
  rw [← Equiv.sum_comp (contrEquiv1 d k hr hs).symm]
  refine Finset.sum_congr rfl fun j _ => ?_
  have hj := contrEquiv1_symm_val d k hr hs j
  have el : d.lhsIdx (ix2 p c) ((contrEquiv1 d k hr hs).symm j) = ix2 p j := funext fun a => Fin.ext (by
    match a with
    | ⟨0, _⟩ => exact hl0 _ _
    | ⟨1, _⟩ => exact (hl1 _ _).trans hj)
  have er : d.rhsIdx (ix2 p c) ((contrEquiv1 d k hr hs).symm j) = ix2 j c := funext fun a => Fin.ext (by
    match a with
    | ⟨0, _⟩ => exact (hr0 _ _).trans hj
    | ⟨1, _⟩ => exact hr1 _ _)
  rw [el, er]

/-- The host's product read at an index. -/
theorem dotGeneral_ix2 {m k n : ℕ} (d : DotDims ⟨2, ![m, k]⟩ ⟨2, ![k, n]⟩ ⟨2, ![m, n]⟩) (hd : PlainSum d)
    {φ₁ φ₂ : FTy} (prec : Option ContractPrecision) (A : FVec Ideal ⟨2, ![m, k]⟩ φ₁) (W : FVec Ideal ⟨2, ![k, n]⟩ φ₂)
    (p : Fin m) (c : Fin n) :
    Host.dotGeneral d prec A W (ix2 p c) = ∑ j : Fin k, A (ix2 p j) * W (ix2 j c) := by
  simp only [Host.dotGeneral]
  rw [Ideal.dotGeneral_apply]
  exact hd A W p c

/-- The matrix unit's product into a zero accumulator read at an index. -/
theorem matmul_zero_ix2 {m k n : ℕ} (d : DotDims ⟨2, ![m, k]⟩ ⟨2, ![k, n]⟩ ⟨2, ![m, n]⟩) (hd : PlainSum d)
    {φ₁ φ₂ : FTy} (prec : Option ContractPrecision) (A : FVec Ideal ⟨2, ![m, k]⟩ φ₁) (W : FVec Ideal ⟨2, ![k, n]⟩ φ₂)
    (p : Fin m) (c : Fin n) :
    matmul d prec A W (constant ⟨2, ![m, n]⟩ .f32 0x00000000#32) (ix2 p c) = ∑ j : Fin k, A (ix2 p j) * W (ix2 j c) := by
  simp only [matmul]
  rw [Ideal.matmul_constant_zero_apply]
  exact hd A W p c

/-- THE ROWS OF A PRODUCT are the product of the rows: the whole-array product of `A` by `W`, read on a
    block of rows, is the matrix unit's product of that block of `A` by `W` (both operands passed
    through a change of float format, which is the identity at the ideal values). -/
theorem rows_dot {N B K M : ℕ} (dB : DotDims ⟨2, ![N, K]⟩ ⟨2, ![K, M]⟩ ⟨2, ![N, M]⟩)
    (dS : DotDims ⟨2, ![B, K]⟩ ⟨2, ![K, M]⟩ ⟨2, ![B, M]⟩) (hB : PlainSum dB) (hS : PlainSum dS)
    (off : ℕ) (h : off + B ≤ N) (p p' : Option ContractPrecision)
    (A : FVec Ideal ⟨2, ![N, K]⟩ .f32) (W : FVec Ideal ⟨2, ![K, M]⟩ .f32)
    (h1 : FTy.bf16.bits < FTy.f32.bits) :
    rows off h (Host.dotGeneral dB p A W)
      = matmul dS p' (truncf .bf16 (rows off h A) h1) (truncf .bf16 W h1) (constant ⟨2, ![B, M]⟩ .f32 0x00000000#32) := by
  funext y
  obtain ⟨r, c, rfl⟩ : ∃ (r : Fin B) (c : Fin M), y = ix2 r c := ⟨y 0, y 1, eq_ix2 y⟩
  rw [rows_apply, dotGeneral_ix2 dB hB, matmul_zero_ix2 dS hS]
  rfl

/-- THE ROWS OF A BIAS: a bias row of 128 entries, made a `1 × 128` array and broadcast down the whole
    array, read on a block of rows, is the bias row broadcast down the block. -/
theorem rows_bias {α : Type} {N B : ℕ} (off : ℕ) (h : off + B ≤ N) (b : (⟨1, ![128]⟩ : Shape).Idx → α)
    (hb1 : (⟨1, ![128]⟩ : Shape).BroadcastsInDim ⟨2, ![1, 128]⟩ ![1])
    (hb2 : (⟨2, ![1, 128]⟩ : Shape).BroadcastsInDim ⟨2, ![N, 128]⟩ ![0, 1])
    (hsc : (⟨1, ![128]⟩ : Shape).ShapeCasts ⟨2, ![1, 128]⟩)
    (hbt : (⟨2, ![1, 128]⟩ : Shape).Broadcasts ⟨2, ![B, 128]⟩) :
    rows off h (broadcastInDim ⟨2, ![N, 128]⟩ ![0, 1] hb2 (broadcastInDim ⟨2, ![1, 128]⟩ ![1] hb1 b))
      = broadcastTo ⟨2, ![B, 128]⟩ (shapeCast ⟨2, ![1, 128]⟩ b hsc) hbt := by
  funext y
  obtain ⟨r, c, rfl⟩ : ∃ (r : Fin B) (c : Fin 128), y = ix2 r c := ⟨y 0, y 1, eq_ix2 y⟩
  rw [rows_apply]
  rw [broadcastInDim_apply _ hb2 _ _ (ix2 (⟨0, Nat.one_pos⟩ : Fin 1) c) (fun a => match a with
    | ⟨0, _⟩ => by show 0 = if (1 : Nat) = 1 then 0 else _; rw [if_pos rfl]
    | ⟨1, _⟩ => by show c.val = if (128 : Nat) = 1 then 0 else c.val; rw [if_neg (by decide)])]
  rw [broadcastInDim_apply _ hb1 _ _ (ix1 c) (fun a => match a with
    | ⟨0, _⟩ => by show c.val = if (128 : Nat) = 1 then 0 else c.val; rw [if_neg (by decide)])]
  rw [broadcastTo_apply _ hbt _ (ix2 (⟨0, Nat.one_pos⟩ : Fin 1) c) (fun a => match a with
    | ⟨0, _⟩ => by show 0 = if (1 : Nat) = 1 then 0 else _; rw [if_pos rfl]
    | ⟨1, _⟩ => by show c.val = if (128 : Nat) = 1 then 0 else c.val; rw [if_neg (by decide)])]
  rw [shapeCast_addUnit_apply ![128] b hsc]
  exact congrArg b (funext fun a => match a with | ⟨0, _⟩ => rfl)

/-- The bit pattern of `1.0` denotes `1`. -/
theorem ofBits_one : Ideal.ofBits .f32 0x3F800000#32 = 1 := by
  simp [Ideal.ofBits, Ideal.ieee, -EReal.coe_mul]; norm_num

/-- `x · (1 / (1 + e^(-x)))`, spelt with the host's divide, add, exponential and negate over splats of
    `1.0`, is `x · logistic x` pointwise. -/
theorem silu_eq {s : Shape} (X : FVec Ideal s .f32) (hb : (⟨0, ![]⟩ : Shape).BroadcastsInDim s ![]) :
    mulf X (Host.divf (broadcastInDim s ![] hb (constant ⟨0, ![]⟩ .f32 0x3F800000#32))
        (addf (broadcastInDim s ![] hb (constant ⟨0, ![]⟩ .f32 0x3F800000#32)) (Host.exp (Host.negf X))))
      = mulf X (logistic X) := by
  funext i
  show X i * Ideal.div (Ideal.ofBits .f32 0x3F800000#32) (Ideal.ofBits .f32 0x3F800000#32 + Ideal.exp (-(X i)))
    = X i * Ideal.logistic (X i)
  rw [ofBits_one]
  rfl

/-- Pointwise operations commute with taking rows (by definition). -/
theorem rows_mulf {N B C : ℕ} (off : ℕ) (h : off + B ≤ N) (X Y : FVec Ideal ⟨2, ![N, C]⟩ .f32) :
    rows off h (mulf X Y) = mulf (rows off h X) (rows off h Y) := rfl
theorem rows_addf {N B C : ℕ} (off : ℕ) (h : off + B ≤ N) (X Y : FVec Ideal ⟨2, ![N, C]⟩ .f32) :
    rows off h (addf X Y) = addf (rows off h X) (rows off h Y) := rfl
theorem rows_logistic {N B C : ℕ} (off : ℕ) (h : off + B ≤ N) (X : FVec Ideal ⟨2, ![N, C]⟩ .f32) :
    rows off h (logistic X) = logistic (rows off h X) := rfl

/-! ## The plain matrix product as a function, and its associativity over finite entries -/

/-- The plain matrix product `(A · W) (p, c) = ∑ j, A (p, j) · W (j, c)` on the extended reals. -/
def mm {m k n : ℕ} (A : (⟨2, ![m, k]⟩ : Shape).Idx → EReal) (W : (⟨2, ![k, n]⟩ : Shape).Idx → EReal) :
    (⟨2, ![m, n]⟩ : Shape).Idx → EReal :=
  fun i => ∑ j : Fin k, A (ix2 (i 0) j) * W (ix2 j (i 1))

/-- The host's product IS the plain matrix product. -/
theorem dot_eq_mm {m k n : ℕ} (d : DotDims ⟨2, ![m, k]⟩ ⟨2, ![k, n]⟩ ⟨2, ![m, n]⟩) (hd : PlainSum d)
    {φ₁ φ₂ : FTy} (prec : Option ContractPrecision) (A : FVec Ideal ⟨2, ![m, k]⟩ φ₁) (W : FVec Ideal ⟨2, ![k, n]⟩ φ₂) :
    Host.dotGeneral d prec A W = mm A W := by
  funext y
  obtain ⟨r, c, rfl⟩ : ∃ (r : Fin m) (c : Fin n), y = ix2 r c := ⟨y 0, y 1, eq_ix2 y⟩
  rw [dotGeneral_ix2 d hd]
  rfl

/-- The rows of a plain matrix product are the matrix unit's product of the rows. -/
theorem rows_mm {N B K M : ℕ} (dS : DotDims ⟨2, ![B, K]⟩ ⟨2, ![K, M]⟩ ⟨2, ![B, M]⟩) (hS : PlainSum dS)
    (off : ℕ) (h : off + B ≤ N) (p' : Option ContractPrecision)
    (A : FVec Ideal ⟨2, ![N, K]⟩ .f32) (W : FVec Ideal ⟨2, ![K, M]⟩ .f32)
    (h1 : FTy.bf16.bits < FTy.f32.bits) :
    rows off h (mm A W)
      = matmul dS p' (truncf .bf16 (rows off h A) h1) (truncf .bf16 W h1) (constant ⟨2, ![B, M]⟩ .f32 0x00000000#32) := by
  funext y
  obtain ⟨r, c, rfl⟩ : ∃ (r : Fin B) (c : Fin M), y = ix2 r c := ⟨y 0, y 1, eq_ix2 y⟩
  rw [rows_apply, matmul_zero_ix2 dS hS]
  rfl

/-- A finite sum of reals, coerced termwise. -/
theorem coe_sum {ι : Type} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- Over FINITE entries the plain matrix product is associative (on the extended reals it is not in general:
    distributing a product over a sum fails at the infinities). -/
theorem mm_assoc {m k l n : ℕ} (A : (⟨2, ![m, k]⟩ : Shape).Idx → EReal) (U : (⟨2, ![k, l]⟩ : Shape).Idx → EReal)
    (V : (⟨2, ![l, n]⟩ : Shape).Idx → EReal) (hA : ∀ i, ∃ r : ℝ, A i = (r : EReal)) (hU : ∀ i, ∃ r : ℝ, U i = (r : EReal))
    (hV : ∀ i, ∃ r : ℝ, V i = (r : EReal)) :
    mm (mm A U) V = mm A (mm U V) := by
  choose a ha using hA
  choose u hu using hU
  choose v hv using hV
  funext i
  show (∑ j : Fin l, (∑ q : Fin k, A (ix2 (i 0) q) * U (ix2 q j)) * V (ix2 j (i 1)))
    = ∑ q : Fin k, A (ix2 (i 0) q) * (∑ j : Fin l, U (ix2 q j) * V (ix2 j (i 1)))
  simp only [ha, hu, hv, ← EReal.coe_mul, coe_sum]
  refine congrArg _ ?_
  simp only [Finset.sum_mul, Finset.mul_sum]
  rw [Finset.sum_comm]
  exact Finset.sum_congr rfl fun q _ => Finset.sum_congr rfl fun j _ => mul_assoc _ _ _

end RowBlocks

end
-- ==== Proof.Windows.lean ====
/-
  The windows of the three pipelined regions, read as rows.

  Every region walks its long arrays in blocks of rows: at grid point `t` a row-blocked window holds rows
  `t · B … t · B + B - 1` of its array (B = 4096 for the two regions over the edges, 8192 for the region
  over the triplets), and a weight window holds its whole array at every point.  The printed index maps
  are decided once over each grid; from them each window's block at a point is `rows (t · B)` of its
  array, or the array itself, and the output window's blocks cover its array.
-/
import proofs.«112893_j944892805681_2_alg».proof.Proof.LibRows
import proofs.«112893_j944892805681_2_alg».proof.Proof.Gen.KernelIdeal.Frame

set_option maxRecDepth 16384

noncomputable section

namespace Cert.KernelIdeal.Windows

open Cert.KernelIdeal Cert.KernelIdeal.Gen Idealize.ShloMosaic Idealize.ShloMosaic.TcCoe Idealize.ShloMosaic.ValueIdx RowBlocks
open Idealize.SL.Sem

variable (V : (c : Dev nD) → (b : Ref sig .tc) → Buf (Elt Ideal) ((c : Thread nD τ).loc b)) (c : Dev nD)

/-- Region 0's index maps over its grid: a row-blocked window's block index is the point itself on the row axis and zero
    on the other; a weight window's is zero. -/
theorem idx0 : ∀ t : Fin cfg0.N,
    win0_0.index t (0 : Fin 2) = t.val
    ∧ win0_0.index t (1 : Fin 2) = 0
    ∧ win0_1.index t (0 : Fin 2) = t.val
    ∧ win0_1.index t (1 : Fin 2) = 0
    ∧ win0_2.index t (0 : Fin 2) = 0
    ∧ win0_2.index t (1 : Fin 2) = 0
    ∧ win0_3.index t (0 : Fin 1) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = t.val
    ∧ win0_6.index t (1 : Fin 2) = 0 :=
  (by decide +kernel : ∀ t : Fin grid0.N, _)

theorem lt0 (t : Fin cfg0.N) : t.val * 4096 + 4096 ≤ 262144 := by
  have h1 : t.val < grid0.N := t.isLt
  have h2 : grid0.N = 64 := N_0
  omega

theorem emb0_0 (t : Fin cfg0.N) (y : S4096x128.Idx) :
    ((cfg0.win 0).blk t).view.emb y = ix2 (n0 := 262144) (n1 := 128) ⟨t.val * 4096 + (y 0).val, by have := lt0 t; have := idx2_lt0 y; omega⟩ (y 1) :=
  funext fun a => Fin.ext (by
      match a with
      | ⟨0, _⟩ =>
        show win0_0.index t (0 : Fin 2) * 4096 + 1 * (y 0).val = t.val * 4096 + (y 0).val
        rw [(idx0 t).1]; omega
      | ⟨1, _⟩ =>
        show win0_0.index t (1 : Fin 2) * 128 + 1 * (y 1).val = (y 1).val
        rw [(idx0 t).2.1]; omega)

/-- Window 0 of region 0 at point `t`, read through any array, is rows `t · 4096 …` of it. -/
theorem read0_0 (t : Fin cfg0.N) (A : S262144x128.Idx → EReal) :
    ((cfg0.win 0).blk t).view.read (Elt Ideal) A = rows (t.val * 4096) (lt0 t) A :=
  funext fun y => congrArg A (emb0_0 t y)

theorem iblk0_0 (t : Fin cfg0.N) :
    iblk0 V c 0 t = rows (t.val * 4096) (lt0 t) (V c (Pipeline.arrRef spec0 0)) :=
  read0_0 t _

theorem emb0_1 (t : Fin cfg0.N) (y : S4096x6.Idx) :
    ((cfg0.win 1).blk t).view.emb y = ix2 (n0 := 262144) (n1 := 6) ⟨t.val * 4096 + (y 0).val, by have := lt0 t; have := idx2_lt0 y; omega⟩ (y 1) :=
  funext fun a => Fin.ext (by
      match a with
      | ⟨0, _⟩ =>
        show win0_1.index t (0 : Fin 2) * 4096 + 1 * (y 0).val = t.val * 4096 + (y 0).val
        rw [(idx0 t).2.2.1]; omega
      | ⟨1, _⟩ =>
        show win0_1.index t (1 : Fin 2) * 6 + 1 * (y 1).val = (y 1).val
        rw [(idx0 t).2.2.2.1]; omega)

/-- Window 1 of region 0 at point `t`, read through any array, is rows `t · 4096 …` of it. -/
theorem read0_1 (t : Fin cfg0.N) (A : S262144x6.Idx → EReal) :
    ((cfg0.win 1).blk t).view.read (Elt Ideal) A = rows (t.val * 4096) (lt0 t) A :=
  funext fun y => congrArg A (emb0_1 t y)

theorem iblk0_1 (t : Fin cfg0.N) :
    iblk0 V c 1 t = rows (t.val * 4096) (lt0 t) (V c (Pipeline.arrRef spec0 1)) :=
  read0_1 t _

/-- Window 2 of region 0 holds its whole array at every point. -/
theorem iblk0_2 (t : Fin cfg0.N) : iblk0 V c 2 t = V c (Pipeline.arrRef spec0 2) :=
  funext fun y => congrArg (V c (Pipeline.arrRef spec0 2)) (funext fun a => Fin.ext (by
      match a with
      | ⟨0, _⟩ =>
        show win0_2.index t (0 : Fin 2) * 128 + 1 * (y 0).val = (y 0).val
        rw [(idx0 t).2.2.2.2.1]; omega
      | ⟨1, _⟩ =>
        show win0_2.index t (1 : Fin 2) * 128 + 1 * (y 1).val = (y 1).val
        rw [(idx0 t).2.2.2.2.2.1]; omega))

/-- Window 3 of region 0 holds its whole array at every point. -/
theorem iblk0_3 (t : Fin cfg0.N) : iblk0 V c 3 t = V c (Pipeline.arrRef spec0 3) :=
  funext fun y => congrArg (V c (Pipeline.arrRef spec0 3)) (funext fun a => Fin.ext (by
      match a with
      | ⟨0, _⟩ =>
        show win0_3.index t (0 : Fin 1) * 128 + 1 * (y 0).val = (y 0).val
        rw [(idx0 t).2.2.2.2.2.2.1]; omega))

/-- Window 4 of region 0 holds its whole array at every point. -/
theorem iblk0_4 (t : Fin cfg0.N) : iblk0 V c 4 t = V c (Pipeline.arrRef spec0 4) :=
  funext fun y => congrArg (V c (Pipeline.arrRef spec0 4)) (funext fun a => Fin.ext (by
      match a with
      | ⟨0, _⟩ =>
        show win0_4.index t (0 : Fin 2) * 6 + 1 * (y 0).val = (y 0).val
        rw [(idx0 t).2.2.2.2.2.2.2.1]; omega
      | ⟨1, _⟩ =>
        show win0_4.index t (1 : Fin 2) * 128 + 1 * (y 1).val = (y 1).val
        rw [(idx0 t).2.2.2.2.2.2.2.2.1]; omega))

/-- Window 5 of region 0 holds its whole array at every point. -/
theorem iblk0_5 (t : Fin cfg0.N) : iblk0 V c 5 t = V c (Pipeline.arrRef spec0 5) :=
  funext fun y => congrArg (V c (Pipeline.arrRef spec0 5)) (funext fun a => Fin.ext (by
      match a with
      | ⟨0, _⟩ =>
        show win0_5.index t (0 : Fin 2) * 128 + 1 * (y 0).val = (y 0).val
        rw [(idx0 t).2.2.2.2.2.2.2.2.2.1]; omega
      | ⟨1, _⟩ =>
        show win0_5.index t (1 : Fin 2) * 64 + 1 * (y 1).val = (y 1).val
        rw [(idx0 t).2.2.2.2.2.2.2.2.2.2.1]; omega))

theorem emb0_6 (t : Fin cfg0.N) (y : S4096x64.Idx) :
    ((cfg0.win 6).blk t).view.emb y = ix2 (n0 := 262144) (n1 := 64) ⟨t.val * 4096 + (y 0).val, by have := lt0 t; have := idx2_lt0 y; omega⟩ (y 1) :=
  funext fun a => Fin.ext (by
      match a with
      | ⟨0, _⟩ =>
        show win0_6.index t (0 : Fin 2) * 4096 + 1 * (y 0).val = t.val * 4096 + (y 0).val
        rw [(idx0 t).2.2.2.2.2.2.2.2.2.2.2.1]; omega
      | ⟨1, _⟩ =>
        show win0_6.index t (1 : Fin 2) * 64 + 1 * (y 1).val = (y 1).val
        rw [(idx0 t).2.2.2.2.2.2.2.2.2.2.2.2]; omega)

/-- Window 6 of region 0 at point `t`, read through any array, is rows `t · 4096 …` of it. -/
theorem read0_6 (t : Fin cfg0.N) (A : S262144x64.Idx → EReal) :
    ((cfg0.win 6).blk t).view.read (Elt Ideal) A = rows (t.val * 4096) (lt0 t) A :=
  funext fun y => congrArg A (emb0_6 t y)

/-- An index of region 0's output array is in point `t`'s block iff each coordinate is in the block's range on its axis. -/
theorem mem_blk0 (t : Fin cfg0.N) (i : S262144x64.Idx) :
    i ∈ ((cfg0.win 6).blk t).view.set ↔ ∀ a : Fin 2, win0_6.index t a * S4096x64.size a ≤ (i a).val ∧ (i a).val < win0_6.index t a * S4096x64.size a + S4096x64.size a := by
  show i ∈ ((View.whole main_v2).slice (win0_6.rect t)).set ↔ _
  rw [View.set_slice_whole, Rect.mem_set_unit]
  exact Iff.rfl

/-- Region 0's output blocks cover its array: row `r` is in the block of point `r / 4096`. -/
theorem cover0 (i : S262144x64.Idx) : ∃ t : Fin cfg0.N, (cfg0.win 6).flush t = true ∧ i ∈ ((cfg0.win 6).blk t).view.set := by
  have hi0 : (i 0).val < 262144 := (i 0).isLt
  have hi1 : (i 1).val < 64 := (i 1).isLt
  have hN : grid0.N = 64 := N_0
  let t : Fin cfg0.N := ⟨(i 0).val / 4096, by show (i 0).val / 4096 < grid0.N; omega⟩
  refine ⟨t, flush0_6 t, ?_⟩
  rw [mem_blk0]
  intro a
  match a with
  | ⟨0, _⟩ =>
    show win0_6.index t (0 : Fin 2) * 4096 ≤ (i 0).val ∧ (i 0).val < win0_6.index t (0 : Fin 2) * 4096 + 4096
    rw [(idx0 t).2.2.2.2.2.2.2.2.2.2.2.1]
    show (i 0).val / 4096 * 4096 ≤ (i 0).val ∧ (i 0).val < (i 0).val / 4096 * 4096 + 4096
    omega
  | ⟨1, _⟩ =>
    show win0_6.index t (1 : Fin 2) * 64 ≤ (i 1).val ∧ (i 1).val < win0_6.index t (1 : Fin 2) * 64 + 64
    rw [(idx0 t).2.2.2.2.2.2.2.2.2.2.2.2]
    omega

/-- Region 1's index maps over its grid: a row-blocked window's block index is the point itself on the row axis and zero
    on the other; a weight window's is zero. -/
theorem idx1 : ∀ t : Fin cfg1.N,
    win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0 :=
  (by decide +kernel : ∀ t : Fin grid1.N, _)

theorem lt1 (t : Fin cfg1.N) : t.val * 8192 + 8192 ≤ 2097152 := by
  have h1 : t.val < grid1.N := t.isLt
  have h2 : grid1.N = 256 := N_1
  omega

theorem emb1_0 (t : Fin cfg1.N) (y : S8192x42.Idx) :
    ((cfg1.win 0).blk t).view.emb y = ix2 (n0 := 2097152) (n1 := 42) ⟨t.val * 8192 + (y 0).val, by have := lt1 t; have := idx2_lt0 y; omega⟩ (y 1) :=
  funext fun a => Fin.ext (by
      match a with
      | ⟨0, _⟩ =>
        show win1_0.index t (0 : Fin 2) * 8192 + 1 * (y 0).val = t.val * 8192 + (y 0).val
        rw [(idx1 t).1]; omega
      | ⟨1, _⟩ =>
        show win1_0.index t (1 : Fin 2) * 42 + 1 * (y 1).val = (y 1).val
        rw [(idx1 t).2.1]; omega)

/-- Window 0 of region 1 at point `t`, read through any array, is rows `t · 8192 …` of it. -/
theorem read1_0 (t : Fin cfg1.N) (A : S2097152x42.Idx → EReal) :
    ((cfg1.win 0).blk t).view.read (Elt Ideal) A = rows (t.val * 8192) (lt1 t) A :=
  funext fun y => congrArg A (emb1_0 t y)

theorem iblk1_0 (t : Fin cfg1.N) :
    iblk1 V c 0 t = rows (t.val * 8192) (lt1 t) (V c (Pipeline.arrRef spec1 0)) :=
  read1_0 t _

/-- Window 1 of region 1 holds its whole array at every point. -/
theorem iblk1_1 (t : Fin cfg1.N) : iblk1 V c 1 t = V c (Pipeline.arrRef spec1 1) :=
  funext fun y => congrArg (V c (Pipeline.arrRef spec1 1)) (funext fun a => Fin.ext (by
      match a with
      | ⟨0, _⟩ =>
        show win1_1.index t (0 : Fin 2) * 42 + 1 * (y 0).val = (y 0).val
        rw [(idx1 t).2.2.1]; omega
      | ⟨1, _⟩ =>
        show win1_1.index t (1 : Fin 2) * 64 + 1 * (y 1).val = (y 1).val
        rw [(idx1 t).2.2.2.1]; omega))

theorem emb1_2 (t : Fin cfg1.N) (y : S8192x64.Idx) :
    ((cfg1.win 2).blk t).view.emb y = ix2 (n0 := 2097152) (n1 := 64) ⟨t.val * 8192 + (y 0).val, by have := lt1 t; have := idx2_lt0 y; omega⟩ (y 1) :=
  funext fun a => Fin.ext (by
      match a with
      | ⟨0, _⟩ =>
        show win1_2.index t (0 : Fin 2) * 8192 + 1 * (y 0).val = t.val * 8192 + (y 0).val
        rw [(idx1 t).2.2.2.2.1]; omega
      | ⟨1, _⟩ =>
        show win1_2.index t (1 : Fin 2) * 64 + 1 * (y 1).val = (y 1).val
        rw [(idx1 t).2.2.2.2.2]; omega)

/-- Window 2 of region 1 at point `t`, read through any array, is rows `t · 8192 …` of it. -/
theorem read1_2 (t : Fin cfg1.N) (A : S2097152x64.Idx → EReal) :
    ((cfg1.win 2).blk t).view.read (Elt Ideal) A = rows (t.val * 8192) (lt1 t) A :=
  funext fun y => congrArg A (emb1_2 t y)

/-- An index of region 1's output array is in point `t`'s block iff each coordinate is in the block's range on its axis. -/
theorem mem_blk1 (t : Fin cfg1.N) (i : S2097152x64.Idx) :
    i ∈ ((cfg1.win 2).blk t).view.set ↔ ∀ a : Fin 2, win1_2.index t a * S8192x64.size a ≤ (i a).val ∧ (i a).val < win1_2.index t a * S8192x64.size a + S8192x64.size a := by
  show i ∈ ((View.whole main_v10).slice (win1_2.rect t)).set ↔ _
  rw [View.set_slice_whole, Rect.mem_set_unit]
  exact Iff.rfl

/-- Region 1's output blocks cover its array: row `r` is in the block of point `r / 8192`. -/
theorem cover1 (i : S2097152x64.Idx) : ∃ t : Fin cfg1.N, (cfg1.win 2).flush t = true ∧ i ∈ ((cfg1.win 2).blk t).view.set := by
  have hi0 : (i 0).val < 2097152 := (i 0).isLt
  have hi1 : (i 1).val < 64 := (i 1).isLt
  have hN : grid1.N = 256 := N_1
  let t : Fin cfg1.N := ⟨(i 0).val / 8192, by show (i 0).val / 8192 < grid1.N; omega⟩
  refine ⟨t, flush1_2 t, ?_⟩
  rw [mem_blk1]
  intro a
  match a with
  | ⟨0, _⟩ =>
    show win1_2.index t (0 : Fin 2) * 8192 ≤ (i 0).val ∧ (i 0).val < win1_2.index t (0 : Fin 2) * 8192 + 8192
    rw [(idx1 t).2.2.2.2.1]
    show (i 0).val / 8192 * 8192 ≤ (i 0).val ∧ (i 0).val < (i 0).val / 8192 * 8192 + 8192
    omega
  | ⟨1, _⟩ =>
    show win1_2.index t (1 : Fin 2) * 64 ≤ (i 1).val ∧ (i 1).val < win1_2.index t (1 : Fin 2) * 64 + 64
    rw [(idx1 t).2.2.2.2.2]
    omega

/-- Region 2's index maps over its grid: a row-blocked window's block index is the point itself on the row axis and zero
    on the other; a weight window's is zero. -/
theorem idx2 : ∀ t : Fin cfg2.N,
    win2_0.index t (0 : Fin 2) = t.val
    ∧ win2_0.index t (1 : Fin 2) = 0
    ∧ win2_1.index t (0 : Fin 2) = t.val
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 1) = 0
    ∧ win2_5.index t (0 : Fin 4) = 0
    ∧ win2_5.index t (1 : Fin 4) = 0
    ∧ win2_5.index t (2 : Fin 4) = 0
    ∧ win2_5.index t (3 : Fin 4) = 0
    ∧ win2_6.index t (0 : Fin 3) = 0
    ∧ win2_6.index t (1 : Fin 3) = 0
    ∧ win2_6.index t (2 : Fin 3) = 0
    ∧ win2_7.index t (0 : Fin 2) = 0
    ∧ win2_7.index t (1 : Fin 2) = 0
    ∧ win2_8.index t (0 : Fin 1) = 0
    ∧ win2_9.index t (0 : Fin 4) = 0
    ∧ win2_9.index t (1 : Fin 4) = 0
    ∧ win2_9.index t (2 : Fin 4) = 0
    ∧ win2_9.index t (3 : Fin 4) = 0
    ∧ win2_10.index t (0 : Fin 3) = 0
    ∧ win2_10.index t (1 : Fin 3) = 0
    ∧ win2_10.index t (2 : Fin 3) = 0
    ∧ win2_11.index t (0 : Fin 2) = t.val
    ∧ win2_11.index t (1 : Fin 2) = 0 :=
  (by decide +kernel : ∀ t : Fin grid2.N, _)

theorem lt2 (t : Fin cfg2.N) : t.val * 4096 + 4096 ≤ 262144 := by
  have h1 : t.val < grid2.N := t.isLt
  have h2 : grid2.N = 64 := N_2
  omega

theorem emb2_0 (t : Fin cfg2.N) (y : S4096x64.Idx) :
    ((cfg2.win 0).blk t).view.emb y = ix2 (n0 := 262144) (n1 := 64) ⟨t.val * 4096 + (y 0).val, by have := lt2 t; have := idx2_lt0 y; omega⟩ (y 1) :=
  funext fun a => Fin.ext (by
      match a with
      | ⟨0, _⟩ =>
        show win2_0.index t (0 : Fin 2) * 4096 + 1 * (y 0).val = t.val * 4096 + (y 0).val
        rw [(idx2 t).1]; omega
      | ⟨1, _⟩ =>
        show win2_0.index t (1 : Fin 2) * 64 + 1 * (y 1).val = (y 1).val
        rw [(idx2 t).2.1]; omega)

/-- Window 0 of region 2 at point `t`, read through any array, is rows `t · 4096 …` of it. -/
theorem read2_0 (t : Fin cfg2.N) (A : S262144x64.Idx → EReal) :
    ((cfg2.win 0).blk t).view.read (Elt Ideal) A = rows (t.val * 4096) (lt2 t) A :=
  funext fun y => congrArg A (emb2_0 t y)

theorem iblk2_0 (t : Fin cfg2.N) :
    iblk2 V c 0 t = rows (t.val * 4096) (lt2 t) (V c (Pipeline.arrRef spec2 0)) :=
  read2_0 t _

theorem emb2_1 (t : Fin cfg2.N) (y : S4096x128.Idx) :
    ((cfg2.win 1).blk t).view.emb y = ix2 (n0 := 262144) (n1 := 128) ⟨t.val * 4096 + (y 0).val, by have := lt2 t; have := idx2_lt0 y; omega⟩ (y 1) :=
  funext fun a => Fin.ext (by
      match a with
      | ⟨0, _⟩ =>
        show win2_1.index t (0 : Fin 2) * 4096 + 1 * (y 0).val = t.val * 4096 + (y 0).val
        rw [(idx2 t).2.2.1]; omega
      | ⟨1, _⟩ =>
        show win2_1.index t (1 : Fin 2) * 128 + 1 * (y 1).val = (y 1).val
        rw [(idx2 t).2.2.2.1]; omega)

/-- Window 1 of region 2 at point `t`, read through any array, is rows `t · 4096 …` of it. -/
theorem read2_1 (t : Fin cfg2.N) (A : S262144x128.Idx → EReal) :
    ((cfg2.win 1).blk t).view.read (Elt Ideal) A = rows (t.val * 4096) (lt2 t) A :=
  funext fun y => congrArg A (emb2_1 t y)

theorem iblk2_1 (t : Fin cfg2.N) :
    iblk2 V c 1 t = rows (t.val * 4096) (lt2 t) (V c (Pipeline.arrRef spec2 1)) :=
  read2_1 t _

/-- Window 2 of region 2 holds its whole array at every point. -/
theorem iblk2_2 (t : Fin cfg2.N) : iblk2 V c 2 t = V c (Pipeline.arrRef spec2 2) :=
  funext fun y => congrArg (V c (Pipeline.arrRef spec2 2)) (funext fun a => Fin.ext (by
      match a with
      | ⟨0, _⟩ =>
        show win2_2.index t (0 : Fin 2) * 64 + 1 * (y 0).val = (y 0).val
        rw [(idx2 t).2.2.2.2.1]; omega
      | ⟨1, _⟩ =>
        show win2_2.index t (1 : Fin 2) * 128 + 1 * (y 1).val = (y 1).val
        rw [(idx2 t).2.2.2.2.2.1]; omega))

/-- Window 3 of region 2 holds its whole array at every point. -/
theorem iblk2_3 (t : Fin cfg2.N) : iblk2 V c 3 t = V c (Pipeline.arrRef spec2 3) :=
  funext fun y => congrArg (V c (Pipeline.arrRef spec2 3)) (funext fun a => Fin.ext (by
      match a with
      | ⟨0, _⟩ =>
        show win2_3.index t (0 : Fin 2) * 128 + 1 * (y 0).val = (y 0).val
        rw [(idx2 t).2.2.2.2.2.2.1]; omega
      | ⟨1, _⟩ =>
        show win2_3.index t (1 : Fin 2) * 128 + 1 * (y 1).val = (y 1).val
        rw [(idx2 t).2.2.2.2.2.2.2.1]; omega))

/-- Window 4 of region 2 holds its whole array at every point. -/
theorem iblk2_4 (t : Fin cfg2.N) : iblk2 V c 4 t = V c (Pipeline.arrRef spec2 4) :=
  funext fun y => congrArg (V c (Pipeline.arrRef spec2 4)) (funext fun a => Fin.ext (by
      match a with
      | ⟨0, _⟩ =>
        show win2_4.index t (0 : Fin 1) * 128 + 1 * (y 0).val = (y 0).val
        rw [(idx2 t).2.2.2.2.2.2.2.2.1]; omega))

/-- Window 5 of region 2 holds its whole array at every point. -/
theorem iblk2_5 (t : Fin cfg2.N) : iblk2 V c 5 t = V c (Pipeline.arrRef spec2 5) :=
  funext fun y => congrArg (V c (Pipeline.arrRef spec2 5)) (funext fun a => Fin.ext (by
      match a with
      | ⟨0, _⟩ =>
        show win2_5.index t (0 : Fin 4) * 1 + 1 * (y 0).val = (y 0).val
        rw [(idx2 t).2.2.2.2.2.2.2.2.2.1]; omega
      | ⟨1, _⟩ =>
        show win2_5.index t (1 : Fin 4) * 2 + 1 * (y 1).val = (y 1).val
        rw [(idx2 t).2.2.2.2.2.2.2.2.2.2.1]; omega
      | ⟨2, _⟩ =>
        show win2_5.index t (2 : Fin 4) * 128 + 1 * (y 2).val = (y 2).val
        rw [(idx2 t).2.2.2.2.2.2.2.2.2.2.2.1]; omega
      | ⟨3, _⟩ =>
        show win2_5.index t (3 : Fin 4) * 128 + 1 * (y 3).val = (y 3).val
        rw [(idx2 t).2.2.2.2.2.2.2.2.2.2.2.2.1]; omega))

/-- Window 6 of region 2 holds its whole array at every point. -/
theorem iblk2_6 (t : Fin cfg2.N) : iblk2 V c 6 t = V c (Pipeline.arrRef spec2 6) :=
  funext fun y => congrArg (V c (Pipeline.arrRef spec2 6)) (funext fun a => Fin.ext (by
      match a with
      | ⟨0, _⟩ =>
        show win2_6.index t (0 : Fin 3) * 1 + 1 * (y 0).val = (y 0).val
        rw [(idx2 t).2.2.2.2.2.2.2.2.2.2.2.2.2.1]; omega
      | ⟨1, _⟩ =>
        show win2_6.index t (1 : Fin 3) * 2 + 1 * (y 1).val = (y 1).val
        rw [(idx2 t).2.2.2.2.2.2.2.2.2.2.2.2.2.2.1]; omega
      | ⟨2, _⟩ =>
        show win2_6.index t (2 : Fin 3) * 128 + 1 * (y 2).val = (y 2).val
        rw [(idx2 t).2.2.2.2.2.2.2.2.2.2.2.2.2.2.2.1]; omega))

/-- Window 7 of region 2 holds its whole array at every point. -/
theorem iblk2_7 (t : Fin cfg2.N) : iblk2 V c 7 t = V c (Pipeline.arrRef spec2 7) :=
  funext fun y => congrArg (V c (Pipeline.arrRef spec2 7)) (funext fun a => Fin.ext (by
      match a with
      | ⟨0, _⟩ =>
        show win2_7.index t (0 : Fin 2) * 128 + 1 * (y 0).val = (y 0).val
        rw [(idx2 t).2.2.2.2.2.2.2.2.2.2.2.2.2.2.2.2.1]; omega
      | ⟨1, _⟩ =>
        show win2_7.index t (1 : Fin 2) * 128 + 1 * (y 1).val = (y 1).val
        rw [(idx2 t).2.2.2.2.2.2.2.2.2.2.2.2.2.2.2.2.2.1]; omega))

/-- Window 8 of region 2 holds its whole array at every point. -/
theorem iblk2_8 (t : Fin cfg2.N) : iblk2 V c 8 t = V c (Pipeline.arrRef spec2 8) :=
  funext fun y => congrArg (V c (Pipeline.arrRef spec2 8)) (funext fun a => Fin.ext (by
      match a with
      | ⟨0, _⟩ =>
        show win2_8.index t (0 : Fin 1) * 128 + 1 * (y 0).val = (y 0).val
        rw [(idx2 t).2.2.2.2.2.2.2.2.2.2.2.2.2.2.2.2.2.2.1]; omega))

/-- Window 9 of region 2 holds its whole array at every point. -/
theorem iblk2_9 (t : Fin cfg2.N) : iblk2 V c 9 t = V c (Pipeline.arrRef spec2 9) :=
  funext fun y => congrArg (V c (Pipeline.arrRef spec2 9)) (funext fun a => Fin.ext (by
      match a with
      | ⟨0, _⟩ =>
        show win2_9.index t (0 : Fin 4) * 2 + 1 * (y 0).val = (y 0).val
        rw [(idx2 t).2.2.2.2.2.2.2.2.2.2.2.2.2.2.2.2.2.2.2.1]; omega
      | ⟨1, _⟩ =>
        show win2_9.index t (1 : Fin 4) * 2 + 1 * (y 1).val = (y 1).val
        rw [(idx2 t).2.2.2.2.2.2.2.2.2.2.2.2.2.2.2.2.2.2.2.2.1]; omega
      | ⟨2, _⟩ =>
        show win2_9.index t (2 : Fin 4) * 128 + 1 * (y 2).val = (y 2).val
        rw [(idx2 t).2.2.2.2.2.2.2.2.2.2.2.2.2.2.2.2.2.2.2.2.2.1]; omega
      | ⟨3, _⟩ =>
        show win2_9.index t (3 : Fin 4) * 128 + 1 * (y 3).val = (y 3).val
        rw [(idx2 t).2.2.2.2.2.2.2.2.2.2.2.2.2.2.2.2.2.2.2.2.2.2.1]; omega))

/-- Window 10 of region 2 holds its whole array at every point. -/
theorem iblk2_10 (t : Fin cfg2.N) : iblk2 V c 10 t = V c (Pipeline.arrRef spec2 10) :=
  funext fun y => congrArg (V c (Pipeline.arrRef spec2 10)) (funext fun a => Fin.ext (by
      match a with
      | ⟨0, _⟩ =>
        show win2_10.index t (0 : Fin 3) * 2 + 1 * (y 0).val = (y 0).val
        rw [(idx2 t).2.2.2.2.2.2.2.2.2.2.2.2.2.2.2.2.2.2.2.2.2.2.2.1]; omega
      | ⟨1, _⟩ =>
        show win2_10.index t (1 : Fin 3) * 2 + 1 * (y 1).val = (y 1).val
        rw [(idx2 t).2.2.2.2.2.2.2.2.2.2.2.2.2.2.2.2.2.2.2.2.2.2.2.2.1]; omega
      | ⟨2, _⟩ =>
        show win2_10.index t (2 : Fin 3) * 128 + 1 * (y 2).val = (y 2).val
        rw [(idx2 t).2.2.2.2.2.2.2.2.2.2.2.2.2.2.2.2.2.2.2.2.2.2.2.2.2.1]; omega))

theorem emb2_11 (t : Fin cfg2.N) (y : S4096x128.Idx) :
    ((cfg2.win 11).blk t).view.emb y = ix2 (n0 := 262144) (n1 := 128) ⟨t.val * 4096 + (y 0).val, by have := lt2 t; have := idx2_lt0 y; omega⟩ (y 1) :=
  funext fun a => Fin.ext (by
      match a with
      | ⟨0, _⟩ =>
        show win2_11.index t (0 : Fin 2) * 4096 + 1 * (y 0).val = t.val * 4096 + (y 0).val
        rw [(idx2 t).2.2.2.2.2.2.2.2.2.2.2.2.2.2.2.2.2.2.2.2.2.2.2.2.2.2.1]; omega
      | ⟨1, _⟩ =>
        show win2_11.index t (1 : Fin 2) * 128 + 1 * (y 1).val = (y 1).val
        rw [(idx2 t).2.2.2.2.2.2.2.2.2.2.2.2.2.2.2.2.2.2.2.2.2.2.2.2.2.2.2]; omega)

/-- Window 11 of region 2 at point `t`, read through any array, is rows `t · 4096 …` of it. -/
theorem read2_11 (t : Fin cfg2.N) (A : S262144x128.Idx → EReal) :
    ((cfg2.win 11).blk t).view.read (Elt Ideal) A = rows (t.val * 4096) (lt2 t) A :=
  funext fun y => congrArg A (emb2_11 t y)

/-- An index of region 2's output array is in point `t`'s block iff each coordinate is in the block's range on its axis. -/
theorem mem_blk2 (t : Fin cfg2.N) (i : S262144x128.Idx) :
    i ∈ ((cfg2.win 11).blk t).view.set ↔ ∀ a : Fin 2, win2_11.index t a * S4096x128.size a ≤ (i a).val ∧ (i a).val < win2_11.index t a * S4096x128.size a + S4096x128.size a := by
  show i ∈ ((View.whole main_v16).slice (win2_11.rect t)).set ↔ _
  rw [View.set_slice_whole, Rect.mem_set_unit]
  exact Iff.rfl

/-- Region 2's output blocks cover its array: row `r` is in the block of point `r / 4096`. -/
theorem cover2 (i : S262144x128.Idx) : ∃ t : Fin cfg2.N, (cfg2.win 11).flush t = true ∧ i ∈ ((cfg2.win 11).blk t).view.set := by
  have hi0 : (i 0).val < 262144 := (i 0).isLt
  have hi1 : (i 1).val < 128 := (i 1).isLt
  have hN : grid2.N = 64 := N_2
  let t : Fin cfg2.N := ⟨(i 0).val / 4096, by show (i 0).val / 4096 < grid2.N; omega⟩
  refine ⟨t, flush2_11 t, ?_⟩
  rw [mem_blk2]
  intro a
  match a with
  | ⟨0, _⟩ =>
    show win2_11.index t (0 : Fin 2) * 4096 ≤ (i 0).val ∧ (i 0).val < win2_11.index t (0 : Fin 2) * 4096 + 4096
    rw [(idx2 t).2.2.2.2.2.2.2.2.2.2.2.2.2.2.2.2.2.2.2.2.2.2.2.2.2.2.1]
    show (i 0).val / 4096 * 4096 ≤ (i 0).val ∧ (i 0).val < (i 0).val / 4096 * 4096 + 4096
    omega
  | ⟨1, _⟩ =>
    show win2_11.index t (1 : Fin 2) * 128 ≤ (i 1).val ∧ (i 1).val < win2_11.index t (1 : Fin 2) * 128 + 128
    rw [(idx2 t).2.2.2.2.2.2.2.2.2.2.2.2.2.2.2.2.2.2.2.2.2.2.2.2.2.2.2]
    omega

end Cert.KernelIdeal.Windows

end
-- ==== Proof.Spec.lean ====
/-
  The network as a composition of whole-array layers.

  Both programs compute a directional message-passing block.  Written over whole arrays:

    dense A W b  =  A · W + b              (b a bias row broadcast down the array)
    silu X       =  X · (1 / (1 + e^(-X)))
    edge         =  silu ((silu (dense x W_kj b_kj) * gate) · W_down)            — per edge, 64 wide
    agg          =  scatter-add, by the index array `reduce`, of (edge gathered by the index array `expand`) * trip
    m₀           =  silu (dense x W_ji b_ji) + silu (agg · W_up)
    res m        =  m + silu (dense (silu (dense m W₁ b₁)) W₂ b₂)
    out          =  res (res (silu (dense (res m₀) W_f b_f) + x))

  where `gate` (128 wide, per edge) and `trip` (64 wide, per triplet) are products of a basis array
  by two small matrices — formed in either order by the two programs.  The functions below are these
  layers, spelt with the host operations of the whole-array program so that its composed term IS
  such a composition by unfolding.
-/
import proofs.«112893_j944892805681_2_alg».proof.Proof.Gen.ReferenceIdeal

noncomputable section

namespace Cert.Spec

open Cert.ReferenceIdeal Cert.ReferenceIdeal.Gen Idealize.ShloMosaic

variable {F : FTy → Type} [FloatOps F]

/-- `X · (1 / (1 + e^(-X)))` over an `E × 128` array. -/
def silu128 (X : FVec F S262144x128 .f32) : FVec F S262144x128 .f32 :=
  mulf X (Host.divf (broadcastInDim S262144x128 ![] bcast_S_S262144x128 (constant S_ .f32 0x3F800000#32))
    (addf (broadcastInDim S262144x128 ![] bcast_S_S262144x128 (constant S_ .f32 0x3F800000#32)) (Host.exp (Host.negf X))))

/-- `X · (1 / (1 + e^(-X)))` over an `E × 64` array. -/
def silu64 (X : FVec F S262144x64 .f32) : FVec F S262144x64 .f32 :=
  mulf X (Host.divf (broadcastInDim S262144x64 ![] bcast_S_S262144x64 (constant S_ .f32 0x3F800000#32))
    (addf (broadcastInDim S262144x64 ![] bcast_S_S262144x64 (constant S_ .f32 0x3F800000#32)) (Host.exp (Host.negf X))))

/-- A bias row broadcast down the `E × 128` array. -/
def bias128 (b : FVec F S128 .f32) : FVec F S262144x128 .f32 :=
  broadcastInDim S262144x128 ![0, 1] bcast_S1x128_S262144x128_0_1 (broadcastInDim S1x128 ![1] bcast_S128_S1x128_1 b)

/-- `A · W + b`. -/
def dense (A : FVec F S262144x128 .f32) (W : FVec F S128x128 .f32) (b : FVec F S128 .f32) : FVec F S262144x128 .f32 :=
  addf (Host.dotGeneral dot_S262144x128_S128x128_S262144x128_1_0_0_1_n_n none A W) (bias128 b)

/-- One dense layer with its activation. -/
def layer (A : FVec F S262144x128 .f32) (W : FVec F S128x128 .f32) (b : FVec F S128 .f32) : FVec F S262144x128 .f32 :=
  silu128 (dense A W b)

/-- The per-edge angular branch from the gate array `G`. -/
def edge (x0 : FVec F S262144x128 .f32) (x5 : FVec F S128x128 .f32) (x6 : FVec F S128 .f32) (G : FVec F S262144x128 .f32)
    (x11 : FVec F S128x64 .f32) : FVec F S262144x64 .f32 :=
  silu64 (Host.dotGeneral dot_S262144x128_S128x64_S262144x64_1_0_0_1_n_n none (mulf (layer x0 x5 x6) G) x11)

/-- The gather's index array: a negative index wraps around once. -/
def wrapIdx (x3 : IVec S2097152 32) : IVec S2097152x1 32 :=
  broadcastInDim S2097152x1 ![0] bcast_S2097152_S2097152x1_0
    (select (cmpi .slt x3 (broadcastInDim S2097152 ![] bcast_S_S2097152 (constantI S_ 32 0#32)))
      (addi x3 (broadcastInDim S2097152 ![] bcast_S_S2097152 (constantI S_ 32 262144#32))) x3)

/-- Gather the edge rows by `expand`, gate by the triplet array, scatter-add by `reduce`. -/
def agg (E : FVec F S262144x64 .f32) (T : FVec F S2097152x64 .f32) (x3 x4 : IVec S2097152 32) : FVec F S262144x64 .f32 :=
  Host.scatterAdd scatter_S262144x64_S2097152x1_S2097152x64_1_0_0_1
    (broadcastInDim S262144x64 ![] bcast_S_S262144x64 (constant S_ .f32 0x00000000#32))
    (broadcastInDim S2097152x1 ![0] bcast_S2097152_S2097152x1_0 x4)
    (mulf (Host.gather gather_S262144x64_S2097152x1_S2097152x64_1_0_n_n_0_1_164 E (wrapIdx x3)) T)

/-- `m₀ = silu (dense x W_ji b_ji) + silu (agg · W_up)`. -/
def m0 (A : FVec F S262144x64 .f32) (x0 : FVec F S262144x128 .f32) (x12 : FVec F S64x128 .f32) (x13 : FVec F S128x128 .f32)
    (x14 : FVec F S128 .f32) : FVec F S262144x128 .f32 :=
  addf (layer x0 x13 x14) (silu128 (Host.dotGeneral dot_S262144x64_S64x128_S262144x128_1_0_0_1_n_n none A x12))

/-- A residual block: `m + silu (dense (silu (dense m W₁ b₁)) W₂ b₂)`. -/
def res (m : FVec F S262144x128 .f32) (W1 : FVec F S128x128 .f32) (b1 : FVec F S128 .f32) (W2 : FVec F S128x128 .f32)
    (b2 : FVec F S128 .f32) : FVec F S262144x128 .f32 :=
  addf m (layer (layer m W1 b1) W2 b2)

/-- The two weight matrices and bias rows of the residual block before the skip, cut out of their stacked arrays. -/
def wb0 (x15 : FVec F S1x2x128x128 .f32) : FVec F S128x128 .f32 :=
  shapeCast _ (extractStridedSlice S1x1x128x128 ![0, 0, 0, 0] x15 slices_S1x2x128x128_S1x1x128x128_0_0_0_0) shapeCasts_S1x1x128x128_S128x128
def wb1 (x15 : FVec F S1x2x128x128 .f32) : FVec F S128x128 .f32 :=
  shapeCast _ (extractStridedSlice S1x1x128x128 ![0, 1, 0, 0] x15 slices_S1x2x128x128_S1x1x128x128_0_1_0_0) shapeCasts_S1x1x128x128_S128x128
def bb0 (x16 : FVec F S1x2x128 .f32) : FVec F S128 .f32 :=
  shapeCast _ (extractStridedSlice S1x1x128 ![0, 0, 0] x16 slices_S1x2x128_S1x1x128_0_0_0) shapeCasts_S1x1x128_S128
def bb1 (x16 : FVec F S1x2x128 .f32) : FVec F S128 .f32 :=
  shapeCast _ (extractStridedSlice S1x1x128 ![0, 1, 0] x16 slices_S1x2x128_S1x1x128_0_1_0) shapeCasts_S1x1x128_S128

/-- The four weight matrices and bias rows of the two residual blocks after the skip. -/
def wa00 (x19 : FVec F S2x2x128x128 .f32) : FVec F S128x128 .f32 :=
  shapeCast _ (extractStridedSlice S1x1x128x128 ![0, 0, 0, 0] x19 slices_S2x2x128x128_S1x1x128x128_0_0_0_0) shapeCasts_S1x1x128x128_S128x128
def wa01 (x19 : FVec F S2x2x128x128 .f32) : FVec F S128x128 .f32 :=
  shapeCast _ (extractStridedSlice S1x1x128x128 ![0, 1, 0, 0] x19 slices_S2x2x128x128_S1x1x128x128_0_1_0_0) shapeCasts_S1x1x128x128_S128x128
def wa10 (x19 : FVec F S2x2x128x128 .f32) : FVec F S128x128 .f32 :=
  shapeCast _ (extractStridedSlice S1x1x128x128 ![1, 0, 0, 0] x19 slices_S2x2x128x128_S1x1x128x128_1_0_0_0) shapeCasts_S1x1x128x128_S128x128
def wa11 (x19 : FVec F S2x2x128x128 .f32) : FVec F S128x128 .f32 :=
  shapeCast _ (extractStridedSlice S1x1x128x128 ![1, 1, 0, 0] x19 slices_S2x2x128x128_S1x1x128x128_1_1_0_0) shapeCasts_S1x1x128x128_S128x128
def ba00 (x20 : FVec F S2x2x128 .f32) : FVec F S128 .f32 :=
  shapeCast _ (extractStridedSlice S1x1x128 ![0, 0, 0] x20 slices_S2x2x128_S1x1x128_0_0_0) shapeCasts_S1x1x128_S128
def ba01 (x20 : FVec F S2x2x128 .f32) : FVec F S128 .f32 :=
  shapeCast _ (extractStridedSlice S1x1x128 ![0, 1, 0] x20 slices_S2x2x128_S1x1x128_0_1_0) shapeCasts_S1x1x128_S128
def ba10 (x20 : FVec F S2x2x128 .f32) : FVec F S128 .f32 :=
  shapeCast _ (extractStridedSlice S1x1x128 ![1, 0, 0] x20 slices_S2x2x128_S1x1x128_1_0_0) shapeCasts_S1x1x128_S128
def ba11 (x20 : FVec F S2x2x128 .f32) : FVec F S128 .f32 :=
  shapeCast _ (extractStridedSlice S1x1x128 ![1, 1, 0] x20 slices_S2x2x128_S1x1x128_1_1_0) shapeCasts_S1x1x128_S128

/-- The residual block before the skip. -/
def m1 (m : FVec F S262144x128 .f32) (x15 : FVec F S1x2x128x128 .f32) (x16 : FVec F S1x2x128 .f32) : FVec F S262144x128 .f32 :=
  res m (wb0 x15) (bb0 x16) (wb1 x15) (bb1 x16)

/-- The final dense layer before the skip, and the skip. -/
def m2 (m : FVec F S262144x128 .f32) (x17 : FVec F S128x128 .f32) (x18 : FVec F S128 .f32) (x0 : FVec F S262144x128 .f32) :
    FVec F S262144x128 .f32 :=
  addf (layer m x17 x18) x0

/-- The first residual block after the skip. -/
def m3 (m : FVec F S262144x128 .f32) (x19 : FVec F S2x2x128x128 .f32) (x20 : FVec F S2x2x128 .f32) : FVec F S262144x128 .f32 :=
  res m (wa00 x19) (ba00 x20) (wa01 x19) (ba01 x20)

/-- The second residual block after the skip. -/
def m4 (m : FVec F S262144x128 .f32) (x19 : FVec F S2x2x128x128 .f32) (x20 : FVec F S2x2x128 .f32) : FVec F S262144x128 .f32 :=
  res m (wa10 x19) (ba10 x20) (wa11 x19) (ba11 x20)

/-- Everything after the aggregation: the result array from the aggregated array and the arguments. -/
def combine (A : FVec F S262144x64 .f32) (x0 : FVec F S262144x128 .f32) (x12 : FVec F S64x128 .f32) (x13 : FVec F S128x128 .f32)
    (x14 : FVec F S128 .f32) (x15 : FVec F S1x2x128x128 .f32) (x16 : FVec F S1x2x128 .f32) (x17 : FVec F S128x128 .f32)
    (x18 : FVec F S128 .f32) (x19 : FVec F S2x2x128x128 .f32) (x20 : FVec F S2x2x128 .f32) : FVec F S262144x128 .f32 :=
  m4 (m3 (m2 (m1 (m0 A x0 x12 x13 x14) x15 x16) x17 x18 x0) x19 x20) x19 x20

end Cert.Spec

end
-- ==== Proof.PlainKernel.lean ====
/-
  Every matrix product of the kernel program contracts the left factor's second axis against the right factor's
  first and has no batch axis: each is a plain matrix product, `∑ j, A (p, j) · W (j, c)`.
-/
import proofs.«112893_j944892805681_2_alg».proof.Proof.Gen.KernelIdeal
import proofs.«112893_j944892805681_2_alg».proof.Proof.LibRows

noncomputable section

namespace Cert.KernelIdeal.Plain

open Cert.KernelIdeal Idealize.ShloMosaic

theorem plain_S6x8_S8x128 : RowBlocks.PlainSum dot_S6x8_S8x128_S6x128_1_0_0_1_n_n :=
  RowBlocks.plainSum_of dot_S6x8_S8x128_S6x128_1_0_0_1_n_n rfl rfl
    (fun i q => by
      unfold DotDims.lhsIdx
      rw [dif_neg (show ¬(0 : Fin S6x8.rank) ∈ dot_S6x8_S8x128_S6x128_1_0_0_1_n_n.lhsBatch by decide), dif_pos (show (0 : Fin S6x8.rank) ∈ dot_S6x8_S8x128_S6x128_1_0_0_1_n_n.lhsNonContracting by decide)]
      rfl)
    (fun i q => dot_S6x8_S8x128_S6x128_1_0_0_1_n_n.lhsIdx_val_of_single rfl i q)
    (fun i q => dot_S6x8_S8x128_S6x128_1_0_0_1_n_n.rhsIdx_val_of_single rfl i q)
    (fun i q => by
      unfold DotDims.rhsIdx
      rw [dif_neg (show ¬(1 : Fin S8x128.rank) ∈ dot_S6x8_S8x128_S6x128_1_0_0_1_n_n.rhsBatch by decide), dif_pos (show (1 : Fin S8x128.rank) ∈ dot_S6x8_S8x128_S6x128_1_0_0_1_n_n.rhsNonContracting by decide)]
      rfl)

theorem plain_S42x8_S8x64 : RowBlocks.PlainSum dot_S42x8_S8x64_S42x64_1_0_0_1_n_n :=
  RowBlocks.plainSum_of dot_S42x8_S8x64_S42x64_1_0_0_1_n_n rfl rfl
    (fun i q => by
      unfold DotDims.lhsIdx
      rw [dif_neg (show ¬(0 : Fin S42x8.rank) ∈ dot_S42x8_S8x64_S42x64_1_0_0_1_n_n.lhsBatch by decide), dif_pos (show (0 : Fin S42x8.rank) ∈ dot_S42x8_S8x64_S42x64_1_0_0_1_n_n.lhsNonContracting by decide)]
      rfl)
    (fun i q => dot_S42x8_S8x64_S42x64_1_0_0_1_n_n.lhsIdx_val_of_single rfl i q)
    (fun i q => dot_S42x8_S8x64_S42x64_1_0_0_1_n_n.rhsIdx_val_of_single rfl i q)
    (fun i q => by
      unfold DotDims.rhsIdx
      rw [dif_neg (show ¬(1 : Fin S8x64.rank) ∈ dot_S42x8_S8x64_S42x64_1_0_0_1_n_n.rhsBatch by decide), dif_pos (show (1 : Fin S8x64.rank) ∈ dot_S42x8_S8x64_S42x64_1_0_0_1_n_n.rhsNonContracting by decide)]
      rfl)

theorem plain_S4096x128_S128x128 : RowBlocks.PlainSum dot_S4096x128_S128x128_S4096x128_1_0_0_1_n_n :=
  RowBlocks.plainSum_of dot_S4096x128_S128x128_S4096x128_1_0_0_1_n_n rfl rfl
    (fun i q => by
      unfold DotDims.lhsIdx
      rw [dif_neg (show ¬(0 : Fin S4096x128.rank) ∈ dot_S4096x128_S128x128_S4096x128_1_0_0_1_n_n.lhsBatch by decide), dif_pos (show (0 : Fin S4096x128.rank) ∈ dot_S4096x128_S128x128_S4096x128_1_0_0_1_n_n.lhsNonContracting by decide)]
      rfl)
    (fun i q => dot_S4096x128_S128x128_S4096x128_1_0_0_1_n_n.lhsIdx_val_of_single rfl i q)
    (fun i q => dot_S4096x128_S128x128_S4096x128_1_0_0_1_n_n.rhsIdx_val_of_single rfl i q)
    (fun i q => by
      unfold DotDims.rhsIdx
      rw [dif_neg (show ¬(1 : Fin S128x128.rank) ∈ dot_S4096x128_S128x128_S4096x128_1_0_0_1_n_n.rhsBatch by decide), dif_pos (show (1 : Fin S128x128.rank) ∈ dot_S4096x128_S128x128_S4096x128_1_0_0_1_n_n.rhsNonContracting by decide)]
      rfl)

theorem plain_S4096x6_S6x128 : RowBlocks.PlainSum dot_S4096x6_S6x128_S4096x128_1_0_0_1_n_n :=
  RowBlocks.plainSum_of dot_S4096x6_S6x128_S4096x128_1_0_0_1_n_n rfl rfl
    (fun i q => by
      unfold DotDims.lhsIdx
      rw [dif_neg (show ¬(0 : Fin S4096x6.rank) ∈ dot_S4096x6_S6x128_S4096x128_1_0_0_1_n_n.lhsBatch by decide), dif_pos (show (0 : Fin S4096x6.rank) ∈ dot_S4096x6_S6x128_S4096x128_1_0_0_1_n_n.lhsNonContracting by decide)]
      rfl)
    (fun i q => dot_S4096x6_S6x128_S4096x128_1_0_0_1_n_n.lhsIdx_val_of_single rfl i q)
    (fun i q => dot_S4096x6_S6x128_S4096x128_1_0_0_1_n_n.rhsIdx_val_of_single rfl i q)
    (fun i q => by
      unfold DotDims.rhsIdx
      rw [dif_neg (show ¬(1 : Fin S6x128.rank) ∈ dot_S4096x6_S6x128_S4096x128_1_0_0_1_n_n.rhsBatch by decide), dif_pos (show (1 : Fin S6x128.rank) ∈ dot_S4096x6_S6x128_S4096x128_1_0_0_1_n_n.rhsNonContracting by decide)]
      rfl)

theorem plain_S4096x128_S128x64 : RowBlocks.PlainSum dot_S4096x128_S128x64_S4096x64_1_0_0_1_n_n :=
  RowBlocks.plainSum_of dot_S4096x128_S128x64_S4096x64_1_0_0_1_n_n rfl rfl
    (fun i q => by
      unfold DotDims.lhsIdx
      rw [dif_neg (show ¬(0 : Fin S4096x128.rank) ∈ dot_S4096x128_S128x64_S4096x64_1_0_0_1_n_n.lhsBatch by decide), dif_pos (show (0 : Fin S4096x128.rank) ∈ dot_S4096x128_S128x64_S4096x64_1_0_0_1_n_n.lhsNonContracting by decide)]
      rfl)
    (fun i q => dot_S4096x128_S128x64_S4096x64_1_0_0_1_n_n.lhsIdx_val_of_single rfl i q)
    (fun i q => dot_S4096x128_S128x64_S4096x64_1_0_0_1_n_n.rhsIdx_val_of_single rfl i q)
    (fun i q => by
      unfold DotDims.rhsIdx
      rw [dif_neg (show ¬(1 : Fin S128x64.rank) ∈ dot_S4096x128_S128x64_S4096x64_1_0_0_1_n_n.rhsBatch by decide), dif_pos (show (1 : Fin S128x64.rank) ∈ dot_S4096x128_S128x64_S4096x64_1_0_0_1_n_n.rhsNonContracting by decide)]
      rfl)

theorem plain_S8192x42_S42x64 : RowBlocks.PlainSum dot_S8192x42_S42x64_S8192x64_1_0_0_1_n_n :=
  RowBlocks.plainSum_of dot_S8192x42_S42x64_S8192x64_1_0_0_1_n_n rfl rfl
    (fun i q => by
      unfold DotDims.lhsIdx
      rw [dif_neg (show ¬(0 : Fin S8192x42.rank) ∈ dot_S8192x42_S42x64_S8192x64_1_0_0_1_n_n.lhsBatch by decide), dif_pos (show (0 : Fin S8192x42.rank) ∈ dot_S8192x42_S42x64_S8192x64_1_0_0_1_n_n.lhsNonContracting by decide)]
      rfl)
    (fun i q => dot_S8192x42_S42x64_S8192x64_1_0_0_1_n_n.lhsIdx_val_of_single rfl i q)
    (fun i q => dot_S8192x42_S42x64_S8192x64_1_0_0_1_n_n.rhsIdx_val_of_single rfl i q)
    (fun i q => by
      unfold DotDims.rhsIdx
      rw [dif_neg (show ¬(1 : Fin S42x64.rank) ∈ dot_S8192x42_S42x64_S8192x64_1_0_0_1_n_n.rhsBatch by decide), dif_pos (show (1 : Fin S42x64.rank) ∈ dot_S8192x42_S42x64_S8192x64_1_0_0_1_n_n.rhsNonContracting by decide)]
      rfl)

theorem plain_S4096x64_S64x128 : RowBlocks.PlainSum dot_S4096x64_S64x128_S4096x128_1_0_0_1_n_n :=
  RowBlocks.plainSum_of dot_S4096x64_S64x128_S4096x128_1_0_0_1_n_n rfl rfl
    (fun i q => by
      unfold DotDims.lhsIdx
      rw [dif_neg (show ¬(0 : Fin S4096x64.rank) ∈ dot_S4096x64_S64x128_S4096x128_1_0_0_1_n_n.lhsBatch by decide), dif_pos (show (0 : Fin S4096x64.rank) ∈ dot_S4096x64_S64x128_S4096x128_1_0_0_1_n_n.lhsNonContracting by decide)]
      rfl)
    (fun i q => dot_S4096x64_S64x128_S4096x128_1_0_0_1_n_n.lhsIdx_val_of_single rfl i q)
    (fun i q => dot_S4096x64_S64x128_S4096x128_1_0_0_1_n_n.rhsIdx_val_of_single rfl i q)
    (fun i q => by
      unfold DotDims.rhsIdx
      rw [dif_neg (show ¬(1 : Fin S64x128.rank) ∈ dot_S4096x64_S64x128_S4096x128_1_0_0_1_n_n.rhsBatch by decide), dif_pos (show (1 : Fin S64x128.rank) ∈ dot_S4096x64_S64x128_S4096x128_1_0_0_1_n_n.rhsNonContracting by decide)]
      rfl)

end Cert.KernelIdeal.Plain

end
-- ==== Proof.PlainReference.lean ====
/-
  Every matrix product of the whole-array program contracts the left factor's second axis against the right factor's
  first and has no batch axis: each is a plain matrix product, `∑ j, A (p, j) · W (j, c)`.
-/
import proofs.«112893_j944892805681_2_alg».proof.Proof.Gen.ReferenceIdeal
import proofs.«112893_j944892805681_2_alg».proof.Proof.LibRows

noncomputable section

namespace Cert.ReferenceIdeal.Plain

open Cert.ReferenceIdeal Idealize.ShloMosaic

theorem plain_S262144x128_S128x128 : RowBlocks.PlainSum dot_S262144x128_S128x128_S262144x128_1_0_0_1_n_n :=
  RowBlocks.plainSum_of dot_S262144x128_S128x128_S262144x128_1_0_0_1_n_n rfl rfl
    (fun i q => by
      unfold DotDims.lhsIdx
      rw [dif_neg (show ¬(0 : Fin S262144x128.rank) ∈ dot_S262144x128_S128x128_S262144x128_1_0_0_1_n_n.lhsBatch by decide), dif_pos (show (0 : Fin S262144x128.rank) ∈ dot_S262144x128_S128x128_S262144x128_1_0_0_1_n_n.lhsNonContracting by decide)]
      rfl)
    (fun i q => dot_S262144x128_S128x128_S262144x128_1_0_0_1_n_n.lhsIdx_val_of_single rfl i q)
    (fun i q => dot_S262144x128_S128x128_S262144x128_1_0_0_1_n_n.rhsIdx_val_of_single rfl i q)
    (fun i q => by
      unfold DotDims.rhsIdx
      rw [dif_neg (show ¬(1 : Fin S128x128.rank) ∈ dot_S262144x128_S128x128_S262144x128_1_0_0_1_n_n.rhsBatch by decide), dif_pos (show (1 : Fin S128x128.rank) ∈ dot_S262144x128_S128x128_S262144x128_1_0_0_1_n_n.rhsNonContracting by decide)]
      rfl)

theorem plain_S262144x6_S6x8 : RowBlocks.PlainSum dot_S262144x6_S6x8_S262144x8_1_0_0_1_n_n :=
  RowBlocks.plainSum_of dot_S262144x6_S6x8_S262144x8_1_0_0_1_n_n rfl rfl
    (fun i q => by
      unfold DotDims.lhsIdx
      rw [dif_neg (show ¬(0 : Fin S262144x6.rank) ∈ dot_S262144x6_S6x8_S262144x8_1_0_0_1_n_n.lhsBatch by decide), dif_pos (show (0 : Fin S262144x6.rank) ∈ dot_S262144x6_S6x8_S262144x8_1_0_0_1_n_n.lhsNonContracting by decide)]
      rfl)
    (fun i q => dot_S262144x6_S6x8_S262144x8_1_0_0_1_n_n.lhsIdx_val_of_single rfl i q)
    (fun i q => dot_S262144x6_S6x8_S262144x8_1_0_0_1_n_n.rhsIdx_val_of_single rfl i q)
    (fun i q => by
      unfold DotDims.rhsIdx
      rw [dif_neg (show ¬(1 : Fin S6x8.rank) ∈ dot_S262144x6_S6x8_S262144x8_1_0_0_1_n_n.rhsBatch by decide), dif_pos (show (1 : Fin S6x8.rank) ∈ dot_S262144x6_S6x8_S262144x8_1_0_0_1_n_n.rhsNonContracting by decide)]
      rfl)

theorem plain_S262144x8_S8x128 : RowBlocks.PlainSum dot_S262144x8_S8x128_S262144x128_1_0_0_1_n_n :=
  RowBlocks.plainSum_of dot_S262144x8_S8x128_S262144x128_1_0_0_1_n_n rfl rfl
    (fun i q => by
      unfold DotDims.lhsIdx
      rw [dif_neg (show ¬(0 : Fin S262144x8.rank) ∈ dot_S262144x8_S8x128_S262144x128_1_0_0_1_n_n.lhsBatch by decide), dif_pos (show (0 : Fin S262144x8.rank) ∈ dot_S262144x8_S8x128_S262144x128_1_0_0_1_n_n.lhsNonContracting by decide)]
      rfl)
    (fun i q => dot_S262144x8_S8x128_S262144x128_1_0_0_1_n_n.lhsIdx_val_of_single rfl i q)
    (fun i q => dot_S262144x8_S8x128_S262144x128_1_0_0_1_n_n.rhsIdx_val_of_single rfl i q)
    (fun i q => by
      unfold DotDims.rhsIdx
      rw [dif_neg (show ¬(1 : Fin S8x128.rank) ∈ dot_S262144x8_S8x128_S262144x128_1_0_0_1_n_n.rhsBatch by decide), dif_pos (show (1 : Fin S8x128.rank) ∈ dot_S262144x8_S8x128_S262144x128_1_0_0_1_n_n.rhsNonContracting by decide)]
      rfl)

theorem plain_S262144x128_S128x64 : RowBlocks.PlainSum dot_S262144x128_S128x64_S262144x64_1_0_0_1_n_n :=
  RowBlocks.plainSum_of dot_S262144x128_S128x64_S262144x64_1_0_0_1_n_n rfl rfl
    (fun i q => by
      unfold DotDims.lhsIdx
      rw [dif_neg (show ¬(0 : Fin S262144x128.rank) ∈ dot_S262144x128_S128x64_S262144x64_1_0_0_1_n_n.lhsBatch by decide), dif_pos (show (0 : Fin S262144x128.rank) ∈ dot_S262144x128_S128x64_S262144x64_1_0_0_1_n_n.lhsNonContracting by decide)]
      rfl)
    (fun i q => dot_S262144x128_S128x64_S262144x64_1_0_0_1_n_n.lhsIdx_val_of_single rfl i q)
    (fun i q => dot_S262144x128_S128x64_S262144x64_1_0_0_1_n_n.rhsIdx_val_of_single rfl i q)
    (fun i q => by
      unfold DotDims.rhsIdx
      rw [dif_neg (show ¬(1 : Fin S128x64.rank) ∈ dot_S262144x128_S128x64_S262144x64_1_0_0_1_n_n.rhsBatch by decide), dif_pos (show (1 : Fin S128x64.rank) ∈ dot_S262144x128_S128x64_S262144x64_1_0_0_1_n_n.rhsNonContracting by decide)]
      rfl)

theorem plain_S2097152x42_S42x8 : RowBlocks.PlainSum dot_S2097152x42_S42x8_S2097152x8_1_0_0_1_n_n :=
  RowBlocks.plainSum_of dot_S2097152x42_S42x8_S2097152x8_1_0_0_1_n_n rfl rfl
    (fun i q => by
      unfold DotDims.lhsIdx
      rw [dif_neg (show ¬(0 : Fin S2097152x42.rank) ∈ dot_S2097152x42_S42x8_S2097152x8_1_0_0_1_n_n.lhsBatch by decide), dif_pos (show (0 : Fin S2097152x42.rank) ∈ dot_S2097152x42_S42x8_S2097152x8_1_0_0_1_n_n.lhsNonContracting by decide)]
      rfl)
    (fun i q => dot_S2097152x42_S42x8_S2097152x8_1_0_0_1_n_n.lhsIdx_val_of_single rfl i q)
    (fun i q => dot_S2097152x42_S42x8_S2097152x8_1_0_0_1_n_n.rhsIdx_val_of_single rfl i q)
    (fun i q => by
      unfold DotDims.rhsIdx
      rw [dif_neg (show ¬(1 : Fin S42x8.rank) ∈ dot_S2097152x42_S42x8_S2097152x8_1_0_0_1_n_n.rhsBatch by decide), dif_pos (show (1 : Fin S42x8.rank) ∈ dot_S2097152x42_S42x8_S2097152x8_1_0_0_1_n_n.rhsNonContracting by decide)]
      rfl)

theorem plain_S2097152x8_S8x64 : RowBlocks.PlainSum dot_S2097152x8_S8x64_S2097152x64_1_0_0_1_n_n :=
  RowBlocks.plainSum_of dot_S2097152x8_S8x64_S2097152x64_1_0_0_1_n_n rfl rfl
    (fun i q => by
      unfold DotDims.lhsIdx
      rw [dif_neg (show ¬(0 : Fin S2097152x8.rank) ∈ dot_S2097152x8_S8x64_S2097152x64_1_0_0_1_n_n.lhsBatch by decide), dif_pos (show (0 : Fin S2097152x8.rank) ∈ dot_S2097152x8_S8x64_S2097152x64_1_0_0_1_n_n.lhsNonContracting by decide)]
      rfl)
    (fun i q => dot_S2097152x8_S8x64_S2097152x64_1_0_0_1_n_n.lhsIdx_val_of_single rfl i q)
    (fun i q => dot_S2097152x8_S8x64_S2097152x64_1_0_0_1_n_n.rhsIdx_val_of_single rfl i q)
    (fun i q => by
      unfold DotDims.rhsIdx
      rw [dif_neg (show ¬(1 : Fin S8x64.rank) ∈ dot_S2097152x8_S8x64_S2097152x64_1_0_0_1_n_n.rhsBatch by decide), dif_pos (show (1 : Fin S8x64.rank) ∈ dot_S2097152x8_S8x64_S2097152x64_1_0_0_1_n_n.rhsNonContracting by decide)]
      rfl)

theorem plain_S262144x64_S64x128 : RowBlocks.PlainSum dot_S262144x64_S64x128_S262144x128_1_0_0_1_n_n :=
  RowBlocks.plainSum_of dot_S262144x64_S64x128_S262144x128_1_0_0_1_n_n rfl rfl
    (fun i q => by
      unfold DotDims.lhsIdx
      rw [dif_neg (show ¬(0 : Fin S262144x64.rank) ∈ dot_S262144x64_S64x128_S262144x128_1_0_0_1_n_n.lhsBatch by decide), dif_pos (show (0 : Fin S262144x64.rank) ∈ dot_S262144x64_S64x128_S262144x128_1_0_0_1_n_n.lhsNonContracting by decide)]
      rfl)
    (fun i q => dot_S262144x64_S64x128_S262144x128_1_0_0_1_n_n.lhsIdx_val_of_single rfl i q)
    (fun i q => dot_S262144x64_S64x128_S262144x128_1_0_0_1_n_n.rhsIdx_val_of_single rfl i q)
    (fun i q => by
      unfold DotDims.rhsIdx
      rw [dif_neg (show ¬(1 : Fin S64x128.rank) ∈ dot_S262144x64_S64x128_S262144x128_1_0_0_1_n_n.rhsBatch by decide), dif_pos (show (1 : Fin S64x128.rank) ∈ dot_S262144x64_S64x128_S262144x128_1_0_0_1_n_n.rhsNonContracting by decide)]
      rfl)

end Cert.ReferenceIdeal.Plain

end
-- ==== Proof.SpecRows.lean ====
/-
  The layers on a block of rows.

  The kernel walks the `E × ·` arrays 4096 rows at a time.  Each layer of the network is local to a
  row, so on a block of rows it is the same layer of the block: a dense layer is the matrix unit's
  product of the block by the weights plus the bias row, and the activation `x · (1 / (1 + e^(-x)))`
  is `x · logistic x`.  Stated here for the block of rows `off … off + 4095`.
-/
import proofs.«112893_j944892805681_2_alg».proof.Proof.Spec
import proofs.«112893_j944892805681_2_alg».proof.Proof.PlainKernel
import proofs.«112893_j944892805681_2_alg».proof.Proof.PlainReference

noncomputable section

namespace Cert.SpecRows

open Idealize.ShloMosaic RowBlocks

variable (off : ℕ) (h : off + 4096 ≤ 262144)

theorem rows_silu128 (X : FVec Ideal Cert.ReferenceIdeal.S262144x128 .f32) :
    rows off h (Cert.Spec.silu128 X) = mulf (rows off h X) (logistic (rows off h X)) := by
  unfold Cert.Spec.silu128
  rw [silu_eq]
  rfl

theorem rows_silu64 (X : FVec Ideal Cert.ReferenceIdeal.S262144x64 .f32) :
    rows off h (Cert.Spec.silu64 X) = mulf (rows off h X) (logistic (rows off h X)) := by
  unfold Cert.Spec.silu64
  rw [silu_eq]
  rfl

theorem rows_dense (A : FVec Ideal Cert.ReferenceIdeal.S262144x128 .f32) (W : FVec Ideal Cert.ReferenceIdeal.S128x128 .f32)
    (b : FVec Ideal Cert.ReferenceIdeal.S128 .f32) :
    rows off h (Cert.Spec.dense A W b)
      = addf (matmul Cert.KernelIdeal.dot_S4096x128_S128x128_S4096x128_1_0_0_1_n_n none
            (truncf .bf16 (rows off h A) (by decide)) (truncf .bf16 W (by decide)) (constant Cert.KernelIdeal.S4096x128 .f32 0x00000000#32))
          (broadcastTo Cert.KernelIdeal.S4096x128 (shapeCast Cert.KernelIdeal.S1x128 b (by decide)) (by decide)) := by
  unfold Cert.Spec.dense Cert.Spec.bias128
  rw [rows_addf, rows_dot _ Cert.KernelIdeal.dot_S4096x128_S128x128_S4096x128_1_0_0_1_n_n
    Cert.ReferenceIdeal.Plain.plain_S262144x128_S128x128 Cert.KernelIdeal.Plain.plain_S4096x128_S128x128 off h none none A W (by decide),
    rows_bias off h b _ _ (by decide) (by decide)]

theorem rows_layer (A : FVec Ideal Cert.ReferenceIdeal.S262144x128 .f32) (W : FVec Ideal Cert.ReferenceIdeal.S128x128 .f32)
    (b : FVec Ideal Cert.ReferenceIdeal.S128 .f32) :
    rows off h (Cert.Spec.layer A W b)
      = mulf (addf (matmul Cert.KernelIdeal.dot_S4096x128_S128x128_S4096x128_1_0_0_1_n_n none
            (truncf .bf16 (rows off h A) (by decide)) (truncf .bf16 W (by decide)) (constant Cert.KernelIdeal.S4096x128 .f32 0x00000000#32))
          (broadcastTo Cert.KernelIdeal.S4096x128 (shapeCast Cert.KernelIdeal.S1x128 b (by decide)) (by decide)))
        (logistic (addf (matmul Cert.KernelIdeal.dot_S4096x128_S128x128_S4096x128_1_0_0_1_n_n none
            (truncf .bf16 (rows off h A) (by decide)) (truncf .bf16 W (by decide)) (constant Cert.KernelIdeal.S4096x128 .f32 0x00000000#32))
          (broadcastTo Cert.KernelIdeal.S4096x128 (shapeCast Cert.KernelIdeal.S1x128 b (by decide)) (by decide)))) := by
  unfold Cert.Spec.layer
  rw [rows_silu128, rows_dense]

theorem rows_res (m : FVec Ideal Cert.ReferenceIdeal.S262144x128 .f32) (W1 : FVec Ideal Cert.ReferenceIdeal.S128x128 .f32)
    (b1 : FVec Ideal Cert.ReferenceIdeal.S128 .f32) (W2 : FVec Ideal Cert.ReferenceIdeal.S128x128 .f32)
    (b2 : FVec Ideal Cert.ReferenceIdeal.S128 .f32) :
    rows off h (Cert.Spec.res m W1 b1 W2 b2)
      = addf (rows off h m) (rows off h (Cert.Spec.layer (Cert.Spec.layer m W1 b1) W2 b2)) := rfl

end Cert.SpecRows

end
-- ==== Proof.EdgeBlock.lean ====
/-
  The edge kernel on a block of rows.

  At one grid point the kernel holds 4096 rows of the message array and of the radial basis array and
  the whole weight matrices.  What it stores is, row for row, the per-edge angular branch of the
  network: `silu ((silu (x · W_kj + b_kj) * (rbf · W_rbf)) · W_down)`, where the gate `rbf · W_rbf` is
  ONE product against the folded `6 × 128` matrix.
-/
import proofs.«112893_j944892805681_2_alg».proof.Proof.SpecRows
import proofs.«112893_j944892805681_2_alg».proof.Proof.Gen.KernelIdeal.Frame

set_option maxRecDepth 16384

noncomputable section

namespace Cert.KernelIdeal.EdgeBlock

open Cert.KernelIdeal Cert.KernelIdeal.Gen Idealize.ShloMosaic RowBlocks

theorem hz2 : (![0, 0] : Fin 2 → Nat) = fun _ => 0 := funext fun a => by fin_cases a <;> rfl
theorem hz1 : (![0] : Fin 1 → Nat) = fun _ => 0 := funext fun a => by fin_cases a <;> rfl

/-- The block the edge kernel stores at a grid point is that block of rows of the angular branch computed from the
    whole arrays, the gate being the plain product of the radial basis array by the folded matrix. -/
theorem edge_block (off : ℕ) (h : off + 4096 ≤ 262144) (x0 : FVec Ideal S262144x128 .f32) (x1 : FVec Ideal S262144x6 .f32)
    (x5 : FVec Ideal S128x128 .f32) (x6 : FVec Ideal S128 .f32) (wr : FVec Ideal S6x128 .f32) (x11 : FVec Ideal S128x64 .f32) :
    out0_6 (F := Ideal) (rows off h x0) (rows off h x1) x5 x6 wr x11
      = rows off h (Cert.Spec.edge x0 x5 x6 (mm x1 wr) x11) := by
  unfold out0_6
  rw [View.canon_unit_zero hz2]
  simp only [View.ld_unit_zero (S := S4096x128) hz2, View.ld_unit_zero (S := S128x128) hz2, View.ld_unit_zero (S := S128) hz1,
    View.ld_unit_zero (S := S4096x6) hz2, View.ld_unit_zero (S := S6x128) hz2, View.ld_unit_zero (S := S128x64) hz2]
  unfold k0_pay1
  simp only [shapeCast_self]
  unfold Cert.Spec.edge
  rw [Cert.SpecRows.rows_silu64,
    rows_dot _ dot_S4096x128_S128x64_S4096x64_1_0_0_1_n_n Cert.ReferenceIdeal.Plain.plain_S262144x128_S128x64
      Cert.KernelIdeal.Plain.plain_S4096x128_S128x64 off h none none _ x11 (by decide),
    rows_mulf, Cert.SpecRows.rows_layer,
    rows_mm dot_S4096x6_S6x128_S4096x128_1_0_0_1_n_n Cert.KernelIdeal.Plain.plain_S4096x6_S6x128 off h none x1 wr (by decide)]
  rfl

end Cert.KernelIdeal.EdgeBlock

end
-- ==== Proof.TripBlock.lean ====
/-
  The triplet kernel on a block of rows: at one grid point it holds 8192 rows of the spherical basis
  array and the folded `42 × 64` matrix, and stores their product — those rows of the plain product of
  the whole basis array by the folded matrix.
-/
import proofs.«112893_j944892805681_2_alg».proof.Proof.LibRows
import proofs.«112893_j944892805681_2_alg».proof.Proof.PlainKernel
import proofs.«112893_j944892805681_2_alg».proof.Proof.Gen.KernelIdeal.Frame

set_option maxRecDepth 16384

noncomputable section

namespace Cert.KernelIdeal.TripBlock

open Cert.KernelIdeal Cert.KernelIdeal.Gen Idealize.ShloMosaic RowBlocks

theorem hz2 : (![0, 0] : Fin 2 → Nat) = fun _ => 0 := funext fun a => by fin_cases a <;> rfl

theorem trip_block (off : ℕ) (h : off + 8192 ≤ 2097152) (x2 : FVec Ideal S2097152x42 .f32) (ws : FVec Ideal S42x64 .f32) :
    out1_2 (F := Ideal) (rows off h x2) ws = rows off h (mm x2 ws) := by
  unfold out1_2
  rw [View.canon_unit_zero hz2]
  simp only [View.ld_unit_zero (S := S8192x42) hz2, View.ld_unit_zero (S := S42x64) hz2]
  unfold k1_pay1
  simp only [shapeCast_self]
  rw [rows_mm dot_S8192x42_S42x64_S8192x64_1_0_0_1_n_n Cert.KernelIdeal.Plain.plain_S8192x42_S42x64 off h none x2 ws (by decide)]

end Cert.KernelIdeal.TripBlock

end
-- ==== Proof.CombineBlock.lean ====
/-
  The combine kernel on a block of rows.

  At one grid point the kernel holds 4096 rows of the aggregated array and of the message array and
  every weight.  What it stores is, row for row, everything the network does after the aggregation:
  the direct branch plus the up-projected aggregate, the residual block before the skip, the final
  dense layer and the skip, and the two residual blocks after it.  The body's arithmetic comes in
  seven pieces; each is read here as the rows of one stretch of the network, from whole arrays that
  stand for the stretches before it, and the pieces are then chained.
-/
import proofs.«112893_j944892805681_2_alg».proof.Proof.SpecRows
import proofs.«112893_j944892805681_2_alg».proof.Proof.Gen.KernelIdeal.Frame

set_option maxRecDepth 16384

noncomputable section

namespace Cert.KernelIdeal.CombineBlock

open Cert.KernelIdeal Cert.KernelIdeal.Gen Idealize.ShloMosaic RowBlocks

theorem hz1 : (![0] : Fin 1 → Nat) = fun _ => 0 := funext fun a => by fin_cases a <;> rfl
theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

variable (off : ℕ) (h : off + 4096 ≤ 262144)

/-- The rows of the up-projection: the aggregate times `W_up`. -/
theorem rows_up (A : FVec Ideal S262144x64 .f32) (x12 : FVec Ideal S64x128 .f32) :
    rows off h (Host.dotGeneral Cert.ReferenceIdeal.dot_S262144x64_S64x128_S262144x128_1_0_0_1_n_n none A x12)
      = matmul dot_S4096x64_S64x128_S4096x128_1_0_0_1_n_n none (truncf .bf16 (rows off h A) (by decide)) (truncf .bf16 x12 (by decide))
          (constant S4096x128 .f32 0x00000000#32) :=
  rows_dot _ dot_S4096x64_S64x128_S4096x128_1_0_0_1_n_n Cert.ReferenceIdeal.Plain.plain_S262144x64_S64x128
    Cert.KernelIdeal.Plain.plain_S4096x64_S64x128 off h none none A x12 (by decide)

/-- The direct branch plus the up-projected aggregate. -/
theorem pay_m0 (A : FVec Ideal S262144x64 .f32) (x0 : FVec Ideal S262144x128 .f32) (x12 : FVec Ideal S64x128 .f32)
    (x13 : FVec Ideal S128x128 .f32) (x14 : FVec Ideal S128 .f32) :
    k2_pay2 (F := Ideal) (rows off h A) x12 (rows off h x0) x13 x14 = rows off h (Cert.Spec.m0 A x0 x12 x13 x14) := by
  unfold k2_pay2
  simp only [shapeCast_self]
  simp only [Cert.Spec.m0, rows_addf, Cert.SpecRows.rows_layer, Cert.SpecRows.rows_silu128, rows_up]

/-- The second weight matrix and bias row of the residual block before the skip. -/
theorem pay_wb1 (x15 : FVec Ideal S1x2x128x128 .f32) : k2_pay3 (F := Ideal) x15 = truncf .bf16 (Cert.Spec.wb1 x15) (by decide) := rfl
theorem pay_bb1 (x16 : FVec Ideal S1x2x128 .f32) : k2_pay4 (F := Ideal) x16 = Cert.Spec.bb1 x16 := rfl

/-- The first dense layer of the residual block before the skip. -/
theorem pay_h1 (A : FVec Ideal S262144x64 .f32) (x0 : FVec Ideal S262144x128 .f32) (x12 : FVec Ideal S64x128 .f32)
    (x13 : FVec Ideal S128x128 .f32) (x14 : FVec Ideal S128 .f32) (x15 : FVec Ideal S1x2x128x128 .f32) (x16 : FVec Ideal S1x2x128 .f32) :
    k2_pay5 (F := Ideal) (rows off h A) x12 (rows off h x0) x13 x14 x15 x16
      = truncf .bf16 (rows off h (Cert.Spec.layer (Cert.Spec.m0 A x0 x12 x13 x14) (Cert.Spec.wb0 x15) (Cert.Spec.bb0 x16))) (by decide) := by
  unfold k2_pay5
  rw [pay_m0]
  simp only [Cert.Spec.wb0, Cert.Spec.bb0, Cert.SpecRows.rows_layer]

/-- From the first hidden layer `H1` of the residual block before the skip to the first residual block after it. -/
theorem pay_m3 (x0 M0 H1 : FVec Ideal S262144x128 .f32) (W1 : FVec Ideal S128x128 .f32) (b1 : FVec Ideal S128 .f32)
    (x17 : FVec Ideal S128x128 .f32) (x18 : FVec Ideal S128 .f32) (x19 : FVec Ideal S2x2x128x128 .f32) (x20 : FVec Ideal S2x2x128 .f32) :
    k2_pay6 (F := Ideal) (rows off h x0) (rows off h M0) (truncf .bf16 W1 (by decide)) b1 (truncf .bf16 (rows off h H1) (by decide)) x17 x18 x19 x20
      = rows off h (Cert.Spec.m3 (Cert.Spec.m2 (addf M0 (Cert.Spec.layer H1 W1 b1)) x17 x18 x0) x19 x20) := by
  unfold k2_pay6
  simp only [shapeCast_self]
  simp only [Cert.Spec.m3, Cert.Spec.m2, Cert.Spec.wa00, Cert.Spec.wa01, Cert.Spec.ba00, Cert.Spec.ba01, Cert.SpecRows.rows_res,
    rows_addf, Cert.SpecRows.rows_layer]

/-- The last residual block. -/
theorem pay_m4 (M3 : FVec Ideal S262144x128 .f32) (x19 : FVec Ideal S2x2x128x128 .f32) (x20 : FVec Ideal S2x2x128 .f32) :
    k2_pay1 (F := Ideal) x19 x20 (rows off h M3) (k2_pay7 (F := Ideal) x19) = rows off h (Cert.Spec.m4 M3 x19 x20) := by
  unfold k2_pay1 k2_pay7
  simp only [shapeCast_self]
  simp only [Cert.Spec.m4, Cert.Spec.wa10, Cert.Spec.wa11, Cert.Spec.ba10, Cert.Spec.ba11, Cert.SpecRows.rows_res,
    rows_addf, Cert.SpecRows.rows_layer]

/-- The block the combine kernel stores at a grid point is that block of rows of the network's tail computed from the
    whole arrays. -/
theorem combine_block (A : FVec Ideal S262144x64 .f32) (x0 : FVec Ideal S262144x128 .f32)
    (x12 : FVec Ideal S64x128 .f32) (x13 : FVec Ideal S128x128 .f32) (x14 : FVec Ideal S128 .f32)
    (x15 : FVec Ideal S1x2x128x128 .f32) (x16 : FVec Ideal S1x2x128 .f32) (x17 : FVec Ideal S128x128 .f32)
    (x18 : FVec Ideal S128 .f32) (x19 : FVec Ideal S2x2x128x128 .f32) (x20 : FVec Ideal S2x2x128 .f32) :
    out2_11 (F := Ideal) (rows off h A) (rows off h x0) x12 x13 x14 x15 x16 x17 x18 x19 x20
      = rows off h (Cert.Spec.combine A x0 x12 x13 x14 x15 x16 x17 x18 x19 x20) := by
  unfold out2_11
  rw [View.canon_unit_zero hz2]
  simp only [View.ld_unit_zero (S := S4096x64) hz2, View.ld_unit_zero (S := S4096x128) hz2, View.ld_unit_zero (S := S64x128) hz2,
    View.ld_unit_zero (S := S128x128) hz2, View.ld_unit_zero (S := S128) hz1, View.ld_unit_zero (S := S1x2x128x128) hz4,
    View.ld_unit_zero (S := S1x2x128) hz3, View.ld_unit_zero (S := S2x2x128x128) hz4, View.ld_unit_zero (S := S2x2x128) hz3]
  rw [pay_m0, pay_wb1, pay_bb1, pay_h1, pay_m3, pay_m4]
  rfl

end Cert.KernelIdeal.CombineBlock

end
-- ==== Proof.RegionArrays.lean ====
/-
  What each region leaves in its output array.

  Each region's output blocks are the rows of ONE whole-array function of the arrays the region reads
  (the three block lemmas) and the blocks cover the output array, so after the region the array IS
  that function of the region's entry contents: the per-edge angular branch after the edge region,
  the plain product of the spherical basis by the folded matrix after the triplet region, the
  network's tail after the combine region.
-/
import proofs.«112893_j944892805681_2_alg».proof.Proof.Windows
import proofs.«112893_j944892805681_2_alg».proof.Proof.EdgeBlock
import proofs.«112893_j944892805681_2_alg».proof.Proof.TripBlock
import proofs.«112893_j944892805681_2_alg».proof.Proof.CombineBlock

set_option maxRecDepth 16384

noncomputable section

namespace Cert.KernelIdeal.RegionArrays

open Cert.KernelIdeal Cert.KernelIdeal.Gen Idealize.ShloMosaic Idealize.ShloMosaic.TcCoe RowBlocks
open Idealize.SL.Sem

variable (V : (c : Dev nD) → (b : Ref sig .tc) → Buf (Elt Ideal) ((c : Thread nD τ).loc b)) (c : Dev nD)

/-- After the edge region its output array is the per-edge angular branch of the arrays it read. -/
theorem final0 : (dat0 V c).arrAt 6 cfg0.N
    = Cert.Spec.edge (F := Ideal) (V c main_arg0) (V c main_arg5) (V c main_arg6) (mm (V c main_arg1) (V c main_v0)) (V c main_arg11) := by
  refine (dat0 V c).arrAt_eq_of_cover 6 _ (fun t _ => ?_) Windows.cover0
  show (cfg0.win 6).cut (grid0.coords t) ((dat0 V c).after 6 t) = _
  rw [after0_6, Windows.iblk0_0, Windows.iblk0_1, Windows.iblk0_2, Windows.iblk0_3, Windows.iblk0_4, Windows.iblk0_5, Windows.read0_6]
  exact EdgeBlock.edge_block _ _ _ _ _ _ _ _

/-- After the triplet region its output array is the plain product of the spherical basis array by the folded matrix. -/
theorem final1 : (dat1 V c).arrAt 2 cfg1.N = mm (V c main_arg2) (V c main_v1) := by
  refine (dat1 V c).arrAt_eq_of_cover 2 _ (fun t _ => ?_) Windows.cover1
  show (cfg1.win 2).cut (grid1.coords t) ((dat1 V c).after 2 t) = _
  rw [after1_2, Windows.iblk1_0, Windows.iblk1_1, Windows.read1_2]
  exact TripBlock.trip_block _ _ _ _

/-- After the combine region its output array is the network's tail of the aggregated array and the arguments. -/
theorem final2 : (dat2 V c).arrAt 11 cfg2.N
    = Cert.Spec.combine (F := Ideal) (V c main_v15) (V c main_arg0) (V c main_arg12) (V c main_arg13) (V c main_arg14) (V c main_arg15)
        (V c main_arg16) (V c main_arg17) (V c main_arg18) (V c main_arg19) (V c main_arg20) := by
  refine (dat2 V c).arrAt_eq_of_cover 11 _ (fun t _ => ?_) Windows.cover2
  show (cfg2.win 11).cut (grid2.coords t) ((dat2 V c).after 11 t) = _
  rw [after2_11, Windows.iblk2_0, Windows.iblk2_1, Windows.iblk2_2, Windows.iblk2_3, Windows.iblk2_4, Windows.iblk2_5, Windows.iblk2_6,
    Windows.iblk2_7, Windows.iblk2_8, Windows.iblk2_9, Windows.iblk2_10, Windows.read2_11]
  exact CombineBlock.combine_block _ _ _ _ _ _ _ _ _ _ _ _ _

end Cert.KernelIdeal.RegionArrays

end
-- ==== Proof.Walks.lean ====
/-
  The buffers between the segments.

  The kernel program is six segments: two small matrix products on the host, the edge region, the
  gather's index arithmetic and the gather, the triplet region, the gate product and the scatter-add,
  and the combine region.  No segment writes an argument array, so at every boundary an argument
  still holds its launch contents; a value a host stretch computes is read off that stretch.  This
  module walks each buffer the regions read back to the launch memory, one segment at a time.
-/
import proofs.«112893_j944892805681_2_alg».proof.Proof.Spec
import Idealize.ShloMosaic.PureOps.Ideal
import proofs.«112893_j944892805681_2_alg».proof.Proof.Gen.KernelIdeal.Frame

set_option maxRecDepth 16384

noncomputable section

namespace Cert.KernelIdeal.Walks

open Cert.KernelIdeal Cert.KernelIdeal.Gen Idealize.ShloMosaic Idealize.ShloMosaic.TcCoe
open Idealize.SL.Sem

variable (m : (ℓ : Loc nD τ sig) → Buf (Elt Ideal) ℓ) (ρ : Dev nD → PrngReg) (c : Dev nD)

theorem walk1_main_arg0 : W1 m ρ c (Proc.devRef .tc main_arg0) = m ((c : Thread nD τ).loc main_arg0) :=
  calc W1 m ρ c (Proc.devRef .tc main_arg0)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem walk1_main_arg1 : W1 m ρ c (Proc.devRef .tc main_arg1) = m ((c : Thread nD τ).loc main_arg1) :=
  calc W1 m ρ c (Proc.devRef .tc main_arg1)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

theorem walk1_main_arg5 : W1 m ρ c (Proc.devRef .tc main_arg5) = m ((c : Thread nD τ).loc main_arg5) :=
  calc W1 m ρ c (Proc.devRef .tc main_arg5)
    _ = W0 m ρ c (Proc.devRef .tc main_arg5) := StableHlo.after_of_forall_not_mem (b := Proc.devRef .tc main_arg5) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg5) := rfl

theorem walk1_main_arg6 : W1 m ρ c (Proc.devRef .tc main_arg6) = m ((c : Thread nD τ).loc main_arg6) :=
  calc W1 m ρ c (Proc.devRef .tc main_arg6)
    _ = W0 m ρ c (Proc.devRef .tc main_arg6) := StableHlo.after_of_forall_not_mem (b := Proc.devRef .tc main_arg6) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg6) := rfl

theorem walk1_main_arg11 : W1 m ρ c (Proc.devRef .tc main_arg11) = m ((c : Thread nD τ).loc main_arg11) :=
  calc W1 m ρ c (Proc.devRef .tc main_arg11)
    _ = W0 m ρ c (Proc.devRef .tc main_arg11) := StableHlo.after_of_forall_not_mem (b := Proc.devRef .tc main_arg11) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg11) := rfl

theorem walk1_main_arg7 : W1 m ρ c (Proc.devRef .tc main_arg7) = m ((c : Thread nD τ).loc main_arg7) :=
  calc W1 m ρ c (Proc.devRef .tc main_arg7)
    _ = W0 m ρ c (Proc.devRef .tc main_arg7) := StableHlo.after_of_forall_not_mem (b := Proc.devRef .tc main_arg7) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg7) := rfl

theorem walk1_main_arg8 : W1 m ρ c (Proc.devRef .tc main_arg8) = m ((c : Thread nD τ).loc main_arg8) :=
  calc W1 m ρ c (Proc.devRef .tc main_arg8)
    _ = W0 m ρ c (Proc.devRef .tc main_arg8) := StableHlo.after_of_forall_not_mem (b := Proc.devRef .tc main_arg8) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg8) := rfl

theorem walk1_main_arg9 : W1 m ρ c (Proc.devRef .tc main_arg9) = m ((c : Thread nD τ).loc main_arg9) :=
  calc W1 m ρ c (Proc.devRef .tc main_arg9)
    _ = W0 m ρ c (Proc.devRef .tc main_arg9) := StableHlo.after_of_forall_not_mem (b := Proc.devRef .tc main_arg9) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg9) := rfl

theorem walk1_main_arg10 : W1 m ρ c (Proc.devRef .tc main_arg10) = m ((c : Thread nD τ).loc main_arg10) :=
  calc W1 m ρ c (Proc.devRef .tc main_arg10)
    _ = W0 m ρ c (Proc.devRef .tc main_arg10) := StableHlo.after_of_forall_not_mem (b := Proc.devRef .tc main_arg10) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg10) := rfl

theorem walk3_main_arg2 : W3 m ρ c (Proc.devRef .tc main_arg2) = m ((c : Thread nD τ).loc main_arg2) :=
  calc W3 m ρ c (Proc.devRef .tc main_arg2)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg2) := rfl

theorem walk3to1_main_v1 : W3 m ρ c (Proc.devRef .tc main_v1) = W1 m ρ c (Proc.devRef .tc main_v1) :=
  calc W3 m ρ c (Proc.devRef .tc main_v1)
    _ = W2 m ρ c (Proc.devRef .tc main_v1) := StableHlo.after_of_forall_not_mem (b := Proc.devRef .tc main_v1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_v1) := W2_of_ne m ρ c main_v1 (by decide)

theorem walk2_main_arg3 : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem walk4_main_arg4 : W4 m ρ c (Proc.devRef .tc main_arg4) = m ((c : Thread nD τ).loc main_arg4) :=
  calc W4 m ρ c (Proc.devRef .tc main_arg4)
    _ = W3 m ρ c (Proc.devRef .tc main_arg4) := W4_of_ne m ρ c main_arg4 (by decide)
    _ = W2 m ρ c (Proc.devRef .tc main_arg4) := StableHlo.after_of_forall_not_mem (b := Proc.devRef .tc main_arg4) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg4) := W2_of_ne m ρ c main_arg4 (by decide)
    _ = W0 m ρ c (Proc.devRef .tc main_arg4) := StableHlo.after_of_forall_not_mem (b := Proc.devRef .tc main_arg4) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg4) := rfl

theorem walk4to3_main_v9 : W4 m ρ c (Proc.devRef .tc main_v9) = W3 m ρ c (Proc.devRef .tc main_v9) :=
  calc W4 m ρ c (Proc.devRef .tc main_v9)
    _ = W3 m ρ c (Proc.devRef .tc main_v9) := W4_of_ne m ρ c main_v9 (by decide)

theorem walk5_main_arg0 : W5 m ρ c (Proc.devRef .tc main_arg0) = m ((c : Thread nD τ).loc main_arg0) :=
  calc W5 m ρ c (Proc.devRef .tc main_arg0)
    _ = W4 m ρ c (Proc.devRef .tc main_arg0) := StableHlo.after_of_forall_not_mem (b := Proc.devRef .tc main_arg0) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg0) := (W2_arr m ρ c 0).trans (((dat0 (V1 m ρ) c).arrAt_in 0 rfl _).trans (A_eq0 (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem walk5_main_arg12 : W5 m ρ c (Proc.devRef .tc main_arg12) = m ((c : Thread nD τ).loc main_arg12) :=
  calc W5 m ρ c (Proc.devRef .tc main_arg12)
    _ = W4 m ρ c (Proc.devRef .tc main_arg12) := StableHlo.after_of_forall_not_mem (b := Proc.devRef .tc main_arg12) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg12) := W4_of_ne m ρ c main_arg12 (by decide)
    _ = W2 m ρ c (Proc.devRef .tc main_arg12) := StableHlo.after_of_forall_not_mem (b := Proc.devRef .tc main_arg12) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg12) := W2_of_ne m ρ c main_arg12 (by decide)
    _ = W0 m ρ c (Proc.devRef .tc main_arg12) := StableHlo.after_of_forall_not_mem (b := Proc.devRef .tc main_arg12) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg12) := rfl

theorem walk5_main_arg13 : W5 m ρ c (Proc.devRef .tc main_arg13) = m ((c : Thread nD τ).loc main_arg13) :=
  calc W5 m ρ c (Proc.devRef .tc main_arg13)
    _ = W4 m ρ c (Proc.devRef .tc main_arg13) := StableHlo.after_of_forall_not_mem (b := Proc.devRef .tc main_arg13) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg13) := W4_of_ne m ρ c main_arg13 (by decide)
    _ = W2 m ρ c (Proc.devRef .tc main_arg13) := StableHlo.after_of_forall_not_mem (b := Proc.devRef .tc main_arg13) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg13) := W2_of_ne m ρ c main_arg13 (by decide)
    _ = W0 m ρ c (Proc.devRef .tc main_arg13) := StableHlo.after_of_forall_not_mem (b := Proc.devRef .tc main_arg13) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg13) := rfl

theorem walk5_main_arg14 : W5 m ρ c (Proc.devRef .tc main_arg14) = m ((c : Thread nD τ).loc main_arg14) :=
  calc W5 m ρ c (Proc.devRef .tc main_arg14)
    _ = W4 m ρ c (Proc.devRef .tc main_arg14) := StableHlo.after_of_forall_not_mem (b := Proc.devRef .tc main_arg14) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg14) := W4_of_ne m ρ c main_arg14 (by decide)
    _ = W2 m ρ c (Proc.devRef .tc main_arg14) := StableHlo.after_of_forall_not_mem (b := Proc.devRef .tc main_arg14) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg14) := W2_of_ne m ρ c main_arg14 (by decide)
    _ = W0 m ρ c (Proc.devRef .tc main_arg14) := StableHlo.after_of_forall_not_mem (b := Proc.devRef .tc main_arg14) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg14) := rfl

theorem walk5_main_arg15 : W5 m ρ c (Proc.devRef .tc main_arg15) = m ((c : Thread nD τ).loc main_arg15) :=
  calc W5 m ρ c (Proc.devRef .tc main_arg15)
    _ = W4 m ρ c (Proc.devRef .tc main_arg15) := StableHlo.after_of_forall_not_mem (b := Proc.devRef .tc main_arg15) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg15) := W4_of_ne m ρ c main_arg15 (by decide)
    _ = W2 m ρ c (Proc.devRef .tc main_arg15) := StableHlo.after_of_forall_not_mem (b := Proc.devRef .tc main_arg15) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg15) := W2_of_ne m ρ c main_arg15 (by decide)
    _ = W0 m ρ c (Proc.devRef .tc main_arg15) := StableHlo.after_of_forall_not_mem (b := Proc.devRef .tc main_arg15) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg15) := rfl

theorem walk5_main_arg16 : W5 m ρ c (Proc.devRef .tc main_arg16) = m ((c : Thread nD τ).loc main_arg16) :=
  calc W5 m ρ c (Proc.devRef .tc main_arg16)
    _ = W4 m ρ c (Proc.devRef .tc main_arg16) := StableHlo.after_of_forall_not_mem (b := Proc.devRef .tc main_arg16) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg16) := W4_of_ne m ρ c main_arg16 (by decide)
    _ = W2 m ρ c (Proc.devRef .tc main_arg16) := StableHlo.after_of_forall_not_mem (b := Proc.devRef .tc main_arg16) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg16) := W2_of_ne m ρ c main_arg16 (by decide)
    _ = W0 m ρ c (Proc.devRef .tc main_arg16) := StableHlo.after_of_forall_not_mem (b := Proc.devRef .tc main_arg16) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg16) := rfl

theorem walk5_main_arg17 : W5 m ρ c (Proc.devRef .tc main_arg17) = m ((c : Thread nD τ).loc main_arg17) :=
  calc W5 m ρ c (Proc.devRef .tc main_arg17)
    _ = W4 m ρ c (Proc.devRef .tc main_arg17) := StableHlo.after_of_forall_not_mem (b := Proc.devRef .tc main_arg17) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg17) := W4_of_ne m ρ c main_arg17 (by decide)
    _ = W2 m ρ c (Proc.devRef .tc main_arg17) := StableHlo.after_of_forall_not_mem (b := Proc.devRef .tc main_arg17) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg17) := W2_of_ne m ρ c main_arg17 (by decide)
    _ = W0 m ρ c (Proc.devRef .tc main_arg17) := StableHlo.after_of_forall_not_mem (b := Proc.devRef .tc main_arg17) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg17) := rfl

theorem walk5_main_arg18 : W5 m ρ c (Proc.devRef .tc main_arg18) = m ((c : Thread nD τ).loc main_arg18) :=
  calc W5 m ρ c (Proc.devRef .tc main_arg18)
    _ = W4 m ρ c (Proc.devRef .tc main_arg18) := StableHlo.after_of_forall_not_mem (b := Proc.devRef .tc main_arg18) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg18) := W4_of_ne m ρ c main_arg18 (by decide)
    _ = W2 m ρ c (Proc.devRef .tc main_arg18) := StableHlo.after_of_forall_not_mem (b := Proc.devRef .tc main_arg18) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg18) := W2_of_ne m ρ c main_arg18 (by decide)
    _ = W0 m ρ c (Proc.devRef .tc main_arg18) := StableHlo.after_of_forall_not_mem (b := Proc.devRef .tc main_arg18) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg18) := rfl

theorem walk5_main_arg19 : W5 m ρ c (Proc.devRef .tc main_arg19) = m ((c : Thread nD τ).loc main_arg19) :=
  calc W5 m ρ c (Proc.devRef .tc main_arg19)
    _ = W4 m ρ c (Proc.devRef .tc main_arg19) := StableHlo.after_of_forall_not_mem (b := Proc.devRef .tc main_arg19) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg19) := W4_of_ne m ρ c main_arg19 (by decide)
    _ = W2 m ρ c (Proc.devRef .tc main_arg19) := StableHlo.after_of_forall_not_mem (b := Proc.devRef .tc main_arg19) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg19) := W2_of_ne m ρ c main_arg19 (by decide)
    _ = W0 m ρ c (Proc.devRef .tc main_arg19) := StableHlo.after_of_forall_not_mem (b := Proc.devRef .tc main_arg19) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg19) := rfl

theorem walk5_main_arg20 : W5 m ρ c (Proc.devRef .tc main_arg20) = m ((c : Thread nD τ).loc main_arg20) :=
  calc W5 m ρ c (Proc.devRef .tc main_arg20)
    _ = W4 m ρ c (Proc.devRef .tc main_arg20) := StableHlo.after_of_forall_not_mem (b := Proc.devRef .tc main_arg20) _ _ (List.forall_iff_forall_mem.mp (by
          simp only [hostOps2, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W3 m ρ c (Proc.devRef .tc main_arg20) := W4_of_ne m ρ c main_arg20 (by decide)
    _ = W2 m ρ c (Proc.devRef .tc main_arg20) := StableHlo.after_of_forall_not_mem (b := Proc.devRef .tc main_arg20) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = W1 m ρ c (Proc.devRef .tc main_arg20) := W2_of_ne m ρ c main_arg20 (by decide)
    _ = W0 m ρ c (Proc.devRef .tc main_arg20) := StableHlo.after_of_forall_not_mem (b := Proc.devRef .tc main_arg20) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg20) := rfl

/-- The folded radial matrix: the first host stretch's product of the two small radial matrices. -/
theorem val_v0 : (W1 m ρ c (Proc.devRef .tc main_v0) : S6x128.Idx → EReal)
    = Host.dotGeneral (F := Ideal) (φ₁ := .f32) (φ₂ := .f32) dot_S6x8_S8x128_S6x128_1_0_0_1_n_n none (m ((c : Thread nD τ).loc main_arg7)) (m ((c : Thread nD τ).loc main_arg8)) := by
  dsimp only [W1, hostOps0]
  after_results

/-- The folded spherical matrix: the first host stretch's product of the two small spherical matrices. -/
theorem val_v1 : (W3 m ρ c (Proc.devRef .tc main_v1) : S42x64.Idx → EReal)
    = Host.dotGeneral (F := Ideal) (φ₁ := .f32) (φ₂ := .f32) dot_S42x8_S8x64_S42x64_1_0_0_1_n_n none (m ((c : Thread nD τ).loc main_arg9)) (m ((c : Thread nD τ).loc main_arg10)) := by
  rw [walk3to1_main_v1]
  dsimp only [W1, hostOps0]
  after_results

/-- The second host stretch gathers the rows of the edge region's output by the wrapped index array. -/
theorem val_v9 : W3 m ρ c (Proc.devRef .tc main_v9)
    = Host.gather Cert.ReferenceIdeal.gather_S262144x64_S2097152x1_S2097152x64_1_0_n_n_0_1_164 (W2 m ρ c (Proc.devRef .tc main_v2))
        (Cert.Spec.wrapIdx (m ((c : Thread nD τ).loc main_arg3))) := by
  dsimp only [W3, hostOps1]
  after_results
  rw [walk2_main_arg3]
  rfl

/-- The third host stretch gates the gathered rows by the triplet region's output and scatter-adds them: the aggregated
    array, from the two regions' outputs and the two index arrays. -/
theorem val_v15 : W5 m ρ c (Proc.devRef .tc main_v15)
    = Cert.Spec.agg (F := Ideal) (W2 m ρ c (Proc.devRef .tc main_v2)) (W4 m ρ c (Proc.devRef .tc main_v10))
        (m ((c : Thread nD τ).loc main_arg3)) (m ((c : Thread nD τ).loc main_arg4)) := by
  dsimp only [W5, hostOps2]
  after_results
  rw [walk4_main_arg4, walk4to3_main_v9, val_v9]
  rfl

end Cert.KernelIdeal.Walks

end
-- ==== Proof.KernelValue.lean ====
/-
  The kernel program's result as a function of its arguments.

  Chaining the segments: the edge region leaves the angular branch, gated by the plain product of the
  radial basis array with the FOLDED radial matrix; the triplet region leaves the plain product of the
  spherical basis array with the FOLDED spherical matrix; the host gathers, gates and scatter-adds them
  into the aggregated array; the combine region leaves the network's tail of it.  The last boundary's
  contents at the result's reference are therefore this one composed function of the launch memory's
  argument arrays.
-/
import proofs.«112893_j944892805681_2_alg».proof.Proof.RegionArrays
import proofs.«112893_j944892805681_2_alg».proof.Proof.Walks

set_option maxRecDepth 16384

noncomputable section

namespace Cert.KernelIdeal.Result

open Cert.KernelIdeal Cert.KernelIdeal.Gen Idealize.ShloMosaic Idealize.ShloMosaic.TcCoe RowBlocks
open Idealize.SL.Sem Cert.KernelIdeal.Walks Cert.KernelIdeal.RegionArrays

variable (m : (ℓ : Loc nD τ sig) → Buf (Elt Ideal) ℓ) (ρ : Dev nD → PrngReg) (c : Dev nD)

/-- The kernel's gate: the radial basis array times the folded radial matrix. -/
def gateK : FVec Ideal S262144x128 .f32 :=
  mm (m ((c : Thread nD τ).loc main_arg1)) (Host.dotGeneral (F := Ideal) (φ₁ := .f32) (φ₂ := .f32) dot_S6x8_S8x128_S6x128_1_0_0_1_n_n none (m ((c : Thread nD τ).loc main_arg7)) (m ((c : Thread nD τ).loc main_arg8)))

/-- The kernel's triplet array: the spherical basis array times the folded spherical matrix. -/
def tripK : FVec Ideal S2097152x64 .f32 :=
  mm (m ((c : Thread nD τ).loc main_arg2)) (Host.dotGeneral (F := Ideal) (φ₁ := .f32) (φ₂ := .f32) dot_S42x8_S8x64_S42x64_1_0_0_1_n_n none (m ((c : Thread nD τ).loc main_arg9)) (m ((c : Thread nD τ).loc main_arg10)))

theorem edge_arr : W2 m ρ c (Proc.devRef .tc main_v2)
    = Cert.Spec.edge (F := Ideal) (m ((c : Thread nD τ).loc main_arg0)) (m ((c : Thread nD τ).loc main_arg5)) (m ((c : Thread nD τ).loc main_arg6)) (gateK m c) (m ((c : Thread nD τ).loc main_arg11)) := by
  refine (W2_arr m ρ c 6).trans ((final0 (V1 m ρ) c).trans ?_)
  show Cert.Spec.edge (F := Ideal) (W1 m ρ c (Proc.devRef .tc main_arg0)) (W1 m ρ c (Proc.devRef .tc main_arg5)) (W1 m ρ c (Proc.devRef .tc main_arg6))
    (mm (W1 m ρ c (Proc.devRef .tc main_arg1)) (W1 m ρ c (Proc.devRef .tc main_v0))) (W1 m ρ c (Proc.devRef .tc main_arg11)) = _
  rw [walk1_main_arg0, walk1_main_arg5, walk1_main_arg6, walk1_main_arg1, val_v0, walk1_main_arg11]
  rfl

theorem trip_arr : W4 m ρ c (Proc.devRef .tc main_v10) = tripK m c := by
  refine (W4_arr m ρ c 2).trans ((final1 (V3 m ρ) c).trans ?_)
  show mm (W3 m ρ c (Proc.devRef .tc main_arg2)) (W3 m ρ c (Proc.devRef .tc main_v1)) = _
  rw [walk3_main_arg2, val_v1]
  rfl

/-- THE RESULT: the last boundary's contents at the result's reference. -/
theorem result_eq : W6 m ρ c (Proc.devRef .tc main_v16)
    = Cert.Spec.combine (F := Ideal)
        (Cert.Spec.agg (F := Ideal) (Cert.Spec.edge (F := Ideal) (m ((c : Thread nD τ).loc main_arg0)) (m ((c : Thread nD τ).loc main_arg5)) (m ((c : Thread nD τ).loc main_arg6)) (gateK m c) (m ((c : Thread nD τ).loc main_arg11)))
          (tripK m c) (m ((c : Thread nD τ).loc main_arg3)) (m ((c : Thread nD τ).loc main_arg4)))
        (m ((c : Thread nD τ).loc main_arg0)) (m ((c : Thread nD τ).loc main_arg12)) (m ((c : Thread nD τ).loc main_arg13)) (m ((c : Thread nD τ).loc main_arg14)) (m ((c : Thread nD τ).loc main_arg15)) (m ((c : Thread nD τ).loc main_arg16))
        (m ((c : Thread nD τ).loc main_arg17)) (m ((c : Thread nD τ).loc main_arg18)) (m ((c : Thread nD τ).loc main_arg19)) (m ((c : Thread nD τ).loc main_arg20)) := by
  refine (W6_arr m ρ c 11).trans ((final2 (V5 m ρ) c).trans ?_)
  show Cert.Spec.combine (F := Ideal) (W5 m ρ c (Proc.devRef .tc main_v15)) (W5 m ρ c (Proc.devRef .tc main_arg0)) (W5 m ρ c (Proc.devRef .tc main_arg12))
    (W5 m ρ c (Proc.devRef .tc main_arg13)) (W5 m ρ c (Proc.devRef .tc main_arg14)) (W5 m ρ c (Proc.devRef .tc main_arg15))
    (W5 m ρ c (Proc.devRef .tc main_arg16)) (W5 m ρ c (Proc.devRef .tc main_arg17)) (W5 m ρ c (Proc.devRef .tc main_arg18))
    (W5 m ρ c (Proc.devRef .tc main_arg19)) (W5 m ρ c (Proc.devRef .tc main_arg20)) = _
  rw [val_v15, edge_arr, trip_arr, walk5_main_arg0, walk5_main_arg12, walk5_main_arg13, walk5_main_arg14, walk5_main_arg15,
    walk5_main_arg16, walk5_main_arg17, walk5_main_arg18, walk5_main_arg19, walk5_main_arg20]

end Cert.KernelIdeal.Result

end
-- ==== Proof.RefOps.lean ====
/-
  The whole-array program as a list of operations.

  @main is a straight line of 185 host operations (each activation's six operations listed where it
  is called).  The line is cut into nine stretches, each ending at a value the next stretches start
  from: the angular branch, the gathered rows, the triplet array, the aggregated array, and then the
  five stages of the network's tail.
-/
import proofs.«112893_j944892805681_2_alg».proof.Proof.Spec
import Idealize.ShloMosaic.Lib.StableHlo.Run

set_option maxRecDepth 16384

noncomputable section

namespace Cert.ReferenceIdeal.RunV

open Cert.ReferenceIdeal Cert.ReferenceIdeal.Gen Idealize.ShloMosaic Idealize.ShloMosaic.TcCoe Idealize.SL.Sem Idealize.ShloMosaic.StableHlo

variable {F : FTy → Type} [FloatOps F]

/-- The contents after two stretches in a row are the contents after the second from the contents after the first. -/
theorem after_append {Val : EltTy → Type} (l₁ l₂ : List (HloOp τ sig Val)) (V : Valuation τ sig Val) :
    after (l₁ ++ l₂) V = after l₂ (after l₁ V) := by
  induction l₁ generalizing V with
  | nil => rfl
  | cons op l ih => exact ih (op.result V)

/-- Stretch 1: operations 1 … 26 of @main, ending at `main_v9`. -/
abbrev seg1 : List (HloOp τ sig (Elt F)) :=
  [ binary main_arg0 main_arg5 main_v0 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    unary main_arg6 main_v1 (broadcastInDim S1x128 ![1] bcast_S128_S1x128_1 : (⟨S128, .f32⟩ : BufTy).Contents (Elt F) → (⟨S1x128, .f32⟩ : BufTy).Contents (Elt F)),
    unary main_v1 main_v2 (broadcastInDim S262144x128 ![0, 1] bcast_S1x128_S262144x128_0_1 : (⟨S1x128, .f32⟩ : BufTy).Contents (Elt F) → (⟨S262144x128, .f32⟩ : BufTy).Contents (Elt F)),
    binary main_v0 main_v2 main_v3 (addf : (⟨S262144x128, .f32⟩ : BufTy).Contents (Elt F) → (⟨S262144x128, .f32⟩ : BufTy).Contents (Elt F) → (⟨S262144x128, .f32⟩ : BufTy).Contents (Elt F)),
    TRef.unary (TRef.of (T := ⟨S262144x128, .f32⟩) main_v3) (TRef.of (T := ⟨S262144x128, .f32⟩) main_call0_v0) Host.negf,
    TRef.unary (TRef.of (T := ⟨S262144x128, .f32⟩) main_call0_v0) (TRef.of (T := ⟨S262144x128, .f32⟩) main_call0_v1) Host.exp,
    TRef.nullary (TRef.of (T := ⟨S_, .f32⟩) main_call0_cst) (constant S_ .f32 0x3F800000#32),
    TRef.unary (TRef.of (T := ⟨S_, .f32⟩) main_call0_cst) (TRef.of (T := ⟨S262144x128, .f32⟩) main_call0_v2) (broadcastInDim S262144x128 ![] bcast_S_S262144x128),
    TRef.binary (TRef.of (T := ⟨S262144x128, .f32⟩) main_call0_v2) (TRef.of (T := ⟨S262144x128, .f32⟩) main_call0_v1) (TRef.of (T := ⟨S262144x128, .f32⟩) main_call0_v3) addf,
    TRef.nullary (TRef.of (T := ⟨S_, .f32⟩) main_call0_cst_0) (constant S_ .f32 0x3F800000#32),
    TRef.unary (TRef.of (T := ⟨S_, .f32⟩) main_call0_cst_0) (TRef.of (T := ⟨S262144x128, .f32⟩) main_call0_v4) (broadcastInDim S262144x128 ![] bcast_S_S262144x128),
    TRef.binary (TRef.of (T := ⟨S262144x128, .f32⟩) main_call0_v4) (TRef.of (T := ⟨S262144x128, .f32⟩) main_call0_v3) (TRef.of (T := ⟨S262144x128, .f32⟩) main_call0_v5) Host.divf,
    TRef.binary (TRef.of (T := ⟨S262144x128, .f32⟩) main_v3) (TRef.of (T := ⟨S262144x128, .f32⟩) main_call0_v5) (TRef.of (T := ⟨S262144x128, .f32⟩) main_v4) mulf,
    binary main_arg1 main_arg7 main_v5 ((fun l r => Host.dotGeneral dot_S262144x6_S6x8_S262144x8_1_0_0_1_n_n none l r) : (⟨S262144x6, .f32⟩ : BufTy).Contents (Elt F) → (⟨S6x8, .f32⟩ : BufTy).Contents (Elt F) → (⟨S262144x8, .f32⟩ : BufTy).Contents (Elt F)),
    binary main_v5 main_arg8 main_v6 ((fun l r => Host.dotGeneral dot_S262144x8_S8x128_S262144x128_1_0_0_1_n_n none l r) : (⟨S262144x8, .f32⟩ : BufTy).Contents (Elt F) → (⟨S8x128, .f32⟩ : BufTy).Contents (Elt F) → (⟨S262144x128, .f32⟩ : BufTy).Contents (Elt F)),
    binary main_v4 main_v6 main_v7 (mulf : (⟨S262144x128, .f32⟩ : BufTy).Contents (Elt F) → (⟨S262144x128, .f32⟩ : BufTy).Contents (Elt F) → (⟨S262144x128, .f32⟩ : BufTy).Contents (Elt F)),
    binary main_v7 main_arg11 main_v8 ((fun l r => Host.dotGeneral dot_S262144x128_S128x64_S262144x64_1_0_0_1_n_n none l r) : (⟨S262144x128, .f32⟩ : BufTy).Contents (Elt F) → (⟨S128x64, .f32⟩ : BufTy).Contents (Elt F) → (⟨S262144x64, .f32⟩ : BufTy).Contents (Elt F)),
    TRef.unary (TRef.of (T := ⟨S262144x64, .f32⟩) main_v8) (TRef.of (T := ⟨S262144x64, .f32⟩) main_call1_v0) Host.negf,
    TRef.unary (TRef.of (T := ⟨S262144x64, .f32⟩) main_call1_v0) (TRef.of (T := ⟨S262144x64, .f32⟩) main_call1_v1) Host.exp,
    TRef.nullary (TRef.of (T := ⟨S_, .f32⟩) main_call1_cst) (constant S_ .f32 0x3F800000#32),
    TRef.unary (TRef.of (T := ⟨S_, .f32⟩) main_call1_cst) (TRef.of (T := ⟨S262144x64, .f32⟩) main_call1_v2) (broadcastInDim S262144x64 ![] bcast_S_S262144x64),
    TRef.binary (TRef.of (T := ⟨S262144x64, .f32⟩) main_call1_v2) (TRef.of (T := ⟨S262144x64, .f32⟩) main_call1_v1) (TRef.of (T := ⟨S262144x64, .f32⟩) main_call1_v3) addf,
    TRef.nullary (TRef.of (T := ⟨S_, .f32⟩) main_call1_cst_0) (constant S_ .f32 0x3F800000#32),
    TRef.unary (TRef.of (T := ⟨S_, .f32⟩) main_call1_cst_0) (TRef.of (T := ⟨S262144x64, .f32⟩) main_call1_v4) (broadcastInDim S262144x64 ![] bcast_S_S262144x64),
    TRef.binary (TRef.of (T := ⟨S262144x64, .f32⟩) main_call1_v4) (TRef.of (T := ⟨S262144x64, .f32⟩) main_call1_v3) (TRef.of (T := ⟨S262144x64, .f32⟩) main_call1_v5) Host.divf,
    TRef.binary (TRef.of (T := ⟨S262144x64, .f32⟩) main_v8) (TRef.of (T := ⟨S262144x64, .f32⟩) main_call1_v5) (TRef.of (T := ⟨S262144x64, .f32⟩) main_v9) mulf ]

/-- Stretch 2: operations 27 … 35 of @main, ending at `main_v16`. -/
abbrev seg2 : List (HloOp τ sig (Elt F)) :=
  [ nullary main_c (constantI S_ 32 0#32),
    unary main_c main_v10 (broadcastInDim S2097152 ![] bcast_S_S2097152 : (⟨S_, .i32⟩ : BufTy).Contents (Elt F) → (⟨S2097152, .i32⟩ : BufTy).Contents (Elt F)),
    binary main_arg3 main_v10 main_v11 (cmpi .slt : (⟨S2097152, .i32⟩ : BufTy).Contents (Elt F) → (⟨S2097152, .i32⟩ : BufTy).Contents (Elt F) → (⟨S2097152, .i1⟩ : BufTy).Contents (Elt F)),
    nullary main_c_0 (constantI S_ 32 262144#32),
    unary main_c_0 main_v12 (broadcastInDim S2097152 ![] bcast_S_S2097152 : (⟨S_, .i32⟩ : BufTy).Contents (Elt F) → (⟨S2097152, .i32⟩ : BufTy).Contents (Elt F)),
    binary main_arg3 main_v12 main_v13 (addi : (⟨S2097152, .i32⟩ : BufTy).Contents (Elt F) → (⟨S2097152, .i32⟩ : BufTy).Contents (Elt F) → (⟨S2097152, .i32⟩ : BufTy).Contents (Elt F)),
    ternary main_v11 main_v13 main_arg3 main_v14 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v14 main_v15 (broadcastInDim S2097152x1 ![0] bcast_S2097152_S2097152x1_0 : (⟨S2097152, .i32⟩ : BufTy).Contents (Elt F) → (⟨S2097152x1, .i32⟩ : BufTy).Contents (Elt F)),
    binary main_v9 main_v15 main_v16 ((fun x i => Host.gather gather_S262144x64_S2097152x1_S2097152x64_1_0_n_n_0_1_164 x i) : (⟨S262144x64, .f32⟩ : BufTy).Contents (Elt F) → (⟨S2097152x1, .i32⟩ : BufTy).Contents (Elt F) → (⟨S2097152x64, .f32⟩ : BufTy).Contents (Elt F)) ]

/-- Stretch 3: operations 36 … 37 of @main, ending at `main_v18`. -/
abbrev seg3 : List (HloOp τ sig (Elt F)) :=
  [ binary main_arg2 main_arg9 main_v17 ((fun l r => Host.dotGeneral dot_S2097152x42_S42x8_S2097152x8_1_0_0_1_n_n none l r) : (⟨S2097152x42, .f32⟩ : BufTy).Contents (Elt F) → (⟨S42x8, .f32⟩ : BufTy).Contents (Elt F) → (⟨S2097152x8, .f32⟩ : BufTy).Contents (Elt F)),
    binary main_v17 main_arg10 main_v18 ((fun l r => Host.dotGeneral dot_S2097152x8_S8x64_S2097152x64_1_0_0_1_n_n none l r) : (⟨S2097152x8, .f32⟩ : BufTy).Contents (Elt F) → (⟨S8x64, .f32⟩ : BufTy).Contents (Elt F) → (⟨S2097152x64, .f32⟩ : BufTy).Contents (Elt F)) ]

/-- Stretch 4: operations 38 … 42 of @main, ending at `main_v22`. -/
abbrev seg4 : List (HloOp τ sig (Elt F)) :=
  [ binary main_v16 main_v18 main_v19 (mulf : (⟨S2097152x64, .f32⟩ : BufTy).Contents (Elt F) → (⟨S2097152x64, .f32⟩ : BufTy).Contents (Elt F) → (⟨S2097152x64, .f32⟩ : BufTy).Contents (Elt F)),
    nullary main_cst (constant S_ .f32 0x00000000#32),
    unary main_cst main_v20 (broadcastInDim S262144x64 ![] bcast_S_S262144x64 : (⟨S_, .f32⟩ : BufTy).Contents (Elt F) → (⟨S262144x64, .f32⟩ : BufTy).Contents (Elt F)),
    unary main_arg4 main_v21 (broadcastInDim S2097152x1 ![0] bcast_S2097152_S2097152x1_0 : (⟨S2097152, .i32⟩ : BufTy).Contents (Elt F) → (⟨S2097152x1, .i32⟩ : BufTy).Contents (Elt F)),
    ternary main_v20 main_v21 main_v19 main_v22 ((fun x i u => Host.scatterAdd scatter_S262144x64_S2097152x1_S2097152x64_1_0_0_1 x i u) : (⟨S262144x64, .f32⟩ : BufTy).Contents (Elt F) → (⟨S2097152x1, .i32⟩ : BufTy).Contents (Elt F) → (⟨S2097152x64, .f32⟩ : BufTy).Contents (Elt F) → (⟨S262144x64, .f32⟩ : BufTy).Contents (Elt F)) ]

/-- Stretch 5: operations 43 … 66 of @main, ending at `main_v30`. -/
abbrev seg5 : List (HloOp τ sig (Elt F)) :=
  [ binary main_v22 main_arg12 main_v23 ((fun l r => Host.dotGeneral dot_S262144x64_S64x128_S262144x128_1_0_0_1_n_n none l r) : (⟨S262144x64, .f32⟩ : BufTy).Contents (Elt F) → (⟨S64x128, .f32⟩ : BufTy).Contents (Elt F) → (⟨S262144x128, .f32⟩ : BufTy).Contents (Elt F)),
    TRef.unary (TRef.of (T := ⟨S262144x128, .f32⟩) main_v23) (TRef.of (T := ⟨S262144x128, .f32⟩) main_call2_v0) Host.negf,
    TRef.unary (TRef.of (T := ⟨S262144x128, .f32⟩) main_call2_v0) (TRef.of (T := ⟨S262144x128, .f32⟩) main_call2_v1) Host.exp,
    TRef.nullary (TRef.of (T := ⟨S_, .f32⟩) main_call2_cst) (constant S_ .f32 0x3F800000#32),
    TRef.unary (TRef.of (T := ⟨S_, .f32⟩) main_call2_cst) (TRef.of (T := ⟨S262144x128, .f32⟩) main_call2_v2) (broadcastInDim S262144x128 ![] bcast_S_S262144x128),
    TRef.binary (TRef.of (T := ⟨S262144x128, .f32⟩) main_call2_v2) (TRef.of (T := ⟨S262144x128, .f32⟩) main_call2_v1) (TRef.of (T := ⟨S262144x128, .f32⟩) main_call2_v3) addf,
    TRef.nullary (TRef.of (T := ⟨S_, .f32⟩) main_call2_cst_0) (constant S_ .f32 0x3F800000#32),
    TRef.unary (TRef.of (T := ⟨S_, .f32⟩) main_call2_cst_0) (TRef.of (T := ⟨S262144x128, .f32⟩) main_call2_v4) (broadcastInDim S262144x128 ![] bcast_S_S262144x128),
    TRef.binary (TRef.of (T := ⟨S262144x128, .f32⟩) main_call2_v4) (TRef.of (T := ⟨S262144x128, .f32⟩) main_call2_v3) (TRef.of (T := ⟨S262144x128, .f32⟩) main_call2_v5) Host.divf,
    TRef.binary (TRef.of (T := ⟨S262144x128, .f32⟩) main_v23) (TRef.of (T := ⟨S262144x128, .f32⟩) main_call2_v5) (TRef.of (T := ⟨S262144x128, .f32⟩) main_v24) mulf,
    binary main_arg0 main_arg13 main_v25 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    unary main_arg14 main_v26 (broadcastInDim S1x128 ![1] bcast_S128_S1x128_1 : (⟨S128, .f32⟩ : BufTy).Contents (Elt F) → (⟨S1x128, .f32⟩ : BufTy).Contents (Elt F)),
    unary main_v26 main_v27 (broadcastInDim S262144x128 ![0, 1] bcast_S1x128_S262144x128_0_1 : (⟨S1x128, .f32⟩ : BufTy).Contents (Elt F) → (⟨S262144x128, .f32⟩ : BufTy).Contents (Elt F)),
    binary main_v25 main_v27 main_v28 (addf : (⟨S262144x128, .f32⟩ : BufTy).Contents (Elt F) → (⟨S262144x128, .f32⟩ : BufTy).Contents (Elt F) → (⟨S262144x128, .f32⟩ : BufTy).Contents (Elt F)),
    TRef.unary (TRef.of (T := ⟨S262144x128, .f32⟩) main_v28) (TRef.of (T := ⟨S262144x128, .f32⟩) main_call3_v0) Host.negf,
    TRef.unary (TRef.of (T := ⟨S262144x128, .f32⟩) main_call3_v0) (TRef.of (T := ⟨S262144x128, .f32⟩) main_call3_v1) Host.exp,
    TRef.nullary (TRef.of (T := ⟨S_, .f32⟩) main_call3_cst) (constant S_ .f32 0x3F800000#32),
    TRef.unary (TRef.of (T := ⟨S_, .f32⟩) main_call3_cst) (TRef.of (T := ⟨S262144x128, .f32⟩) main_call3_v2) (broadcastInDim S262144x128 ![] bcast_S_S262144x128),
    TRef.binary (TRef.of (T := ⟨S262144x128, .f32⟩) main_call3_v2) (TRef.of (T := ⟨S262144x128, .f32⟩) main_call3_v1) (TRef.of (T := ⟨S262144x128, .f32⟩) main_call3_v3) addf,
    TRef.nullary (TRef.of (T := ⟨S_, .f32⟩) main_call3_cst_0) (constant S_ .f32 0x3F800000#32),
    TRef.unary (TRef.of (T := ⟨S_, .f32⟩) main_call3_cst_0) (TRef.of (T := ⟨S262144x128, .f32⟩) main_call3_v4) (broadcastInDim S262144x128 ![] bcast_S_S262144x128),
    TRef.binary (TRef.of (T := ⟨S262144x128, .f32⟩) main_call3_v4) (TRef.of (T := ⟨S262144x128, .f32⟩) main_call3_v3) (TRef.of (T := ⟨S262144x128, .f32⟩) main_call3_v5) Host.divf,
    TRef.binary (TRef.of (T := ⟨S262144x128, .f32⟩) main_v28) (TRef.of (T := ⟨S262144x128, .f32⟩) main_call3_v5) (TRef.of (T := ⟨S262144x128, .f32⟩) main_v29) mulf,
    binary main_v29 main_v24 main_v30 (addf : (⟨S262144x128, .f32⟩ : BufTy).Contents (Elt F) → (⟨S262144x128, .f32⟩ : BufTy).Contents (Elt F) → (⟨S262144x128, .f32⟩ : BufTy).Contents (Elt F)) ]

/-- Stretch 6: operations 67 … 101 of @main, ending at `main_v49`. -/
abbrev seg6 : List (HloOp τ sig (Elt F)) :=
  [ unary main_arg15 main_v31 ((extractStridedSlice S1x1x128x128 ![0, 0, 0, 0] · slices_S1x2x128x128_S1x1x128x128_0_0_0_0) : (⟨S1x2x128x128, .f32⟩ : BufTy).Contents (Elt F) → (⟨S1x1x128x128, .f32⟩ : BufTy).Contents (Elt F)),
    reshape main_v31 main_v32 rfl shapeCasts_S1x1x128x128_S128x128,
    binary main_v30 main_v32 main_v33 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    unary main_arg16 main_v34 ((extractStridedSlice S1x1x128 ![0, 0, 0] · slices_S1x2x128_S1x1x128_0_0_0) : (⟨S1x2x128, .f32⟩ : BufTy).Contents (Elt F) → (⟨S1x1x128, .f32⟩ : BufTy).Contents (Elt F)),
    reshape main_v34 main_v35 rfl shapeCasts_S1x1x128_S128,
    unary main_v35 main_v36 (broadcastInDim S1x128 ![1] bcast_S128_S1x128_1 : (⟨S128, .f32⟩ : BufTy).Contents (Elt F) → (⟨S1x128, .f32⟩ : BufTy).Contents (Elt F)),
    unary main_v36 main_v37 (broadcastInDim S262144x128 ![0, 1] bcast_S1x128_S262144x128_0_1 : (⟨S1x128, .f32⟩ : BufTy).Contents (Elt F) → (⟨S262144x128, .f32⟩ : BufTy).Contents (Elt F)),
    binary main_v33 main_v37 main_v38 (addf : (⟨S262144x128, .f32⟩ : BufTy).Contents (Elt F) → (⟨S262144x128, .f32⟩ : BufTy).Contents (Elt F) → (⟨S262144x128, .f32⟩ : BufTy).Contents (Elt F)),
    TRef.unary (TRef.of (T := ⟨S262144x128, .f32⟩) main_v38) (TRef.of (T := ⟨S262144x128, .f32⟩) main_call4_v0) Host.negf,
    TRef.unary (TRef.of (T := ⟨S262144x128, .f32⟩) main_call4_v0) (TRef.of (T := ⟨S262144x128, .f32⟩) main_call4_v1) Host.exp,
    TRef.nullary (TRef.of (T := ⟨S_, .f32⟩) main_call4_cst) (constant S_ .f32 0x3F800000#32),
    TRef.unary (TRef.of (T := ⟨S_, .f32⟩) main_call4_cst) (TRef.of (T := ⟨S262144x128, .f32⟩) main_call4_v2) (broadcastInDim S262144x128 ![] bcast_S_S262144x128),
    TRef.binary (TRef.of (T := ⟨S262144x128, .f32⟩) main_call4_v2) (TRef.of (T := ⟨S262144x128, .f32⟩) main_call4_v1) (TRef.of (T := ⟨S262144x128, .f32⟩) main_call4_v3) addf,
    TRef.nullary (TRef.of (T := ⟨S_, .f32⟩) main_call4_cst_0) (constant S_ .f32 0x3F800000#32),
    TRef.unary (TRef.of (T := ⟨S_, .f32⟩) main_call4_cst_0) (TRef.of (T := ⟨S262144x128, .f32⟩) main_call4_v4) (broadcastInDim S262144x128 ![] bcast_S_S262144x128),
    TRef.binary (TRef.of (T := ⟨S262144x128, .f32⟩) main_call4_v4) (TRef.of (T := ⟨S262144x128, .f32⟩) main_call4_v3) (TRef.of (T := ⟨S262144x128, .f32⟩) main_call4_v5) Host.divf,
    TRef.binary (TRef.of (T := ⟨S262144x128, .f32⟩) main_v38) (TRef.of (T := ⟨S262144x128, .f32⟩) main_call4_v5) (TRef.of (T := ⟨S262144x128, .f32⟩) main_v39) mulf,
    unary main_arg15 main_v40 ((extractStridedSlice S1x1x128x128 ![0, 1, 0, 0] · slices_S1x2x128x128_S1x1x128x128_0_1_0_0) : (⟨S1x2x128x128, .f32⟩ : BufTy).Contents (Elt F) → (⟨S1x1x128x128, .f32⟩ : BufTy).Contents (Elt F)),
    reshape main_v40 main_v41 rfl shapeCasts_S1x1x128x128_S128x128,
    binary main_v39 main_v41 main_v42 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    unary main_arg16 main_v43 ((extractStridedSlice S1x1x128 ![0, 1, 0] · slices_S1x2x128_S1x1x128_0_1_0) : (⟨S1x2x128, .f32⟩ : BufTy).Contents (Elt F) → (⟨S1x1x128, .f32⟩ : BufTy).Contents (Elt F)),
    reshape main_v43 main_v44 rfl shapeCasts_S1x1x128_S128,
    unary main_v44 main_v45 (broadcastInDim S1x128 ![1] bcast_S128_S1x128_1 : (⟨S128, .f32⟩ : BufTy).Contents (Elt F) → (⟨S1x128, .f32⟩ : BufTy).Contents (Elt F)),
    unary main_v45 main_v46 (broadcastInDim S262144x128 ![0, 1] bcast_S1x128_S262144x128_0_1 : (⟨S1x128, .f32⟩ : BufTy).Contents (Elt F) → (⟨S262144x128, .f32⟩ : BufTy).Contents (Elt F)),
    binary main_v42 main_v46 main_v47 (addf : (⟨S262144x128, .f32⟩ : BufTy).Contents (Elt F) → (⟨S262144x128, .f32⟩ : BufTy).Contents (Elt F) → (⟨S262144x128, .f32⟩ : BufTy).Contents (Elt F)),
    TRef.unary (TRef.of (T := ⟨S262144x128, .f32⟩) main_v47) (TRef.of (T := ⟨S262144x128, .f32⟩) main_call5_v0) Host.negf,
    TRef.unary (TRef.of (T := ⟨S262144x128, .f32⟩) main_call5_v0) (TRef.of (T := ⟨S262144x128, .f32⟩) main_call5_v1) Host.exp,
    TRef.nullary (TRef.of (T := ⟨S_, .f32⟩) main_call5_cst) (constant S_ .f32 0x3F800000#32),
    TRef.unary (TRef.of (T := ⟨S_, .f32⟩) main_call5_cst) (TRef.of (T := ⟨S262144x128, .f32⟩) main_call5_v2) (broadcastInDim S262144x128 ![] bcast_S_S262144x128),
    TRef.binary (TRef.of (T := ⟨S262144x128, .f32⟩) main_call5_v2) (TRef.of (T := ⟨S262144x128, .f32⟩) main_call5_v1) (TRef.of (T := ⟨S262144x128, .f32⟩) main_call5_v3) addf,
    TRef.nullary (TRef.of (T := ⟨S_, .f32⟩) main_call5_cst_0) (constant S_ .f32 0x3F800000#32),
    TRef.unary (TRef.of (T := ⟨S_, .f32⟩) main_call5_cst_0) (TRef.of (T := ⟨S262144x128, .f32⟩) main_call5_v4) (broadcastInDim S262144x128 ![] bcast_S_S262144x128),
    TRef.binary (TRef.of (T := ⟨S262144x128, .f32⟩) main_call5_v4) (TRef.of (T := ⟨S262144x128, .f32⟩) main_call5_v3) (TRef.of (T := ⟨S262144x128, .f32⟩) main_call5_v5) Host.divf,
    TRef.binary (TRef.of (T := ⟨S262144x128, .f32⟩) main_v47) (TRef.of (T := ⟨S262144x128, .f32⟩) main_call5_v5) (TRef.of (T := ⟨S262144x128, .f32⟩) main_v48) mulf,
    binary main_v30 main_v48 main_v49 (addf : (⟨S262144x128, .f32⟩ : BufTy).Contents (Elt F) → (⟨S262144x128, .f32⟩ : BufTy).Contents (Elt F) → (⟨S262144x128, .f32⟩ : BufTy).Contents (Elt F)) ]

/-- Stretch 7: operations 102 … 115 of @main, ending at `main_v55`. -/
abbrev seg7 : List (HloOp τ sig (Elt F)) :=
  [ binary main_v49 main_arg17 main_v50 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    unary main_arg18 main_v51 (broadcastInDim S1x128 ![1] bcast_S128_S1x128_1 : (⟨S128, .f32⟩ : BufTy).Contents (Elt F) → (⟨S1x128, .f32⟩ : BufTy).Contents (Elt F)),
    unary main_v51 main_v52 (broadcastInDim S262144x128 ![0, 1] bcast_S1x128_S262144x128_0_1 : (⟨S1x128, .f32⟩ : BufTy).Contents (Elt F) → (⟨S262144x128, .f32⟩ : BufTy).Contents (Elt F)),
    binary main_v50 main_v52 main_v53 (addf : (⟨S262144x128, .f32⟩ : BufTy).Contents (Elt F) → (⟨S262144x128, .f32⟩ : BufTy).Contents (Elt F) → (⟨S262144x128, .f32⟩ : BufTy).Contents (Elt F)),
    TRef.unary (TRef.of (T := ⟨S262144x128, .f32⟩) main_v53) (TRef.of (T := ⟨S262144x128, .f32⟩) main_call6_v0) Host.negf,
    TRef.unary (TRef.of (T := ⟨S262144x128, .f32⟩) main_call6_v0) (TRef.of (T := ⟨S262144x128, .f32⟩) main_call6_v1) Host.exp,
    TRef.nullary (TRef.of (T := ⟨S_, .f32⟩) main_call6_cst) (constant S_ .f32 0x3F800000#32),
    TRef.unary (TRef.of (T := ⟨S_, .f32⟩) main_call6_cst) (TRef.of (T := ⟨S262144x128, .f32⟩) main_call6_v2) (broadcastInDim S262144x128 ![] bcast_S_S262144x128),
    TRef.binary (TRef.of (T := ⟨S262144x128, .f32⟩) main_call6_v2) (TRef.of (T := ⟨S262144x128, .f32⟩) main_call6_v1) (TRef.of (T := ⟨S262144x128, .f32⟩) main_call6_v3) addf,
    TRef.nullary (TRef.of (T := ⟨S_, .f32⟩) main_call6_cst_0) (constant S_ .f32 0x3F800000#32),
    TRef.unary (TRef.of (T := ⟨S_, .f32⟩) main_call6_cst_0) (TRef.of (T := ⟨S262144x128, .f32⟩) main_call6_v4) (broadcastInDim S262144x128 ![] bcast_S_S262144x128),
    TRef.binary (TRef.of (T := ⟨S262144x128, .f32⟩) main_call6_v4) (TRef.of (T := ⟨S262144x128, .f32⟩) main_call6_v3) (TRef.of (T := ⟨S262144x128, .f32⟩) main_call6_v5) Host.divf,
    TRef.binary (TRef.of (T := ⟨S262144x128, .f32⟩) main_v53) (TRef.of (T := ⟨S262144x128, .f32⟩) main_call6_v5) (TRef.of (T := ⟨S262144x128, .f32⟩) main_v54) mulf,
    binary main_v54 main_arg0 main_v55 (addf : (⟨S262144x128, .f32⟩ : BufTy).Contents (Elt F) → (⟨S262144x128, .f32⟩ : BufTy).Contents (Elt F) → (⟨S262144x128, .f32⟩ : BufTy).Contents (Elt F)) ]

/-- Stretch 8: operations 116 … 150 of @main, ending at `main_v74`. -/
abbrev seg8 : List (HloOp τ sig (Elt F)) :=
  [ unary main_arg19 main_v56 ((extractStridedSlice S1x1x128x128 ![0, 0, 0, 0] · slices_S2x2x128x128_S1x1x128x128_0_0_0_0) : (⟨S2x2x128x128, .f32⟩ : BufTy).Contents (Elt F) → (⟨S1x1x128x128, .f32⟩ : BufTy).Contents (Elt F)),
    reshape main_v56 main_v57 rfl shapeCasts_S1x1x128x128_S128x128,
    binary main_v55 main_v57 main_v58 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    unary main_arg20 main_v59 ((extractStridedSlice S1x1x128 ![0, 0, 0] · slices_S2x2x128_S1x1x128_0_0_0) : (⟨S2x2x128, .f32⟩ : BufTy).Contents (Elt F) → (⟨S1x1x128, .f32⟩ : BufTy).Contents (Elt F)),
    reshape main_v59 main_v60 rfl shapeCasts_S1x1x128_S128,
    unary main_v60 main_v61 (broadcastInDim S1x128 ![1] bcast_S128_S1x128_1 : (⟨S128, .f32⟩ : BufTy).Contents (Elt F) → (⟨S1x128, .f32⟩ : BufTy).Contents (Elt F)),
    unary main_v61 main_v62 (broadcastInDim S262144x128 ![0, 1] bcast_S1x128_S262144x128_0_1 : (⟨S1x128, .f32⟩ : BufTy).Contents (Elt F) → (⟨S262144x128, .f32⟩ : BufTy).Contents (Elt F)),
    binary main_v58 main_v62 main_v63 (addf : (⟨S262144x128, .f32⟩ : BufTy).Contents (Elt F) → (⟨S262144x128, .f32⟩ : BufTy).Contents (Elt F) → (⟨S262144x128, .f32⟩ : BufTy).Contents (Elt F)),
    TRef.unary (TRef.of (T := ⟨S262144x128, .f32⟩) main_v63) (TRef.of (T := ⟨S262144x128, .f32⟩) main_call7_v0) Host.negf,
    TRef.unary (TRef.of (T := ⟨S262144x128, .f32⟩) main_call7_v0) (TRef.of (T := ⟨S262144x128, .f32⟩) main_call7_v1) Host.exp,
    TRef.nullary (TRef.of (T := ⟨S_, .f32⟩) main_call7_cst) (constant S_ .f32 0x3F800000#32),
    TRef.unary (TRef.of (T := ⟨S_, .f32⟩) main_call7_cst) (TRef.of (T := ⟨S262144x128, .f32⟩) main_call7_v2) (broadcastInDim S262144x128 ![] bcast_S_S262144x128),
    TRef.binary (TRef.of (T := ⟨S262144x128, .f32⟩) main_call7_v2) (TRef.of (T := ⟨S262144x128, .f32⟩) main_call7_v1) (TRef.of (T := ⟨S262144x128, .f32⟩) main_call7_v3) addf,
    TRef.nullary (TRef.of (T := ⟨S_, .f32⟩) main_call7_cst_0) (constant S_ .f32 0x3F800000#32),
    TRef.unary (TRef.of (T := ⟨S_, .f32⟩) main_call7_cst_0) (TRef.of (T := ⟨S262144x128, .f32⟩) main_call7_v4) (broadcastInDim S262144x128 ![] bcast_S_S262144x128),
    TRef.binary (TRef.of (T := ⟨S262144x128, .f32⟩) main_call7_v4) (TRef.of (T := ⟨S262144x128, .f32⟩) main_call7_v3) (TRef.of (T := ⟨S262144x128, .f32⟩) main_call7_v5) Host.divf,
    TRef.binary (TRef.of (T := ⟨S262144x128, .f32⟩) main_v63) (TRef.of (T := ⟨S262144x128, .f32⟩) main_call7_v5) (TRef.of (T := ⟨S262144x128, .f32⟩) main_v64) mulf,
    unary main_arg19 main_v65 ((extractStridedSlice S1x1x128x128 ![0, 1, 0, 0] · slices_S2x2x128x128_S1x1x128x128_0_1_0_0) : (⟨S2x2x128x128, .f32⟩ : BufTy).Contents (Elt F) → (⟨S1x1x128x128, .f32⟩ : BufTy).Contents (Elt F)),
    reshape main_v65 main_v66 rfl shapeCasts_S1x1x128x128_S128x128,
    binary main_v64 main_v66 main_v67 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    unary main_arg20 main_v68 ((extractStridedSlice S1x1x128 ![0, 1, 0] · slices_S2x2x128_S1x1x128_0_1_0) : (⟨S2x2x128, .f32⟩ : BufTy).Contents (Elt F) → (⟨S1x1x128, .f32⟩ : BufTy).Contents (Elt F)),
    reshape main_v68 main_v69 rfl shapeCasts_S1x1x128_S128,
    unary main_v69 main_v70 (broadcastInDim S1x128 ![1] bcast_S128_S1x128_1 : (⟨S128, .f32⟩ : BufTy).Contents (Elt F) → (⟨S1x128, .f32⟩ : BufTy).Contents (Elt F)),
    unary main_v70 main_v71 (broadcastInDim S262144x128 ![0, 1] bcast_S1x128_S262144x128_0_1 : (⟨S1x128, .f32⟩ : BufTy).Contents (Elt F) → (⟨S262144x128, .f32⟩ : BufTy).Contents (Elt F)),
    binary main_v67 main_v71 main_v72 (addf : (⟨S262144x128, .f32⟩ : BufTy).Contents (Elt F) → (⟨S262144x128, .f32⟩ : BufTy).Contents (Elt F) → (⟨S262144x128, .f32⟩ : BufTy).Contents (Elt F)),
    TRef.unary (TRef.of (T := ⟨S262144x128, .f32⟩) main_v72) (TRef.of (T := ⟨S262144x128, .f32⟩) main_call8_v0) Host.negf,
    TRef.unary (TRef.of (T := ⟨S262144x128, .f32⟩) main_call8_v0) (TRef.of (T := ⟨S262144x128, .f32⟩) main_call8_v1) Host.exp,
    TRef.nullary (TRef.of (T := ⟨S_, .f32⟩) main_call8_cst) (constant S_ .f32 0x3F800000#32),
    TRef.unary (TRef.of (T := ⟨S_, .f32⟩) main_call8_cst) (TRef.of (T := ⟨S262144x128, .f32⟩) main_call8_v2) (broadcastInDim S262144x128 ![] bcast_S_S262144x128),
    TRef.binary (TRef.of (T := ⟨S262144x128, .f32⟩) main_call8_v2) (TRef.of (T := ⟨S262144x128, .f32⟩) main_call8_v1) (TRef.of (T := ⟨S262144x128, .f32⟩) main_call8_v3) addf,
    TRef.nullary (TRef.of (T := ⟨S_, .f32⟩) main_call8_cst_0) (constant S_ .f32 0x3F800000#32),
    TRef.unary (TRef.of (T := ⟨S_, .f32⟩) main_call8_cst_0) (TRef.of (T := ⟨S262144x128, .f32⟩) main_call8_v4) (broadcastInDim S262144x128 ![] bcast_S_S262144x128),
    TRef.binary (TRef.of (T := ⟨S262144x128, .f32⟩) main_call8_v4) (TRef.of (T := ⟨S262144x128, .f32⟩) main_call8_v3) (TRef.of (T := ⟨S262144x128, .f32⟩) main_call8_v5) Host.divf,
    TRef.binary (TRef.of (T := ⟨S262144x128, .f32⟩) main_v72) (TRef.of (T := ⟨S262144x128, .f32⟩) main_call8_v5) (TRef.of (T := ⟨S262144x128, .f32⟩) main_v73) mulf,
    binary main_v55 main_v73 main_v74 (addf : (⟨S262144x128, .f32⟩ : BufTy).Contents (Elt F) → (⟨S262144x128, .f32⟩ : BufTy).Contents (Elt F) → (⟨S262144x128, .f32⟩ : BufTy).Contents (Elt F)) ]

/-- Stretch 9: operations 151 … 185 of @main, ending at `main_v93`. -/
abbrev seg9 : List (HloOp τ sig (Elt F)) :=
  [ unary main_arg19 main_v75 ((extractStridedSlice S1x1x128x128 ![1, 0, 0, 0] · slices_S2x2x128x128_S1x1x128x128_1_0_0_0) : (⟨S2x2x128x128, .f32⟩ : BufTy).Contents (Elt F) → (⟨S1x1x128x128, .f32⟩ : BufTy).Contents (Elt F)),
    reshape main_v75 main_v76 rfl shapeCasts_S1x1x128x128_S128x128,
    binary main_v74 main_v76 main_v77 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    unary main_arg20 main_v78 ((extractStridedSlice S1x1x128 ![1, 0, 0] · slices_S2x2x128_S1x1x128_1_0_0) : (⟨S2x2x128, .f32⟩ : BufTy).Contents (Elt F) → (⟨S1x1x128, .f32⟩ : BufTy).Contents (Elt F)),
    reshape main_v78 main_v79 rfl shapeCasts_S1x1x128_S128,
    unary main_v79 main_v80 (broadcastInDim S1x128 ![1] bcast_S128_S1x128_1 : (⟨S128, .f32⟩ : BufTy).Contents (Elt F) → (⟨S1x128, .f32⟩ : BufTy).Contents (Elt F)),
    unary main_v80 main_v81 (broadcastInDim S262144x128 ![0, 1] bcast_S1x128_S262144x128_0_1 : (⟨S1x128, .f32⟩ : BufTy).Contents (Elt F) → (⟨S262144x128, .f32⟩ : BufTy).Contents (Elt F)),
    binary main_v77 main_v81 main_v82 (addf : (⟨S262144x128, .f32⟩ : BufTy).Contents (Elt F) → (⟨S262144x128, .f32⟩ : BufTy).Contents (Elt F) → (⟨S262144x128, .f32⟩ : BufTy).Contents (Elt F)),
    TRef.unary (TRef.of (T := ⟨S262144x128, .f32⟩) main_v82) (TRef.of (T := ⟨S262144x128, .f32⟩) main_call9_v0) Host.negf,
    TRef.unary (TRef.of (T := ⟨S262144x128, .f32⟩) main_call9_v0) (TRef.of (T := ⟨S262144x128, .f32⟩) main_call9_v1) Host.exp,
    TRef.nullary (TRef.of (T := ⟨S_, .f32⟩) main_call9_cst) (constant S_ .f32 0x3F800000#32),
    TRef.unary (TRef.of (T := ⟨S_, .f32⟩) main_call9_cst) (TRef.of (T := ⟨S262144x128, .f32⟩) main_call9_v2) (broadcastInDim S262144x128 ![] bcast_S_S262144x128),
    TRef.binary (TRef.of (T := ⟨S262144x128, .f32⟩) main_call9_v2) (TRef.of (T := ⟨S262144x128, .f32⟩) main_call9_v1) (TRef.of (T := ⟨S262144x128, .f32⟩) main_call9_v3) addf,
    TRef.nullary (TRef.of (T := ⟨S_, .f32⟩) main_call9_cst_0) (constant S_ .f32 0x3F800000#32),
    TRef.unary (TRef.of (T := ⟨S_, .f32⟩) main_call9_cst_0) (TRef.of (T := ⟨S262144x128, .f32⟩) main_call9_v4) (broadcastInDim S262144x128 ![] bcast_S_S262144x128),
    TRef.binary (TRef.of (T := ⟨S262144x128, .f32⟩) main_call9_v4) (TRef.of (T := ⟨S262144x128, .f32⟩) main_call9_v3) (TRef.of (T := ⟨S262144x128, .f32⟩) main_call9_v5) Host.divf,
    TRef.binary (TRef.of (T := ⟨S262144x128, .f32⟩) main_v82) (TRef.of (T := ⟨S262144x128, .f32⟩) main_call9_v5) (TRef.of (T := ⟨S262144x128, .f32⟩) main_v83) mulf,
    unary main_arg19 main_v84 ((extractStridedSlice S1x1x128x128 ![1, 1, 0, 0] · slices_S2x2x128x128_S1x1x128x128_1_1_0_0) : (⟨S2x2x128x128, .f32⟩ : BufTy).Contents (Elt F) → (⟨S1x1x128x128, .f32⟩ : BufTy).Contents (Elt F)),
    reshape main_v84 main_v85 rfl shapeCasts_S1x1x128x128_S128x128,
    binary main_v83 main_v85 main_v86 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    unary main_arg20 main_v87 ((extractStridedSlice S1x1x128 ![1, 1, 0] · slices_S2x2x128_S1x1x128_1_1_0) : (⟨S2x2x128, .f32⟩ : BufTy).Contents (Elt F) → (⟨S1x1x128, .f32⟩ : BufTy).Contents (Elt F)),
    reshape main_v87 main_v88 rfl shapeCasts_S1x1x128_S128,
    unary main_v88 main_v89 (broadcastInDim S1x128 ![1] bcast_S128_S1x128_1 : (⟨S128, .f32⟩ : BufTy).Contents (Elt F) → (⟨S1x128, .f32⟩ : BufTy).Contents (Elt F)),
    unary main_v89 main_v90 (broadcastInDim S262144x128 ![0, 1] bcast_S1x128_S262144x128_0_1 : (⟨S1x128, .f32⟩ : BufTy).Contents (Elt F) → (⟨S262144x128, .f32⟩ : BufTy).Contents (Elt F)),
    binary main_v86 main_v90 main_v91 (addf : (⟨S262144x128, .f32⟩ : BufTy).Contents (Elt F) → (⟨S262144x128, .f32⟩ : BufTy).Contents (Elt F) → (⟨S262144x128, .f32⟩ : BufTy).Contents (Elt F)),
    TRef.unary (TRef.of (T := ⟨S262144x128, .f32⟩) main_v91) (TRef.of (T := ⟨S262144x128, .f32⟩) main_call10_v0) Host.negf,
    TRef.unary (TRef.of (T := ⟨S262144x128, .f32⟩) main_call10_v0) (TRef.of (T := ⟨S262144x128, .f32⟩) main_call10_v1) Host.exp,
    TRef.nullary (TRef.of (T := ⟨S_, .f32⟩) main_call10_cst) (constant S_ .f32 0x3F800000#32),
    TRef.unary (TRef.of (T := ⟨S_, .f32⟩) main_call10_cst) (TRef.of (T := ⟨S262144x128, .f32⟩) main_call10_v2) (broadcastInDim S262144x128 ![] bcast_S_S262144x128),
    TRef.binary (TRef.of (T := ⟨S262144x128, .f32⟩) main_call10_v2) (TRef.of (T := ⟨S262144x128, .f32⟩) main_call10_v1) (TRef.of (T := ⟨S262144x128, .f32⟩) main_call10_v3) addf,
    TRef.nullary (TRef.of (T := ⟨S_, .f32⟩) main_call10_cst_0) (constant S_ .f32 0x3F800000#32),
    TRef.unary (TRef.of (T := ⟨S_, .f32⟩) main_call10_cst_0) (TRef.of (T := ⟨S262144x128, .f32⟩) main_call10_v4) (broadcastInDim S262144x128 ![] bcast_S_S262144x128),
    TRef.binary (TRef.of (T := ⟨S262144x128, .f32⟩) main_call10_v4) (TRef.of (T := ⟨S262144x128, .f32⟩) main_call10_v3) (TRef.of (T := ⟨S262144x128, .f32⟩) main_call10_v5) Host.divf,
    TRef.binary (TRef.of (T := ⟨S262144x128, .f32⟩) main_v91) (TRef.of (T := ⟨S262144x128, .f32⟩) main_call10_v5) (TRef.of (T := ⟨S262144x128, .f32⟩) main_v92) mulf,
    binary main_v74 main_v92 main_v93 (addf : (⟨S262144x128, .f32⟩ : BufTy).Contents (Elt F) → (⟨S262144x128, .f32⟩ : BufTy).Contents (Elt F) → (⟨S262144x128, .f32⟩ : BufTy).Contents (Elt F)) ]

/-- @main's 185 operations, in order. -/
abbrev ops : List (HloOp τ sig (Elt F)) :=
  [ binary main_arg0 main_arg5 main_v0 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    unary main_arg6 main_v1 (broadcastInDim S1x128 ![1] bcast_S128_S1x128_1 : (⟨S128, .f32⟩ : BufTy).Contents (Elt F) → (⟨S1x128, .f32⟩ : BufTy).Contents (Elt F)),
    unary main_v1 main_v2 (broadcastInDim S262144x128 ![0, 1] bcast_S1x128_S262144x128_0_1 : (⟨S1x128, .f32⟩ : BufTy).Contents (Elt F) → (⟨S262144x128, .f32⟩ : BufTy).Contents (Elt F)),
    binary main_v0 main_v2 main_v3 (addf : (⟨S262144x128, .f32⟩ : BufTy).Contents (Elt F) → (⟨S262144x128, .f32⟩ : BufTy).Contents (Elt F) → (⟨S262144x128, .f32⟩ : BufTy).Contents (Elt F)),
    TRef.unary (TRef.of (T := ⟨S262144x128, .f32⟩) main_v3) (TRef.of (T := ⟨S262144x128, .f32⟩) main_call0_v0) Host.negf,
    TRef.unary (TRef.of (T := ⟨S262144x128, .f32⟩) main_call0_v0) (TRef.of (T := ⟨S262144x128, .f32⟩) main_call0_v1) Host.exp,
    TRef.nullary (TRef.of (T := ⟨S_, .f32⟩) main_call0_cst) (constant S_ .f32 0x3F800000#32),
    TRef.unary (TRef.of (T := ⟨S_, .f32⟩) main_call0_cst) (TRef.of (T := ⟨S262144x128, .f32⟩) main_call0_v2) (broadcastInDim S262144x128 ![] bcast_S_S262144x128),
    TRef.binary (TRef.of (T := ⟨S262144x128, .f32⟩) main_call0_v2) (TRef.of (T := ⟨S262144x128, .f32⟩) main_call0_v1) (TRef.of (T := ⟨S262144x128, .f32⟩) main_call0_v3) addf,
    TRef.nullary (TRef.of (T := ⟨S_, .f32⟩) main_call0_cst_0) (constant S_ .f32 0x3F800000#32),
    TRef.unary (TRef.of (T := ⟨S_, .f32⟩) main_call0_cst_0) (TRef.of (T := ⟨S262144x128, .f32⟩) main_call0_v4) (broadcastInDim S262144x128 ![] bcast_S_S262144x128),
    TRef.binary (TRef.of (T := ⟨S262144x128, .f32⟩) main_call0_v4) (TRef.of (T := ⟨S262144x128, .f32⟩) main_call0_v3) (TRef.of (T := ⟨S262144x128, .f32⟩) main_call0_v5) Host.divf,
    TRef.binary (TRef.of (T := ⟨S262144x128, .f32⟩) main_v3) (TRef.of (T := ⟨S262144x128, .f32⟩) main_call0_v5) (TRef.of (T := ⟨S262144x128, .f32⟩) main_v4) mulf,
    binary main_arg1 main_arg7 main_v5 ((fun l r => Host.dotGeneral dot_S262144x6_S6x8_S262144x8_1_0_0_1_n_n none l r) : (⟨S262144x6, .f32⟩ : BufTy).Contents (Elt F) → (⟨S6x8, .f32⟩ : BufTy).Contents (Elt F) → (⟨S262144x8, .f32⟩ : BufTy).Contents (Elt F)),
    binary main_v5 main_arg8 main_v6 ((fun l r => Host.dotGeneral dot_S262144x8_S8x128_S262144x128_1_0_0_1_n_n none l r) : (⟨S262144x8, .f32⟩ : BufTy).Contents (Elt F) → (⟨S8x128, .f32⟩ : BufTy).Contents (Elt F) → (⟨S262144x128, .f32⟩ : BufTy).Contents (Elt F)),
    binary main_v4 main_v6 main_v7 (mulf : (⟨S262144x128, .f32⟩ : BufTy).Contents (Elt F) → (⟨S262144x128, .f32⟩ : BufTy).Contents (Elt F) → (⟨S262144x128, .f32⟩ : BufTy).Contents (Elt F)),
    binary main_v7 main_arg11 main_v8 ((fun l r => Host.dotGeneral dot_S262144x128_S128x64_S262144x64_1_0_0_1_n_n none l r) : (⟨S262144x128, .f32⟩ : BufTy).Contents (Elt F) → (⟨S128x64, .f32⟩ : BufTy).Contents (Elt F) → (⟨S262144x64, .f32⟩ : BufTy).Contents (Elt F)),
    TRef.unary (TRef.of (T := ⟨S262144x64, .f32⟩) main_v8) (TRef.of (T := ⟨S262144x64, .f32⟩) main_call1_v0) Host.negf,
    TRef.unary (TRef.of (T := ⟨S262144x64, .f32⟩) main_call1_v0) (TRef.of (T := ⟨S262144x64, .f32⟩) main_call1_v1) Host.exp,
    TRef.nullary (TRef.of (T := ⟨S_, .f32⟩) main_call1_cst) (constant S_ .f32 0x3F800000#32),
    TRef.unary (TRef.of (T := ⟨S_, .f32⟩) main_call1_cst) (TRef.of (T := ⟨S262144x64, .f32⟩) main_call1_v2) (broadcastInDim S262144x64 ![] bcast_S_S262144x64),
    TRef.binary (TRef.of (T := ⟨S262144x64, .f32⟩) main_call1_v2) (TRef.of (T := ⟨S262144x64, .f32⟩) main_call1_v1) (TRef.of (T := ⟨S262144x64, .f32⟩) main_call1_v3) addf,
    TRef.nullary (TRef.of (T := ⟨S_, .f32⟩) main_call1_cst_0) (constant S_ .f32 0x3F800000#32),
    TRef.unary (TRef.of (T := ⟨S_, .f32⟩) main_call1_cst_0) (TRef.of (T := ⟨S262144x64, .f32⟩) main_call1_v4) (broadcastInDim S262144x64 ![] bcast_S_S262144x64),
    TRef.binary (TRef.of (T := ⟨S262144x64, .f32⟩) main_call1_v4) (TRef.of (T := ⟨S262144x64, .f32⟩) main_call1_v3) (TRef.of (T := ⟨S262144x64, .f32⟩) main_call1_v5) Host.divf,
    TRef.binary (TRef.of (T := ⟨S262144x64, .f32⟩) main_v8) (TRef.of (T := ⟨S262144x64, .f32⟩) main_call1_v5) (TRef.of (T := ⟨S262144x64, .f32⟩) main_v9) mulf,
    nullary main_c (constantI S_ 32 0#32),
    unary main_c main_v10 (broadcastInDim S2097152 ![] bcast_S_S2097152 : (⟨S_, .i32⟩ : BufTy).Contents (Elt F) → (⟨S2097152, .i32⟩ : BufTy).Contents (Elt F)),
    binary main_arg3 main_v10 main_v11 (cmpi .slt : (⟨S2097152, .i32⟩ : BufTy).Contents (Elt F) → (⟨S2097152, .i32⟩ : BufTy).Contents (Elt F) → (⟨S2097152, .i1⟩ : BufTy).Contents (Elt F)),
    nullary main_c_0 (constantI S_ 32 262144#32),
    unary main_c_0 main_v12 (broadcastInDim S2097152 ![] bcast_S_S2097152 : (⟨S_, .i32⟩ : BufTy).Contents (Elt F) → (⟨S2097152, .i32⟩ : BufTy).Contents (Elt F)),
    binary main_arg3 main_v12 main_v13 (addi : (⟨S2097152, .i32⟩ : BufTy).Contents (Elt F) → (⟨S2097152, .i32⟩ : BufTy).Contents (Elt F) → (⟨S2097152, .i32⟩ : BufTy).Contents (Elt F)),
    ternary main_v11 main_v13 main_arg3 main_v14 (select : (⟨S2097152, .i1⟩ : BufTy).Contents (Elt F) → (⟨S2097152, .i32⟩ : BufTy).Contents (Elt F) → (⟨S2097152, .i32⟩ : BufTy).Contents (Elt F) → (⟨S2097152, .i32⟩ : BufTy).Contents (Elt F)),
    unary main_v14 main_v15 (broadcastInDim S2097152x1 ![0] bcast_S2097152_S2097152x1_0 : (⟨S2097152, .i32⟩ : BufTy).Contents (Elt F) → (⟨S2097152x1, .i32⟩ : BufTy).Contents (Elt F)),
    binary main_v9 main_v15 main_v16 ((fun x i => Host.gather gather_S262144x64_S2097152x1_S2097152x64_1_0_n_n_0_1_164 x i) : (⟨S262144x64, .f32⟩ : BufTy).Contents (Elt F) → (⟨S2097152x1, .i32⟩ : BufTy).Contents (Elt F) → (⟨S2097152x64, .f32⟩ : BufTy).Contents (Elt F)),
    binary main_arg2 main_arg9 main_v17 ((fun l r => Host.dotGeneral dot_S2097152x42_S42x8_S2097152x8_1_0_0_1_n_n none l r) : (⟨S2097152x42, .f32⟩ : BufTy).Contents (Elt F) → (⟨S42x8, .f32⟩ : BufTy).Contents (Elt F) → (⟨S2097152x8, .f32⟩ : BufTy).Contents (Elt F)),
    binary main_v17 main_arg10 main_v18 ((fun l r => Host.dotGeneral dot_S2097152x8_S8x64_S2097152x64_1_0_0_1_n_n none l r) : (⟨S2097152x8, .f32⟩ : BufTy).Contents (Elt F) → (⟨S8x64, .f32⟩ : BufTy).Contents (Elt F) → (⟨S2097152x64, .f32⟩ : BufTy).Contents (Elt F)),
    binary main_v16 main_v18 main_v19 (mulf : (⟨S2097152x64, .f32⟩ : BufTy).Contents (Elt F) → (⟨S2097152x64, .f32⟩ : BufTy).Contents (Elt F) → (⟨S2097152x64, .f32⟩ : BufTy).Contents (Elt F)),
    nullary main_cst (constant S_ .f32 0x00000000#32),
    unary main_cst main_v20 (broadcastInDim S262144x64 ![] bcast_S_S262144x64 : (⟨S_, .f32⟩ : BufTy).Contents (Elt F) → (⟨S262144x64, .f32⟩ : BufTy).Contents (Elt F)),
    unary main_arg4 main_v21 (broadcastInDim S2097152x1 ![0] bcast_S2097152_S2097152x1_0 : (⟨S2097152, .i32⟩ : BufTy).Contents (Elt F) → (⟨S2097152x1, .i32⟩ : BufTy).Contents (Elt F)),
    ternary main_v20 main_v21 main_v19 main_v22 ((fun x i u => Host.scatterAdd scatter_S262144x64_S2097152x1_S2097152x64_1_0_0_1 x i u) : (⟨S262144x64, .f32⟩ : BufTy).Contents (Elt F) → (⟨S2097152x1, .i32⟩ : BufTy).Contents (Elt F) → (⟨S2097152x64, .f32⟩ : BufTy).Contents (Elt F) → (⟨S262144x64, .f32⟩ : BufTy).Contents (Elt F)),
    binary main_v22 main_arg12 main_v23 ((fun l r => Host.dotGeneral dot_S262144x64_S64x128_S262144x128_1_0_0_1_n_n none l r) : (⟨S262144x64, .f32⟩ : BufTy).Contents (Elt F) → (⟨S64x128, .f32⟩ : BufTy).Contents (Elt F) → (⟨S262144x128, .f32⟩ : BufTy).Contents (Elt F)),
    TRef.unary (TRef.of (T := ⟨S262144x128, .f32⟩) main_v23) (TRef.of (T := ⟨S262144x128, .f32⟩) main_call2_v0) Host.negf,
    TRef.unary (TRef.of (T := ⟨S262144x128, .f32⟩) main_call2_v0) (TRef.of (T := ⟨S262144x128, .f32⟩) main_call2_v1) Host.exp,
    TRef.nullary (TRef.of (T := ⟨S_, .f32⟩) main_call2_cst) (constant S_ .f32 0x3F800000#32),
    TRef.unary (TRef.of (T := ⟨S_, .f32⟩) main_call2_cst) (TRef.of (T := ⟨S262144x128, .f32⟩) main_call2_v2) (broadcastInDim S262144x128 ![] bcast_S_S262144x128),
    TRef.binary (TRef.of (T := ⟨S262144x128, .f32⟩) main_call2_v2) (TRef.of (T := ⟨S262144x128, .f32⟩) main_call2_v1) (TRef.of (T := ⟨S262144x128, .f32⟩) main_call2_v3) addf,
    TRef.nullary (TRef.of (T := ⟨S_, .f32⟩) main_call2_cst_0) (constant S_ .f32 0x3F800000#32),
    TRef.unary (TRef.of (T := ⟨S_, .f32⟩) main_call2_cst_0) (TRef.of (T := ⟨S262144x128, .f32⟩) main_call2_v4) (broadcastInDim S262144x128 ![] bcast_S_S262144x128),
    TRef.binary (TRef.of (T := ⟨S262144x128, .f32⟩) main_call2_v4) (TRef.of (T := ⟨S262144x128, .f32⟩) main_call2_v3) (TRef.of (T := ⟨S262144x128, .f32⟩) main_call2_v5) Host.divf,
    TRef.binary (TRef.of (T := ⟨S262144x128, .f32⟩) main_v23) (TRef.of (T := ⟨S262144x128, .f32⟩) main_call2_v5) (TRef.of (T := ⟨S262144x128, .f32⟩) main_v24) mulf,
    binary main_arg0 main_arg13 main_v25 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    unary main_arg14 main_v26 (broadcastInDim S1x128 ![1] bcast_S128_S1x128_1 : (⟨S128, .f32⟩ : BufTy).Contents (Elt F) → (⟨S1x128, .f32⟩ : BufTy).Contents (Elt F)),
    unary main_v26 main_v27 (broadcastInDim S262144x128 ![0, 1] bcast_S1x128_S262144x128_0_1 : (⟨S1x128, .f32⟩ : BufTy).Contents (Elt F) → (⟨S262144x128, .f32⟩ : BufTy).Contents (Elt F)),
    binary main_v25 main_v27 main_v28 (addf : (⟨S262144x128, .f32⟩ : BufTy).Contents (Elt F) → (⟨S262144x128, .f32⟩ : BufTy).Contents (Elt F) → (⟨S262144x128, .f32⟩ : BufTy).Contents (Elt F)),
    TRef.unary (TRef.of (T := ⟨S262144x128, .f32⟩) main_v28) (TRef.of (T := ⟨S262144x128, .f32⟩) main_call3_v0) Host.negf,
    TRef.unary (TRef.of (T := ⟨S262144x128, .f32⟩) main_call3_v0) (TRef.of (T := ⟨S262144x128, .f32⟩) main_call3_v1) Host.exp,
    TRef.nullary (TRef.of (T := ⟨S_, .f32⟩) main_call3_cst) (constant S_ .f32 0x3F800000#32),
    TRef.unary (TRef.of (T := ⟨S_, .f32⟩) main_call3_cst) (TRef.of (T := ⟨S262144x128, .f32⟩) main_call3_v2) (broadcastInDim S262144x128 ![] bcast_S_S262144x128),
    TRef.binary (TRef.of (T := ⟨S262144x128, .f32⟩) main_call3_v2) (TRef.of (T := ⟨S262144x128, .f32⟩) main_call3_v1) (TRef.of (T := ⟨S262144x128, .f32⟩) main_call3_v3) addf,
    TRef.nullary (TRef.of (T := ⟨S_, .f32⟩) main_call3_cst_0) (constant S_ .f32 0x3F800000#32),
    TRef.unary (TRef.of (T := ⟨S_, .f32⟩) main_call3_cst_0) (TRef.of (T := ⟨S262144x128, .f32⟩) main_call3_v4) (broadcastInDim S262144x128 ![] bcast_S_S262144x128),
    TRef.binary (TRef.of (T := ⟨S262144x128, .f32⟩) main_call3_v4) (TRef.of (T := ⟨S262144x128, .f32⟩) main_call3_v3) (TRef.of (T := ⟨S262144x128, .f32⟩) main_call3_v5) Host.divf,
    TRef.binary (TRef.of (T := ⟨S262144x128, .f32⟩) main_v28) (TRef.of (T := ⟨S262144x128, .f32⟩) main_call3_v5) (TRef.of (T := ⟨S262144x128, .f32⟩) main_v29) mulf,
    binary main_v29 main_v24 main_v30 (addf : (⟨S262144x128, .f32⟩ : BufTy).Contents (Elt F) → (⟨S262144x128, .f32⟩ : BufTy).Contents (Elt F) → (⟨S262144x128, .f32⟩ : BufTy).Contents (Elt F)),
    unary main_arg15 main_v31 ((extractStridedSlice S1x1x128x128 ![0, 0, 0, 0] · slices_S1x2x128x128_S1x1x128x128_0_0_0_0) : (⟨S1x2x128x128, .f32⟩ : BufTy).Contents (Elt F) → (⟨S1x1x128x128, .f32⟩ : BufTy).Contents (Elt F)),
    reshape main_v31 main_v32 rfl shapeCasts_S1x1x128x128_S128x128,
    binary main_v30 main_v32 main_v33 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    unary main_arg16 main_v34 ((extractStridedSlice S1x1x128 ![0, 0, 0] · slices_S1x2x128_S1x1x128_0_0_0) : (⟨S1x2x128, .f32⟩ : BufTy).Contents (Elt F) → (⟨S1x1x128, .f32⟩ : BufTy).Contents (Elt F)),
    reshape main_v34 main_v35 rfl shapeCasts_S1x1x128_S128,
    unary main_v35 main_v36 (broadcastInDim S1x128 ![1] bcast_S128_S1x128_1 : (⟨S128, .f32⟩ : BufTy).Contents (Elt F) → (⟨S1x128, .f32⟩ : BufTy).Contents (Elt F)),
    unary main_v36 main_v37 (broadcastInDim S262144x128 ![0, 1] bcast_S1x128_S262144x128_0_1 : (⟨S1x128, .f32⟩ : BufTy).Contents (Elt F) → (⟨S262144x128, .f32⟩ : BufTy).Contents (Elt F)),
    binary main_v33 main_v37 main_v38 (addf : (⟨S262144x128, .f32⟩ : BufTy).Contents (Elt F) → (⟨S262144x128, .f32⟩ : BufTy).Contents (Elt F) → (⟨S262144x128, .f32⟩ : BufTy).Contents (Elt F)),
    TRef.unary (TRef.of (T := ⟨S262144x128, .f32⟩) main_v38) (TRef.of (T := ⟨S262144x128, .f32⟩) main_call4_v0) Host.negf,
    TRef.unary (TRef.of (T := ⟨S262144x128, .f32⟩) main_call4_v0) (TRef.of (T := ⟨S262144x128, .f32⟩) main_call4_v1) Host.exp,
    TRef.nullary (TRef.of (T := ⟨S_, .f32⟩) main_call4_cst) (constant S_ .f32 0x3F800000#32),
    TRef.unary (TRef.of (T := ⟨S_, .f32⟩) main_call4_cst) (TRef.of (T := ⟨S262144x128, .f32⟩) main_call4_v2) (broadcastInDim S262144x128 ![] bcast_S_S262144x128),
    TRef.binary (TRef.of (T := ⟨S262144x128, .f32⟩) main_call4_v2) (TRef.of (T := ⟨S262144x128, .f32⟩) main_call4_v1) (TRef.of (T := ⟨S262144x128, .f32⟩) main_call4_v3) addf,
    TRef.nullary (TRef.of (T := ⟨S_, .f32⟩) main_call4_cst_0) (constant S_ .f32 0x3F800000#32),
    TRef.unary (TRef.of (T := ⟨S_, .f32⟩) main_call4_cst_0) (TRef.of (T := ⟨S262144x128, .f32⟩) main_call4_v4) (broadcastInDim S262144x128 ![] bcast_S_S262144x128),
    TRef.binary (TRef.of (T := ⟨S262144x128, .f32⟩) main_call4_v4) (TRef.of (T := ⟨S262144x128, .f32⟩) main_call4_v3) (TRef.of (T := ⟨S262144x128, .f32⟩) main_call4_v5) Host.divf,
    TRef.binary (TRef.of (T := ⟨S262144x128, .f32⟩) main_v38) (TRef.of (T := ⟨S262144x128, .f32⟩) main_call4_v5) (TRef.of (T := ⟨S262144x128, .f32⟩) main_v39) mulf,
    unary main_arg15 main_v40 ((extractStridedSlice S1x1x128x128 ![0, 1, 0, 0] · slices_S1x2x128x128_S1x1x128x128_0_1_0_0) : (⟨S1x2x128x128, .f32⟩ : BufTy).Contents (Elt F) → (⟨S1x1x128x128, .f32⟩ : BufTy).Contents (Elt F)),
    reshape main_v40 main_v41 rfl shapeCasts_S1x1x128x128_S128x128,
    binary main_v39 main_v41 main_v42 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    unary main_arg16 main_v43 ((extractStridedSlice S1x1x128 ![0, 1, 0] · slices_S1x2x128_S1x1x128_0_1_0) : (⟨S1x2x128, .f32⟩ : BufTy).Contents (Elt F) → (⟨S1x1x128, .f32⟩ : BufTy).Contents (Elt F)),
    reshape main_v43 main_v44 rfl shapeCasts_S1x1x128_S128,
    unary main_v44 main_v45 (broadcastInDim S1x128 ![1] bcast_S128_S1x128_1 : (⟨S128, .f32⟩ : BufTy).Contents (Elt F) → (⟨S1x128, .f32⟩ : BufTy).Contents (Elt F)),
    unary main_v45 main_v46 (broadcastInDim S262144x128 ![0, 1] bcast_S1x128_S262144x128_0_1 : (⟨S1x128, .f32⟩ : BufTy).Contents (Elt F) → (⟨S262144x128, .f32⟩ : BufTy).Contents (Elt F)),
    binary main_v42 main_v46 main_v47 (addf : (⟨S262144x128, .f32⟩ : BufTy).Contents (Elt F) → (⟨S262144x128, .f32⟩ : BufTy).Contents (Elt F) → (⟨S262144x128, .f32⟩ : BufTy).Contents (Elt F)),
    TRef.unary (TRef.of (T := ⟨S262144x128, .f32⟩) main_v47) (TRef.of (T := ⟨S262144x128, .f32⟩) main_call5_v0) Host.negf,
    TRef.unary (TRef.of (T := ⟨S262144x128, .f32⟩) main_call5_v0) (TRef.of (T := ⟨S262144x128, .f32⟩) main_call5_v1) Host.exp,
    TRef.nullary (TRef.of (T := ⟨S_, .f32⟩) main_call5_cst) (constant S_ .f32 0x3F800000#32),
    TRef.unary (TRef.of (T := ⟨S_, .f32⟩) main_call5_cst) (TRef.of (T := ⟨S262144x128, .f32⟩) main_call5_v2) (broadcastInDim S262144x128 ![] bcast_S_S262144x128),
    TRef.binary (TRef.of (T := ⟨S262144x128, .f32⟩) main_call5_v2) (TRef.of (T := ⟨S262144x128, .f32⟩) main_call5_v1) (TRef.of (T := ⟨S262144x128, .f32⟩) main_call5_v3) addf,
    TRef.nullary (TRef.of (T := ⟨S_, .f32⟩) main_call5_cst_0) (constant S_ .f32 0x3F800000#32),
    TRef.unary (TRef.of (T := ⟨S_, .f32⟩) main_call5_cst_0) (TRef.of (T := ⟨S262144x128, .f32⟩) main_call5_v4) (broadcastInDim S262144x128 ![] bcast_S_S262144x128),
    TRef.binary (TRef.of (T := ⟨S262144x128, .f32⟩) main_call5_v4) (TRef.of (T := ⟨S262144x128, .f32⟩) main_call5_v3) (TRef.of (T := ⟨S262144x128, .f32⟩) main_call5_v5) Host.divf,
    TRef.binary (TRef.of (T := ⟨S262144x128, .f32⟩) main_v47) (TRef.of (T := ⟨S262144x128, .f32⟩) main_call5_v5) (TRef.of (T := ⟨S262144x128, .f32⟩) main_v48) mulf,
    binary main_v30 main_v48 main_v49 (addf : (⟨S262144x128, .f32⟩ : BufTy).Contents (Elt F) → (⟨S262144x128, .f32⟩ : BufTy).Contents (Elt F) → (⟨S262144x128, .f32⟩ : BufTy).Contents (Elt F)),
    binary main_v49 main_arg17 main_v50 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    unary main_arg18 main_v51 (broadcastInDim S1x128 ![1] bcast_S128_S1x128_1 : (⟨S128, .f32⟩ : BufTy).Contents (Elt F) → (⟨S1x128, .f32⟩ : BufTy).Contents (Elt F)),
    unary main_v51 main_v52 (broadcastInDim S262144x128 ![0, 1] bcast_S1x128_S262144x128_0_1 : (⟨S1x128, .f32⟩ : BufTy).Contents (Elt F) → (⟨S262144x128, .f32⟩ : BufTy).Contents (Elt F)),
    binary main_v50 main_v52 main_v53 (addf : (⟨S262144x128, .f32⟩ : BufTy).Contents (Elt F) → (⟨S262144x128, .f32⟩ : BufTy).Contents (Elt F) → (⟨S262144x128, .f32⟩ : BufTy).Contents (Elt F)),
    TRef.unary (TRef.of (T := ⟨S262144x128, .f32⟩) main_v53) (TRef.of (T := ⟨S262144x128, .f32⟩) main_call6_v0) Host.negf,
    TRef.unary (TRef.of (T := ⟨S262144x128, .f32⟩) main_call6_v0) (TRef.of (T := ⟨S262144x128, .f32⟩) main_call6_v1) Host.exp,
    TRef.nullary (TRef.of (T := ⟨S_, .f32⟩) main_call6_cst) (constant S_ .f32 0x3F800000#32),
    TRef.unary (TRef.of (T := ⟨S_, .f32⟩) main_call6_cst) (TRef.of (T := ⟨S262144x128, .f32⟩) main_call6_v2) (broadcastInDim S262144x128 ![] bcast_S_S262144x128),
    TRef.binary (TRef.of (T := ⟨S262144x128, .f32⟩) main_call6_v2) (TRef.of (T := ⟨S262144x128, .f32⟩) main_call6_v1) (TRef.of (T := ⟨S262144x128, .f32⟩) main_call6_v3) addf,
    TRef.nullary (TRef.of (T := ⟨S_, .f32⟩) main_call6_cst_0) (constant S_ .f32 0x3F800000#32),
    TRef.unary (TRef.of (T := ⟨S_, .f32⟩) main_call6_cst_0) (TRef.of (T := ⟨S262144x128, .f32⟩) main_call6_v4) (broadcastInDim S262144x128 ![] bcast_S_S262144x128),
    TRef.binary (TRef.of (T := ⟨S262144x128, .f32⟩) main_call6_v4) (TRef.of (T := ⟨S262144x128, .f32⟩) main_call6_v3) (TRef.of (T := ⟨S262144x128, .f32⟩) main_call6_v5) Host.divf,
    TRef.binary (TRef.of (T := ⟨S262144x128, .f32⟩) main_v53) (TRef.of (T := ⟨S262144x128, .f32⟩) main_call6_v5) (TRef.of (T := ⟨S262144x128, .f32⟩) main_v54) mulf,
    binary main_v54 main_arg0 main_v55 (addf : (⟨S262144x128, .f32⟩ : BufTy).Contents (Elt F) → (⟨S262144x128, .f32⟩ : BufTy).Contents (Elt F) → (⟨S262144x128, .f32⟩ : BufTy).Contents (Elt F)),
    unary main_arg19 main_v56 ((extractStridedSlice S1x1x128x128 ![0, 0, 0, 0] · slices_S2x2x128x128_S1x1x128x128_0_0_0_0) : (⟨S2x2x128x128, .f32⟩ : BufTy).Contents (Elt F) → (⟨S1x1x128x128, .f32⟩ : BufTy).Contents (Elt F)),
    reshape main_v56 main_v57 rfl shapeCasts_S1x1x128x128_S128x128,
    binary main_v55 main_v57 main_v58 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    unary main_arg20 main_v59 ((extractStridedSlice S1x1x128 ![0, 0, 0] · slices_S2x2x128_S1x1x128_0_0_0) : (⟨S2x2x128, .f32⟩ : BufTy).Contents (Elt F) → (⟨S1x1x128, .f32⟩ : BufTy).Contents (Elt F)),
    reshape main_v59 main_v60 rfl shapeCasts_S1x1x128_S128,
    unary main_v60 main_v61 (broadcastInDim S1x128 ![1] bcast_S128_S1x128_1 : (⟨S128, .f32⟩ : BufTy).Contents (Elt F) → (⟨S1x128, .f32⟩ : BufTy).Contents (Elt F)),
    unary main_v61 main_v62 (broadcastInDim S262144x128 ![0, 1] bcast_S1x128_S262144x128_0_1 : (⟨S1x128, .f32⟩ : BufTy).Contents (Elt F) → (⟨S262144x128, .f32⟩ : BufTy).Contents (Elt F)),
    binary main_v58 main_v62 main_v63 (addf : (⟨S262144x128, .f32⟩ : BufTy).Contents (Elt F) → (⟨S262144x128, .f32⟩ : BufTy).Contents (Elt F) → (⟨S262144x128, .f32⟩ : BufTy).Contents (Elt F)),
    TRef.unary (TRef.of (T := ⟨S262144x128, .f32⟩) main_v63) (TRef.of (T := ⟨S262144x128, .f32⟩) main_call7_v0) Host.negf,
    TRef.unary (TRef.of (T := ⟨S262144x128, .f32⟩) main_call7_v0) (TRef.of (T := ⟨S262144x128, .f32⟩) main_call7_v1) Host.exp,
    TRef.nullary (TRef.of (T := ⟨S_, .f32⟩) main_call7_cst) (constant S_ .f32 0x3F800000#32),
    TRef.unary (TRef.of (T := ⟨S_, .f32⟩) main_call7_cst) (TRef.of (T := ⟨S262144x128, .f32⟩) main_call7_v2) (broadcastInDim S262144x128 ![] bcast_S_S262144x128),
    TRef.binary (TRef.of (T := ⟨S262144x128, .f32⟩) main_call7_v2) (TRef.of (T := ⟨S262144x128, .f32⟩) main_call7_v1) (TRef.of (T := ⟨S262144x128, .f32⟩) main_call7_v3) addf,
    TRef.nullary (TRef.of (T := ⟨S_, .f32⟩) main_call7_cst_0) (constant S_ .f32 0x3F800000#32),
    TRef.unary (TRef.of (T := ⟨S_, .f32⟩) main_call7_cst_0) (TRef.of (T := ⟨S262144x128, .f32⟩) main_call7_v4) (broadcastInDim S262144x128 ![] bcast_S_S262144x128),
    TRef.binary (TRef.of (T := ⟨S262144x128, .f32⟩) main_call7_v4) (TRef.of (T := ⟨S262144x128, .f32⟩) main_call7_v3) (TRef.of (T := ⟨S262144x128, .f32⟩) main_call7_v5) Host.divf,
    TRef.binary (TRef.of (T := ⟨S262144x128, .f32⟩) main_v63) (TRef.of (T := ⟨S262144x128, .f32⟩) main_call7_v5) (TRef.of (T := ⟨S262144x128, .f32⟩) main_v64) mulf,
    unary main_arg19 main_v65 ((extractStridedSlice S1x1x128x128 ![0, 1, 0, 0] · slices_S2x2x128x128_S1x1x128x128_0_1_0_0) : (⟨S2x2x128x128, .f32⟩ : BufTy).Contents (Elt F) → (⟨S1x1x128x128, .f32⟩ : BufTy).Contents (Elt F)),
    reshape main_v65 main_v66 rfl shapeCasts_S1x1x128x128_S128x128,
    binary main_v64 main_v66 main_v67 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    unary main_arg20 main_v68 ((extractStridedSlice S1x1x128 ![0, 1, 0] · slices_S2x2x128_S1x1x128_0_1_0) : (⟨S2x2x128, .f32⟩ : BufTy).Contents (Elt F) → (⟨S1x1x128, .f32⟩ : BufTy).Contents (Elt F)),
    reshape main_v68 main_v69 rfl shapeCasts_S1x1x128_S128,
    unary main_v69 main_v70 (broadcastInDim S1x128 ![1] bcast_S128_S1x128_1 : (⟨S128, .f32⟩ : BufTy).Contents (Elt F) → (⟨S1x128, .f32⟩ : BufTy).Contents (Elt F)),
    unary main_v70 main_v71 (broadcastInDim S262144x128 ![0, 1] bcast_S1x128_S262144x128_0_1 : (⟨S1x128, .f32⟩ : BufTy).Contents (Elt F) → (⟨S262144x128, .f32⟩ : BufTy).Contents (Elt F)),
    binary main_v67 main_v71 main_v72 (addf : (⟨S262144x128, .f32⟩ : BufTy).Contents (Elt F) → (⟨S262144x128, .f32⟩ : BufTy).Contents (Elt F) → (⟨S262144x128, .f32⟩ : BufTy).Contents (Elt F)),
    TRef.unary (TRef.of (T := ⟨S262144x128, .f32⟩) main_v72) (TRef.of (T := ⟨S262144x128, .f32⟩) main_call8_v0) Host.negf,
    TRef.unary (TRef.of (T := ⟨S262144x128, .f32⟩) main_call8_v0) (TRef.of (T := ⟨S262144x128, .f32⟩) main_call8_v1) Host.exp,
    TRef.nullary (TRef.of (T := ⟨S_, .f32⟩) main_call8_cst) (constant S_ .f32 0x3F800000#32),
    TRef.unary (TRef.of (T := ⟨S_, .f32⟩) main_call8_cst) (TRef.of (T := ⟨S262144x128, .f32⟩) main_call8_v2) (broadcastInDim S262144x128 ![] bcast_S_S262144x128),
    TRef.binary (TRef.of (T := ⟨S262144x128, .f32⟩) main_call8_v2) (TRef.of (T := ⟨S262144x128, .f32⟩) main_call8_v1) (TRef.of (T := ⟨S262144x128, .f32⟩) main_call8_v3) addf,
    TRef.nullary (TRef.of (T := ⟨S_, .f32⟩) main_call8_cst_0) (constant S_ .f32 0x3F800000#32),
    TRef.unary (TRef.of (T := ⟨S_, .f32⟩) main_call8_cst_0) (TRef.of (T := ⟨S262144x128, .f32⟩) main_call8_v4) (broadcastInDim S262144x128 ![] bcast_S_S262144x128),
    TRef.binary (TRef.of (T := ⟨S262144x128, .f32⟩) main_call8_v4) (TRef.of (T := ⟨S262144x128, .f32⟩) main_call8_v3) (TRef.of (T := ⟨S262144x128, .f32⟩) main_call8_v5) Host.divf,
    TRef.binary (TRef.of (T := ⟨S262144x128, .f32⟩) main_v72) (TRef.of (T := ⟨S262144x128, .f32⟩) main_call8_v5) (TRef.of (T := ⟨S262144x128, .f32⟩) main_v73) mulf,
    binary main_v55 main_v73 main_v74 (addf : (⟨S262144x128, .f32⟩ : BufTy).Contents (Elt F) → (⟨S262144x128, .f32⟩ : BufTy).Contents (Elt F) → (⟨S262144x128, .f32⟩ : BufTy).Contents (Elt F)),
    unary main_arg19 main_v75 ((extractStridedSlice S1x1x128x128 ![1, 0, 0, 0] · slices_S2x2x128x128_S1x1x128x128_1_0_0_0) : (⟨S2x2x128x128, .f32⟩ : BufTy).Contents (Elt F) → (⟨S1x1x128x128, .f32⟩ : BufTy).Contents (Elt F)),
    reshape main_v75 main_v76 rfl shapeCasts_S1x1x128x128_S128x128,
    binary main_v74 main_v76 main_v77 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    unary main_arg20 main_v78 ((extractStridedSlice S1x1x128 ![1, 0, 0] · slices_S2x2x128_S1x1x128_1_0_0) : (⟨S2x2x128, .f32⟩ : BufTy).Contents (Elt F) → (⟨S1x1x128, .f32⟩ : BufTy).Contents (Elt F)),
    reshape main_v78 main_v79 rfl shapeCasts_S1x1x128_S128,
    unary main_v79 main_v80 (broadcastInDim S1x128 ![1] bcast_S128_S1x128_1 : (⟨S128, .f32⟩ : BufTy).Contents (Elt F) → (⟨S1x128, .f32⟩ : BufTy).Contents (Elt F)),
    unary main_v80 main_v81 (broadcastInDim S262144x128 ![0, 1] bcast_S1x128_S262144x128_0_1 : (⟨S1x128, .f32⟩ : BufTy).Contents (Elt F) → (⟨S262144x128, .f32⟩ : BufTy).Contents (Elt F)),
    binary main_v77 main_v81 main_v82 (addf : (⟨S262144x128, .f32⟩ : BufTy).Contents (Elt F) → (⟨S262144x128, .f32⟩ : BufTy).Contents (Elt F) → (⟨S262144x128, .f32⟩ : BufTy).Contents (Elt F)),
    TRef.unary (TRef.of (T := ⟨S262144x128, .f32⟩) main_v82) (TRef.of (T := ⟨S262144x128, .f32⟩) main_call9_v0) Host.negf,
    TRef.unary (TRef.of (T := ⟨S262144x128, .f32⟩) main_call9_v0) (TRef.of (T := ⟨S262144x128, .f32⟩) main_call9_v1) Host.exp,
    TRef.nullary (TRef.of (T := ⟨S_, .f32⟩) main_call9_cst) (constant S_ .f32 0x3F800000#32),
    TRef.unary (TRef.of (T := ⟨S_, .f32⟩) main_call9_cst) (TRef.of (T := ⟨S262144x128, .f32⟩) main_call9_v2) (broadcastInDim S262144x128 ![] bcast_S_S262144x128),
    TRef.binary (TRef.of (T := ⟨S262144x128, .f32⟩) main_call9_v2) (TRef.of (T := ⟨S262144x128, .f32⟩) main_call9_v1) (TRef.of (T := ⟨S262144x128, .f32⟩) main_call9_v3) addf,
    TRef.nullary (TRef.of (T := ⟨S_, .f32⟩) main_call9_cst_0) (constant S_ .f32 0x3F800000#32),
    TRef.unary (TRef.of (T := ⟨S_, .f32⟩) main_call9_cst_0) (TRef.of (T := ⟨S262144x128, .f32⟩) main_call9_v4) (broadcastInDim S262144x128 ![] bcast_S_S262144x128),
    TRef.binary (TRef.of (T := ⟨S262144x128, .f32⟩) main_call9_v4) (TRef.of (T := ⟨S262144x128, .f32⟩) main_call9_v3) (TRef.of (T := ⟨S262144x128, .f32⟩) main_call9_v5) Host.divf,
    TRef.binary (TRef.of (T := ⟨S262144x128, .f32⟩) main_v82) (TRef.of (T := ⟨S262144x128, .f32⟩) main_call9_v5) (TRef.of (T := ⟨S262144x128, .f32⟩) main_v83) mulf,
    unary main_arg19 main_v84 ((extractStridedSlice S1x1x128x128 ![1, 1, 0, 0] · slices_S2x2x128x128_S1x1x128x128_1_1_0_0) : (⟨S2x2x128x128, .f32⟩ : BufTy).Contents (Elt F) → (⟨S1x1x128x128, .f32⟩ : BufTy).Contents (Elt F)),
    reshape main_v84 main_v85 rfl shapeCasts_S1x1x128x128_S128x128,
    binary main_v83 main_v85 main_v86 ((fun l r => Host.dotGeneral dot_S262144x128_S128x128_S262144x128_1_0_0_1_n_n none l r) : (⟨S262144x128, .f32⟩ : BufTy).Contents (Elt F) → (⟨S128x128, .f32⟩ : BufTy).Contents (Elt F) → (⟨S262144x128, .f32⟩ : BufTy).Contents (Elt F)),
    unary main_arg20 main_v87 ((extractStridedSlice S1x1x128 ![1, 1, 0] · slices_S2x2x128_S1x1x128_1_1_0) : (⟨S2x2x128, .f32⟩ : BufTy).Contents (Elt F) → (⟨S1x1x128, .f32⟩ : BufTy).Contents (Elt F)),
    reshape main_v87 main_v88 rfl shapeCasts_S1x1x128_S128,
    unary main_v88 main_v89 (broadcastInDim S1x128 ![1] bcast_S128_S1x128_1 : (⟨S128, .f32⟩ : BufTy).Contents (Elt F) → (⟨S1x128, .f32⟩ : BufTy).Contents (Elt F)),
    unary main_v89 main_v90 (broadcastInDim S262144x128 ![0, 1] bcast_S1x128_S262144x128_0_1 : (⟨S1x128, .f32⟩ : BufTy).Contents (Elt F) → (⟨S262144x128, .f32⟩ : BufTy).Contents (Elt F)),
    binary main_v86 main_v90 main_v91 (addf : (⟨S262144x128, .f32⟩ : BufTy).Contents (Elt F) → (⟨S262144x128, .f32⟩ : BufTy).Contents (Elt F) → (⟨S262144x128, .f32⟩ : BufTy).Contents (Elt F)),
    TRef.unary (TRef.of (T := ⟨S262144x128, .f32⟩) main_v91) (TRef.of (T := ⟨S262144x128, .f32⟩) main_call10_v0) Host.negf,
    TRef.unary (TRef.of (T := ⟨S262144x128, .f32⟩) main_call10_v0) (TRef.of (T := ⟨S262144x128, .f32⟩) main_call10_v1) Host.exp,
    TRef.nullary (TRef.of (T := ⟨S_, .f32⟩) main_call10_cst) (constant S_ .f32 0x3F800000#32),
    TRef.unary (TRef.of (T := ⟨S_, .f32⟩) main_call10_cst) (TRef.of (T := ⟨S262144x128, .f32⟩) main_call10_v2) (broadcastInDim S262144x128 ![] bcast_S_S262144x128),
    TRef.binary (TRef.of (T := ⟨S262144x128, .f32⟩) main_call10_v2) (TRef.of (T := ⟨S262144x128, .f32⟩) main_call10_v1) (TRef.of (T := ⟨S262144x128, .f32⟩) main_call10_v3) addf,
    TRef.nullary (TRef.of (T := ⟨S_, .f32⟩) main_call10_cst_0) (constant S_ .f32 0x3F800000#32),
    TRef.unary (TRef.of (T := ⟨S_, .f32⟩) main_call10_cst_0) (TRef.of (T := ⟨S262144x128, .f32⟩) main_call10_v4) (broadcastInDim S262144x128 ![] bcast_S_S262144x128),
    TRef.binary (TRef.of (T := ⟨S262144x128, .f32⟩) main_call10_v4) (TRef.of (T := ⟨S262144x128, .f32⟩) main_call10_v3) (TRef.of (T := ⟨S262144x128, .f32⟩) main_call10_v5) Host.divf,
    TRef.binary (TRef.of (T := ⟨S262144x128, .f32⟩) main_v91) (TRef.of (T := ⟨S262144x128, .f32⟩) main_call10_v5) (TRef.of (T := ⟨S262144x128, .f32⟩) main_v92) mulf,
    binary main_v74 main_v92 main_v93 (addf : (⟨S262144x128, .f32⟩ : BufTy).Contents (Elt F) → (⟨S262144x128, .f32⟩ : BufTy).Contents (Elt F) → (⟨S262144x128, .f32⟩ : BufTy).Contents (Elt F)) ]

/-- The line is the nine stretches in order. -/
theorem ops_eq : (ops : List (HloOp τ sig (Elt F))) = seg1 ++ seg2 ++ seg3 ++ seg4 ++ seg5 ++ seg6 ++ seg7 ++ seg8 ++ seg9 := rfl

set_option maxRecDepth 8192 in
set_option maxHeartbeats 4000000 in
theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide

set_option maxRecDepth 8192 in
/-- Every operation touches TensorCore references only: one fact per operation, in order. -/
theorem ops_sub : (ops : List (HloOp τ sig (Elt F))).Forall fun op => op.bufs ⊆ tcRefs τ sig :=
  ⟨binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., binary_bufs_sub .., binary_bufs_sub .., binary_bufs_sub .., unary_bufs_sub .., unary_bufs_sub .., nullary_bufs_sub .., unary_bufs_sub .., binary_bufs_sub .., nullary_bufs_sub .., unary_bufs_sub .., binary_bufs_sub .., binary_bufs_sub .., nullary_bufs_sub .., unary_bufs_sub .., binary_bufs_sub .., nullary_bufs_sub .., unary_bufs_sub .., binary_bufs_sub .., ternary_bufs_sub .., unary_bufs_sub .., binary_bufs_sub .., binary_bufs_sub .., binary_bufs_sub .., binary_bufs_sub .., nullary_bufs_sub .., unary_bufs_sub .., unary_bufs_sub .., ternary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., reshape_bufs_sub .., binary_bufs_sub .., unary_bufs_sub .., reshape_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., binary_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., reshape_bufs_sub .., binary_bufs_sub .., unary_bufs_sub .., reshape_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., unary_bufs_sub .., reshape_bufs_sub .., binary_bufs_sub .., unary_bufs_sub .., reshape_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., unary_bufs_sub .., reshape_bufs_sub .., binary_bufs_sub .., unary_bufs_sub .., reshape_bufs_sub .., unary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub ..⟩

end Cert.ReferenceIdeal.RunV

end
-- ==== Proof.RefRun.lean ====
/-
  The whole-array program's run, read stretch by stretch.

  Read as one term the program's result would repeat every activation's argument twice and every
  residual block's input once more, so it is read in its nine stretches instead.  Each stretch's result
  is one layer function of the buffers it reads, and it leaves every buffer it does not write as it
  was; chained, the program's result is the composition of the layers applied to the argument buffers.
-/
import proofs.«112893_j944892805681_2_alg».proof.Proof.RefOps
import Idealize.ShloMosaic.Lib.StableHlo.Run

set_option maxRecDepth 16384

noncomputable section

namespace Cert.ReferenceIdeal.RunV

open Cert.ReferenceIdeal Cert.ReferenceIdeal.Gen Idealize.ShloMosaic Idealize.ShloMosaic.TcCoe Idealize.SL.Sem Idealize.ShloMosaic.StableHlo

variable {F : FTy → Type} [FloatOps F]

variable (W : Valuation τ sig (Elt F))

set_option maxHeartbeats 2000000 in
/-- What stretch 1 leaves in `main_v9`, from the buffers it reads. -/
theorem seg1_out : (after seg1 W (Proc.devRef .tc main_v9) : S262144x64.Idx → F .f32)
    = Cert.Spec.edge (F := F) (W (Proc.devRef .tc main_arg0)) (W (Proc.devRef .tc main_arg5)) (W (Proc.devRef .tc main_arg6)) (Host.dotGeneral dot_S262144x8_S8x128_S262144x128_1_0_0_1_n_n none (Host.dotGeneral dot_S262144x6_S6x8_S262144x8_1_0_0_1_n_n none (W (Proc.devRef .tc main_arg1)) (W (Proc.devRef .tc main_arg7))) (W (Proc.devRef .tc main_arg8))) (W (Proc.devRef .tc main_arg11)) := by
  after_results_simp
  first | done | rfl
theorem seg1_keep_main_arg19 : after seg1 W (Proc.devRef .tc main_arg19) = W (Proc.devRef .tc main_arg19) := by after_results_simp
theorem seg1_keep_main_arg20 : after seg1 W (Proc.devRef .tc main_arg20) = W (Proc.devRef .tc main_arg20) := by after_results_simp
theorem seg1_keep_main_arg17 : after seg1 W (Proc.devRef .tc main_arg17) = W (Proc.devRef .tc main_arg17) := by after_results_simp
theorem seg1_keep_main_arg18 : after seg1 W (Proc.devRef .tc main_arg18) = W (Proc.devRef .tc main_arg18) := by after_results_simp
theorem seg1_keep_main_arg0 : after seg1 W (Proc.devRef .tc main_arg0) = W (Proc.devRef .tc main_arg0) := by after_results_simp
theorem seg1_keep_main_arg15 : after seg1 W (Proc.devRef .tc main_arg15) = W (Proc.devRef .tc main_arg15) := by after_results_simp
theorem seg1_keep_main_arg16 : after seg1 W (Proc.devRef .tc main_arg16) = W (Proc.devRef .tc main_arg16) := by after_results_simp
theorem seg1_keep_main_arg12 : after seg1 W (Proc.devRef .tc main_arg12) = W (Proc.devRef .tc main_arg12) := by after_results_simp
theorem seg1_keep_main_arg13 : after seg1 W (Proc.devRef .tc main_arg13) = W (Proc.devRef .tc main_arg13) := by after_results_simp
theorem seg1_keep_main_arg14 : after seg1 W (Proc.devRef .tc main_arg14) = W (Proc.devRef .tc main_arg14) := by after_results_simp
theorem seg1_keep_main_arg4 : after seg1 W (Proc.devRef .tc main_arg4) = W (Proc.devRef .tc main_arg4) := by after_results_simp
theorem seg1_keep_main_arg2 : after seg1 W (Proc.devRef .tc main_arg2) = W (Proc.devRef .tc main_arg2) := by after_results_simp
theorem seg1_keep_main_arg9 : after seg1 W (Proc.devRef .tc main_arg9) = W (Proc.devRef .tc main_arg9) := by after_results_simp
theorem seg1_keep_main_arg10 : after seg1 W (Proc.devRef .tc main_arg10) = W (Proc.devRef .tc main_arg10) := by after_results_simp
theorem seg1_keep_main_arg3 : after seg1 W (Proc.devRef .tc main_arg3) = W (Proc.devRef .tc main_arg3) := by after_results_simp

set_option maxHeartbeats 2000000 in
/-- What stretch 2 leaves in `main_v16`, from the buffers it reads. -/
theorem seg2_out : (after seg2 W (Proc.devRef .tc main_v16) : S2097152x64.Idx → F .f32)
    = Host.gather gather_S262144x64_S2097152x1_S2097152x64_1_0_n_n_0_1_164 (W (Proc.devRef .tc main_v9)) (Cert.Spec.wrapIdx (W (Proc.devRef .tc main_arg3))) := by
  after_results_simp
  first | done | rfl
theorem seg2_keep_main_arg19 : after seg2 W (Proc.devRef .tc main_arg19) = W (Proc.devRef .tc main_arg19) := by after_results_simp
theorem seg2_keep_main_arg20 : after seg2 W (Proc.devRef .tc main_arg20) = W (Proc.devRef .tc main_arg20) := by after_results_simp
theorem seg2_keep_main_arg17 : after seg2 W (Proc.devRef .tc main_arg17) = W (Proc.devRef .tc main_arg17) := by after_results_simp
theorem seg2_keep_main_arg18 : after seg2 W (Proc.devRef .tc main_arg18) = W (Proc.devRef .tc main_arg18) := by after_results_simp
theorem seg2_keep_main_arg0 : after seg2 W (Proc.devRef .tc main_arg0) = W (Proc.devRef .tc main_arg0) := by after_results_simp
theorem seg2_keep_main_arg15 : after seg2 W (Proc.devRef .tc main_arg15) = W (Proc.devRef .tc main_arg15) := by after_results_simp
theorem seg2_keep_main_arg16 : after seg2 W (Proc.devRef .tc main_arg16) = W (Proc.devRef .tc main_arg16) := by after_results_simp
theorem seg2_keep_main_arg12 : after seg2 W (Proc.devRef .tc main_arg12) = W (Proc.devRef .tc main_arg12) := by after_results_simp
theorem seg2_keep_main_arg13 : after seg2 W (Proc.devRef .tc main_arg13) = W (Proc.devRef .tc main_arg13) := by after_results_simp
theorem seg2_keep_main_arg14 : after seg2 W (Proc.devRef .tc main_arg14) = W (Proc.devRef .tc main_arg14) := by after_results_simp
theorem seg2_keep_main_arg4 : after seg2 W (Proc.devRef .tc main_arg4) = W (Proc.devRef .tc main_arg4) := by after_results_simp
theorem seg2_keep_main_arg2 : after seg2 W (Proc.devRef .tc main_arg2) = W (Proc.devRef .tc main_arg2) := by after_results_simp
theorem seg2_keep_main_arg9 : after seg2 W (Proc.devRef .tc main_arg9) = W (Proc.devRef .tc main_arg9) := by after_results_simp
theorem seg2_keep_main_arg10 : after seg2 W (Proc.devRef .tc main_arg10) = W (Proc.devRef .tc main_arg10) := by after_results_simp

set_option maxHeartbeats 2000000 in
/-- What stretch 3 leaves in `main_v18`, from the buffers it reads. -/
theorem seg3_out : (after seg3 W (Proc.devRef .tc main_v18) : S2097152x64.Idx → F .f32)
    = Host.dotGeneral dot_S2097152x8_S8x64_S2097152x64_1_0_0_1_n_n none (Host.dotGeneral dot_S2097152x42_S42x8_S2097152x8_1_0_0_1_n_n none (W (Proc.devRef .tc main_arg2)) (W (Proc.devRef .tc main_arg9))) (W (Proc.devRef .tc main_arg10)) := by
  after_results_simp
  first | done | rfl
theorem seg3_keep_main_arg19 : after seg3 W (Proc.devRef .tc main_arg19) = W (Proc.devRef .tc main_arg19) := by after_results_simp
theorem seg3_keep_main_arg20 : after seg3 W (Proc.devRef .tc main_arg20) = W (Proc.devRef .tc main_arg20) := by after_results_simp
theorem seg3_keep_main_arg17 : after seg3 W (Proc.devRef .tc main_arg17) = W (Proc.devRef .tc main_arg17) := by after_results_simp
theorem seg3_keep_main_arg18 : after seg3 W (Proc.devRef .tc main_arg18) = W (Proc.devRef .tc main_arg18) := by after_results_simp
theorem seg3_keep_main_arg0 : after seg3 W (Proc.devRef .tc main_arg0) = W (Proc.devRef .tc main_arg0) := by after_results_simp
theorem seg3_keep_main_arg15 : after seg3 W (Proc.devRef .tc main_arg15) = W (Proc.devRef .tc main_arg15) := by after_results_simp
theorem seg3_keep_main_arg16 : after seg3 W (Proc.devRef .tc main_arg16) = W (Proc.devRef .tc main_arg16) := by after_results_simp
theorem seg3_keep_main_arg12 : after seg3 W (Proc.devRef .tc main_arg12) = W (Proc.devRef .tc main_arg12) := by after_results_simp
theorem seg3_keep_main_arg13 : after seg3 W (Proc.devRef .tc main_arg13) = W (Proc.devRef .tc main_arg13) := by after_results_simp
theorem seg3_keep_main_arg14 : after seg3 W (Proc.devRef .tc main_arg14) = W (Proc.devRef .tc main_arg14) := by after_results_simp
theorem seg3_keep_main_v16 : after seg3 W (Proc.devRef .tc main_v16) = W (Proc.devRef .tc main_v16) := by after_results_simp
theorem seg3_keep_main_arg4 : after seg3 W (Proc.devRef .tc main_arg4) = W (Proc.devRef .tc main_arg4) := by after_results_simp

set_option maxHeartbeats 2000000 in
/-- What stretch 4 leaves in `main_v22`, from the buffers it reads. -/
theorem seg4_out : (after seg4 W (Proc.devRef .tc main_v22) : S262144x64.Idx → F .f32)
    = Host.scatterAdd scatter_S262144x64_S2097152x1_S2097152x64_1_0_0_1 (broadcastInDim S262144x64 ![] bcast_S_S262144x64 (constant (F := F) S_ .f32 0x00000000#32)) (broadcastInDim S2097152x1 ![0] bcast_S2097152_S2097152x1_0 (W (Proc.devRef .tc main_arg4))) (mulf (W (Proc.devRef .tc main_v16)) (W (Proc.devRef .tc main_v18))) := by
  after_results_simp
  first | done | rfl
theorem seg4_keep_main_arg19 : after seg4 W (Proc.devRef .tc main_arg19) = W (Proc.devRef .tc main_arg19) := by after_results_simp
theorem seg4_keep_main_arg20 : after seg4 W (Proc.devRef .tc main_arg20) = W (Proc.devRef .tc main_arg20) := by after_results_simp
theorem seg4_keep_main_arg17 : after seg4 W (Proc.devRef .tc main_arg17) = W (Proc.devRef .tc main_arg17) := by after_results_simp
theorem seg4_keep_main_arg18 : after seg4 W (Proc.devRef .tc main_arg18) = W (Proc.devRef .tc main_arg18) := by after_results_simp
theorem seg4_keep_main_arg0 : after seg4 W (Proc.devRef .tc main_arg0) = W (Proc.devRef .tc main_arg0) := by after_results_simp
theorem seg4_keep_main_arg15 : after seg4 W (Proc.devRef .tc main_arg15) = W (Proc.devRef .tc main_arg15) := by after_results_simp
theorem seg4_keep_main_arg16 : after seg4 W (Proc.devRef .tc main_arg16) = W (Proc.devRef .tc main_arg16) := by after_results_simp
theorem seg4_keep_main_arg12 : after seg4 W (Proc.devRef .tc main_arg12) = W (Proc.devRef .tc main_arg12) := by after_results_simp
theorem seg4_keep_main_arg13 : after seg4 W (Proc.devRef .tc main_arg13) = W (Proc.devRef .tc main_arg13) := by after_results_simp
theorem seg4_keep_main_arg14 : after seg4 W (Proc.devRef .tc main_arg14) = W (Proc.devRef .tc main_arg14) := by after_results_simp

set_option maxHeartbeats 2000000 in
/-- What stretch 5 leaves in `main_v30`, from the buffers it reads. -/
theorem seg5_out : (after seg5 W (Proc.devRef .tc main_v30) : S262144x128.Idx → F .f32)
    = Cert.Spec.m0 (F := F) (W (Proc.devRef .tc main_v22)) (W (Proc.devRef .tc main_arg0)) (W (Proc.devRef .tc main_arg12)) (W (Proc.devRef .tc main_arg13)) (W (Proc.devRef .tc main_arg14)) := by
  after_results_simp
  first | done | rfl
theorem seg5_keep_main_arg19 : after seg5 W (Proc.devRef .tc main_arg19) = W (Proc.devRef .tc main_arg19) := by after_results_simp
theorem seg5_keep_main_arg20 : after seg5 W (Proc.devRef .tc main_arg20) = W (Proc.devRef .tc main_arg20) := by after_results_simp
theorem seg5_keep_main_arg17 : after seg5 W (Proc.devRef .tc main_arg17) = W (Proc.devRef .tc main_arg17) := by after_results_simp
theorem seg5_keep_main_arg18 : after seg5 W (Proc.devRef .tc main_arg18) = W (Proc.devRef .tc main_arg18) := by after_results_simp
theorem seg5_keep_main_arg0 : after seg5 W (Proc.devRef .tc main_arg0) = W (Proc.devRef .tc main_arg0) := by after_results_simp
theorem seg5_keep_main_arg15 : after seg5 W (Proc.devRef .tc main_arg15) = W (Proc.devRef .tc main_arg15) := by after_results_simp
theorem seg5_keep_main_arg16 : after seg5 W (Proc.devRef .tc main_arg16) = W (Proc.devRef .tc main_arg16) := by after_results_simp

set_option maxHeartbeats 2000000 in
/-- What stretch 6 leaves in `main_v49`, from the buffers it reads. -/
theorem seg6_out : (after seg6 W (Proc.devRef .tc main_v49) : S262144x128.Idx → F .f32)
    = Cert.Spec.m1 (F := F) (W (Proc.devRef .tc main_v30)) (W (Proc.devRef .tc main_arg15)) (W (Proc.devRef .tc main_arg16)) := by
  after_results_simp
  first | done | rfl
theorem seg6_keep_main_arg19 : after seg6 W (Proc.devRef .tc main_arg19) = W (Proc.devRef .tc main_arg19) := by after_results_simp
theorem seg6_keep_main_arg20 : after seg6 W (Proc.devRef .tc main_arg20) = W (Proc.devRef .tc main_arg20) := by after_results_simp
theorem seg6_keep_main_arg17 : after seg6 W (Proc.devRef .tc main_arg17) = W (Proc.devRef .tc main_arg17) := by after_results_simp
theorem seg6_keep_main_arg18 : after seg6 W (Proc.devRef .tc main_arg18) = W (Proc.devRef .tc main_arg18) := by after_results_simp
theorem seg6_keep_main_arg0 : after seg6 W (Proc.devRef .tc main_arg0) = W (Proc.devRef .tc main_arg0) := by after_results_simp

set_option maxHeartbeats 2000000 in
/-- What stretch 7 leaves in `main_v55`, from the buffers it reads. -/
theorem seg7_out : (after seg7 W (Proc.devRef .tc main_v55) : S262144x128.Idx → F .f32)
    = Cert.Spec.m2 (F := F) (W (Proc.devRef .tc main_v49)) (W (Proc.devRef .tc main_arg17)) (W (Proc.devRef .tc main_arg18)) (W (Proc.devRef .tc main_arg0)) := by
  after_results_simp
  first | done | rfl
theorem seg7_keep_main_arg19 : after seg7 W (Proc.devRef .tc main_arg19) = W (Proc.devRef .tc main_arg19) := by after_results_simp
theorem seg7_keep_main_arg20 : after seg7 W (Proc.devRef .tc main_arg20) = W (Proc.devRef .tc main_arg20) := by after_results_simp

set_option maxHeartbeats 2000000 in
/-- What stretch 8 leaves in `main_v74`, from the buffers it reads. -/
theorem seg8_out : (after seg8 W (Proc.devRef .tc main_v74) : S262144x128.Idx → F .f32)
    = Cert.Spec.m3 (F := F) (W (Proc.devRef .tc main_v55)) (W (Proc.devRef .tc main_arg19)) (W (Proc.devRef .tc main_arg20)) := by
  after_results_simp
  first | done | rfl
theorem seg8_keep_main_arg19 : after seg8 W (Proc.devRef .tc main_arg19) = W (Proc.devRef .tc main_arg19) := by after_results_simp
theorem seg8_keep_main_arg20 : after seg8 W (Proc.devRef .tc main_arg20) = W (Proc.devRef .tc main_arg20) := by after_results_simp

set_option maxHeartbeats 2000000 in
/-- What stretch 9 leaves in `main_v93`, from the buffers it reads. -/
theorem seg9_out : (after seg9 W (Proc.devRef .tc main_v93) : S262144x128.Idx → F .f32)
    = Cert.Spec.m4 (F := F) (W (Proc.devRef .tc main_v74)) (W (Proc.devRef .tc main_arg19)) (W (Proc.devRef .tc main_arg20)) := by
  after_results_simp
  first | done | rfl

/-- The gate as the whole-array program forms it: the radial basis array times the first radial matrix, times the second. -/
def gateR (x1 : FVec F S262144x6 .f32) (x7 : FVec F S6x8 .f32) (x8 : FVec F S8x128 .f32) : FVec F S262144x128 .f32 :=
  Host.dotGeneral dot_S262144x8_S8x128_S262144x128_1_0_0_1_n_n none (Host.dotGeneral dot_S262144x6_S6x8_S262144x8_1_0_0_1_n_n none x1 x7) x8

/-- The triplet array as the whole-array program forms it: the spherical basis array times the first spherical matrix, times the second. -/
def tripR (x2 : FVec F S2097152x42 .f32) (x9 : FVec F S42x8 .f32) (x10 : FVec F S8x64 .f32) : FVec F S2097152x64 .f32 :=
  Host.dotGeneral dot_S2097152x8_S8x64_S2097152x64_1_0_0_1_n_n none (Host.dotGeneral dot_S2097152x42_S42x8_S2097152x8_1_0_0_1_n_n none x2 x9) x10

set_option maxHeartbeats 2000000 in
/-- THE RESULT of the whole line: the composition of the layers applied to the argument buffers. -/
theorem value : (after ops W (Proc.devRef .tc main_v93) : S262144x128.Idx → F .f32)
    = Cert.Spec.combine (F := F)
        (Cert.Spec.agg (F := F) (Cert.Spec.edge (F := F) (W (Proc.devRef .tc main_arg0)) (W (Proc.devRef .tc main_arg5)) (W (Proc.devRef .tc main_arg6)) (gateR (W (Proc.devRef .tc main_arg1)) (W (Proc.devRef .tc main_arg7)) (W (Proc.devRef .tc main_arg8))) (W (Proc.devRef .tc main_arg11)))
          (tripR (W (Proc.devRef .tc main_arg2)) (W (Proc.devRef .tc main_arg9)) (W (Proc.devRef .tc main_arg10))) (W (Proc.devRef .tc main_arg3)) (W (Proc.devRef .tc main_arg4)))
        (W (Proc.devRef .tc main_arg0)) (W (Proc.devRef .tc main_arg12)) (W (Proc.devRef .tc main_arg13)) (W (Proc.devRef .tc main_arg14)) (W (Proc.devRef .tc main_arg15)) (W (Proc.devRef .tc main_arg16)) (W (Proc.devRef .tc main_arg17)) (W (Proc.devRef .tc main_arg18)) (W (Proc.devRef .tc main_arg19)) (W (Proc.devRef .tc main_arg20)) := by
  rw [ops_eq]
  simp only [after_append]
  rw [seg9_out,
    seg8_out, seg8_keep_main_arg19, seg8_keep_main_arg20,
    seg7_out, seg7_keep_main_arg19, seg7_keep_main_arg20,
    seg6_out, seg6_keep_main_arg19, seg6_keep_main_arg20, seg6_keep_main_arg17, seg6_keep_main_arg18, seg6_keep_main_arg0,
    seg5_out, seg5_keep_main_arg19, seg5_keep_main_arg20, seg5_keep_main_arg17, seg5_keep_main_arg18, seg5_keep_main_arg0, seg5_keep_main_arg15, seg5_keep_main_arg16,
    seg4_out, seg4_keep_main_arg19, seg4_keep_main_arg20, seg4_keep_main_arg17, seg4_keep_main_arg18, seg4_keep_main_arg0, seg4_keep_main_arg15, seg4_keep_main_arg16, seg4_keep_main_arg12, seg4_keep_main_arg13, seg4_keep_main_arg14,
    seg3_out, seg3_keep_main_arg19, seg3_keep_main_arg20, seg3_keep_main_arg17, seg3_keep_main_arg18, seg3_keep_main_arg0, seg3_keep_main_arg15, seg3_keep_main_arg16, seg3_keep_main_arg12, seg3_keep_main_arg13, seg3_keep_main_arg14, seg3_keep_main_v16, seg3_keep_main_arg4,
    seg2_out, seg2_keep_main_arg19, seg2_keep_main_arg20, seg2_keep_main_arg17, seg2_keep_main_arg18, seg2_keep_main_arg0, seg2_keep_main_arg15, seg2_keep_main_arg16, seg2_keep_main_arg12, seg2_keep_main_arg13, seg2_keep_main_arg14, seg2_keep_main_arg4, seg2_keep_main_arg2, seg2_keep_main_arg9, seg2_keep_main_arg10,
    seg1_out, seg1_keep_main_arg19, seg1_keep_main_arg20, seg1_keep_main_arg17, seg1_keep_main_arg18, seg1_keep_main_arg0, seg1_keep_main_arg15, seg1_keep_main_arg16, seg1_keep_main_arg12, seg1_keep_main_arg13, seg1_keep_main_arg14, seg1_keep_main_arg4, seg1_keep_main_arg2, seg1_keep_main_arg9, seg1_keep_main_arg10, seg1_keep_main_arg3]
  rfl

end Cert.ReferenceIdeal.RunV

end
-- ==== Proof.RefKeep.lean ====
/-
  The whole-array program's run: it terminates, its result buffer holds what the line of operations
  leaves there, and no operation writes an argument buffer, so every argument ends as launched.
-/
import proofs.«112893_j944892805681_2_alg».proof.Proof.RefOps
import Idealize.ShloMosaic.Lib.StableHlo.Run

set_option maxRecDepth 16384

noncomputable section

namespace Cert.ReferenceIdeal.RunV

open Cert.ReferenceIdeal Cert.ReferenceIdeal.Gen Idealize.ShloMosaic Idealize.ShloMosaic.TcCoe Idealize.SL.Sem Idealize.ShloMosaic.StableHlo

variable {F : FTy → Type} [FloatOps F]

variable (W : Valuation τ sig (Elt F))

set_option maxHeartbeats 2000000 in
theorem kept_main_arg0 : after ops W (Proc.devRef .tc main_arg0) = W (Proc.devRef .tc main_arg0) := by after_results_simp
set_option maxHeartbeats 2000000 in
theorem kept_main_arg1 : after ops W (Proc.devRef .tc main_arg1) = W (Proc.devRef .tc main_arg1) := by after_results_simp
set_option maxHeartbeats 2000000 in
theorem kept_main_arg2 : after ops W (Proc.devRef .tc main_arg2) = W (Proc.devRef .tc main_arg2) := by after_results_simp
set_option maxHeartbeats 2000000 in
theorem kept_main_arg3 : after ops W (Proc.devRef .tc main_arg3) = W (Proc.devRef .tc main_arg3) := by after_results_simp
set_option maxHeartbeats 2000000 in
theorem kept_main_arg4 : after ops W (Proc.devRef .tc main_arg4) = W (Proc.devRef .tc main_arg4) := by after_results_simp
set_option maxHeartbeats 2000000 in
theorem kept_main_arg5 : after ops W (Proc.devRef .tc main_arg5) = W (Proc.devRef .tc main_arg5) := by after_results_simp
set_option maxHeartbeats 2000000 in
theorem kept_main_arg6 : after ops W (Proc.devRef .tc main_arg6) = W (Proc.devRef .tc main_arg6) := by after_results_simp
set_option maxHeartbeats 2000000 in
theorem kept_main_arg7 : after ops W (Proc.devRef .tc main_arg7) = W (Proc.devRef .tc main_arg7) := by after_results_simp
set_option maxHeartbeats 2000000 in
theorem kept_main_arg8 : after ops W (Proc.devRef .tc main_arg8) = W (Proc.devRef .tc main_arg8) := by after_results_simp
set_option maxHeartbeats 2000000 in
theorem kept_main_arg9 : after ops W (Proc.devRef .tc main_arg9) = W (Proc.devRef .tc main_arg9) := by after_results_simp
set_option maxHeartbeats 2000000 in
theorem kept_main_arg10 : after ops W (Proc.devRef .tc main_arg10) = W (Proc.devRef .tc main_arg10) := by after_results_simp
set_option maxHeartbeats 2000000 in
theorem kept_main_arg11 : after ops W (Proc.devRef .tc main_arg11) = W (Proc.devRef .tc main_arg11) := by after_results_simp
set_option maxHeartbeats 2000000 in
theorem kept_main_arg12 : after ops W (Proc.devRef .tc main_arg12) = W (Proc.devRef .tc main_arg12) := by after_results_simp
set_option maxHeartbeats 2000000 in
theorem kept_main_arg13 : after ops W (Proc.devRef .tc main_arg13) = W (Proc.devRef .tc main_arg13) := by after_results_simp
set_option maxHeartbeats 2000000 in
theorem kept_main_arg14 : after ops W (Proc.devRef .tc main_arg14) = W (Proc.devRef .tc main_arg14) := by after_results_simp
set_option maxHeartbeats 2000000 in
theorem kept_main_arg15 : after ops W (Proc.devRef .tc main_arg15) = W (Proc.devRef .tc main_arg15) := by after_results_simp
set_option maxHeartbeats 2000000 in
theorem kept_main_arg16 : after ops W (Proc.devRef .tc main_arg16) = W (Proc.devRef .tc main_arg16) := by after_results_simp
set_option maxHeartbeats 2000000 in
theorem kept_main_arg17 : after ops W (Proc.devRef .tc main_arg17) = W (Proc.devRef .tc main_arg17) := by after_results_simp
set_option maxHeartbeats 2000000 in
theorem kept_main_arg18 : after ops W (Proc.devRef .tc main_arg18) = W (Proc.devRef .tc main_arg18) := by after_results_simp
set_option maxHeartbeats 2000000 in
theorem kept_main_arg19 : after ops W (Proc.devRef .tc main_arg19) = W (Proc.devRef .tc main_arg19) := by after_results_simp
set_option maxHeartbeats 2000000 in
theorem kept_main_arg20 : after ops W (Proc.devRef .tc main_arg20) = W (Proc.devRef .tc main_arg20) := by after_results_simp

/-- On every device, from any memory with zero counters: every weakly fair execution of @main terminates, the result
    buffer ends at what the operations leave there from the launch contents, and the arguments end unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v93) = after ops (launchContents m c) (Proc.devRef .tc main_v93)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20) :=
  (θ_run defs _ _).mono (fun _ h c => ⟨h c main_v93,
      (h c main_arg0).trans (kept_main_arg0 _),
      (h c main_arg1).trans (kept_main_arg1 _),
      (h c main_arg2).trans (kept_main_arg2 _),
      (h c main_arg3).trans (kept_main_arg3 _),
      (h c main_arg4).trans (kept_main_arg4 _),
      (h c main_arg5).trans (kept_main_arg5 _),
      (h c main_arg6).trans (kept_main_arg6 _),
      (h c main_arg7).trans (kept_main_arg7 _),
      (h c main_arg8).trans (kept_main_arg8 _),
      (h c main_arg9).trans (kept_main_arg9 _),
      (h c main_arg10).trans (kept_main_arg10 _),
      (h c main_arg11).trans (kept_main_arg11 _),
      (h c main_arg12).trans (kept_main_arg12 _),
      (h c main_arg13).trans (kept_main_arg13 _),
      (h c main_arg14).trans (kept_main_arg14 _),
      (h c main_arg15).trans (kept_main_arg15 _),
      (h c main_arg16).trans (kept_main_arg16 _),
      (h c main_arg17).trans (kept_main_arg17 _),
      (h c main_arg18).trans (kept_main_arg18 _),
      (h c main_arg19).trans (kept_main_arg19 _),
      (h c main_arg20).trans (kept_main_arg20 _)⟩)
    (run_seq scopedRefs_eq scopedSems_eq defs main (fun _ => ops) main_eq (fun _ => ops_sub) m ρ)

end Cert.ReferenceIdeal.RunV

end
-- ==== Proof.Finite.lean ====
/-
  Finite inputs are real numbers.

  The precondition says of every float input `x` that `|x| < +∞` at every index, all these tests
  conjoined into one bit.  On the extended reals `|x| = max x (-x)`, and `max x (-x) < ⊤` excludes both
  infinities, so every entry is a real number.  Extracted here for the six arrays whose products the
  two programs associate differently: the radial basis array and its two small matrices, the spherical
  basis array and its two small matrices.
-/
import proofs.«112893_j944892805681_2_alg».proof.Proof.Gen.Pre_finite_inputs
import Idealize.ShloMosaic.PureOps.Ideal
import Idealize.ShloMosaic.Lib.ReduceAll
import Idealize.ShloMosaic.Lib.Affine
import Idealize.ShloMosaic.Lib.ValueIdx

set_option maxRecDepth 16384

noncomputable section

namespace Cert.Pre_finite_inputs.Finite

open Cert.Pre_finite_inputs Cert.Pre_finite_inputs.Gen Idealize.ShloMosaic

instance : Subsingleton S_.Idx := ⟨fun a b => funext fun d => d.elim0⟩

/-- The bit pattern of `+∞` denotes `⊤`. -/
theorem inf_bits : Ideal.ofBits .f32 0x7F800000#32 = ⊤ := by
  simp [Ideal.ofBits, Ideal.ieee]

/-- `|x| < +∞` makes `x` a real number. -/
theorem real_of_lt (x : EReal) (h : Ideal.cmp .olt (max x (-x)) (Ideal.ofBits .f32 0x7F800000#32) = 1#1) :
    ∃ r : ℝ, x = (r : EReal) := by
  rw [inf_bits] at h
  have hlt : max x (-x) < ⊤ := by
    by_contra hn
    have : Ideal.cmp .olt (max x (-x)) ⊤ = 0#1 := by
      unfold Ideal.cmp
      simp [hn]
    rw [this] at h
    exact absurd h (by decide)
  induction x using EReal.rec with
  | bot => simp at hlt
  | coe r => exact ⟨r, rfl⟩
  | top => simp at hlt

/-- An array all of whose entries pass the test `|x| < +∞` holds real numbers. -/
theorem all_real {s : Shape} {axes : List (Fin s.rank)} (x : FVec Ideal s .f32) (hb : S_.BroadcastsInDim s ![])
    (hr : s.ReducesTo axes S_) (hu : 0 < S_.numel)
    (h : Host.reduce IntOp.andi (cmpf .olt (Host.absf x) (broadcastInDim s ![] hb (constant (F := Ideal) S_ .f32 0x7F800000#32)))
      (constantI S_ 1 1#1) hr hu ValueIdx.ix0 = 1#1) (i : s.Idx) : ∃ r : ℝ, x i = (r : EReal) :=
  real_of_lt (x i) (Host.reduce_andi_all _ _ hr hu ValueIdx.ix0 h i)

/-- Under the precondition the radial basis array, the spherical basis array and the four small matrices hold real numbers. -/
theorem finite_of_pre (x0 : FVec Ideal S262144x128 .f32) (x1 : FVec Ideal S262144x6 .f32) (x2 : FVec Ideal S2097152x42 .f32)
    (x3 x4 : IVec S2097152 32) (x5 : FVec Ideal S128x128 .f32) (x6 : FVec Ideal S128 .f32) (x7 : FVec Ideal S6x8 .f32)
    (x8 : FVec Ideal S8x128 .f32) (x9 : FVec Ideal S42x8 .f32) (x10 : FVec Ideal S8x64 .f32) (x11 : FVec Ideal S128x64 .f32)
    (x12 : FVec Ideal S64x128 .f32) (x13 : FVec Ideal S128x128 .f32) (x14 : FVec Ideal S128 .f32) (x15 : FVec Ideal S1x2x128x128 .f32)
    (x16 : FVec Ideal S1x2x128 .f32) (x17 : FVec Ideal S128x128 .f32) (x18 : FVec Ideal S128 .f32) (x19 : FVec Ideal S2x2x128x128 .f32)
    (x20 : FVec Ideal S2x2x128 .f32)
    (h : fn (F := Ideal) x0 x1 x2 x3 x4 x5 x6 x7 x8 x9 x10 x11 x12 x13 x14 x15 x16 x17 x18 x19 x20 = fun _ => 1#1) :
    (∀ i, ∃ r : ℝ, x1 i = (r : EReal)) ∧ (∀ i, ∃ r : ℝ, x2 i = (r : EReal)) ∧ (∀ i, ∃ r : ℝ, x7 i = (r : EReal))
      ∧ (∀ i, ∃ r : ℝ, x8 i = (r : EReal)) ∧ (∀ i, ∃ r : ℝ, x9 i = (r : EReal)) ∧ (∀ i, ∃ r : ℝ, x10 i = (r : EReal)) := by
  have h0 := congrFun h ValueIdx.ix0
  dsimp only [fn, fn_part1, fn_part2, fn_part3, fn_part4, fn_part5, Idealize.ShloMosaic.andi] at h0
  simp only [IntOp.andi_eq_one] at h0
  obtain ⟨⟨⟨⟨⟨⟨⟨⟨⟨⟨⟨⟨⟨⟨⟨⟨⟨⟨-, h1⟩, h2⟩, -⟩, -⟩, h7⟩, h8⟩, h9⟩, h10⟩, -⟩, -⟩, -⟩, -⟩, -⟩, -⟩, -⟩, -⟩, -⟩, -⟩ := h0
  exact ⟨all_real x1 _ _ _ h1, all_real x2 _ _ _ h2, all_real x7 _ _ _ h7, all_real x8 _ _ _ h8, all_real x9 _ _ _ h9,
    all_real x10 _ _ _ h10⟩

end Cert.Pre_finite_inputs.Finite

end
-- ==== Proof.Assoc.lean ====
/-
  The two programs' gates are one array.

  The kernel program folds each pair of small matrices into one on the host and multiplies the basis
  array by the folded matrix; the whole-array program multiplies the basis array by the first matrix
  and the product by the second.  Over finite entries the plain matrix product is associative, so the
  radial gate `rbf · (W₁ · W₂) = (rbf · W₁) · W₂` and the triplet array `sbf · (W₁ · W₂) = (sbf · W₁) · W₂`
  are the same arrays.
-/
import proofs.«112893_j944892805681_2_alg».proof.Proof.PlainKernel
import proofs.«112893_j944892805681_2_alg».proof.Proof.PlainReference

noncomputable section

namespace Cert.Assoc

open Idealize.ShloMosaic RowBlocks

/-- The radial gate: folded on the host and multiplied once, or multiplied twice. -/
theorem gate_eq (x1 : FVec Ideal Cert.ReferenceIdeal.S262144x6 .f32) (x7 : FVec Ideal Cert.ReferenceIdeal.S6x8 .f32)
    (x8 : FVec Ideal Cert.ReferenceIdeal.S8x128 .f32) (h1 : ∀ i, ∃ r : ℝ, x1 i = (r : EReal)) (h7 : ∀ i, ∃ r : ℝ, x7 i = (r : EReal))
    (h8 : ∀ i, ∃ r : ℝ, x8 i = (r : EReal)) :
    mm x1 (Host.dotGeneral (F := Ideal) (φ₁ := .f32) (φ₂ := .f32) Cert.KernelIdeal.dot_S6x8_S8x128_S6x128_1_0_0_1_n_n none x7 x8)
      = Host.dotGeneral (F := Ideal) (φ₁ := .f32) (φ₂ := .f32) Cert.ReferenceIdeal.dot_S262144x8_S8x128_S262144x128_1_0_0_1_n_n none
          (Host.dotGeneral (F := Ideal) (φ₁ := .f32) (φ₂ := .f32) Cert.ReferenceIdeal.dot_S262144x6_S6x8_S262144x8_1_0_0_1_n_n none x1 x7) x8 := by
  rw [dot_eq_mm _ Cert.KernelIdeal.Plain.plain_S6x8_S8x128, dot_eq_mm _ Cert.ReferenceIdeal.Plain.plain_S262144x8_S8x128,
    dot_eq_mm _ Cert.ReferenceIdeal.Plain.plain_S262144x6_S6x8, mm_assoc _ _ _ h1 h7 h8]

/-- The triplet array: folded on the host and multiplied once, or multiplied twice. -/
theorem trip_eq (x2 : FVec Ideal Cert.ReferenceIdeal.S2097152x42 .f32) (x9 : FVec Ideal Cert.ReferenceIdeal.S42x8 .f32)
    (x10 : FVec Ideal Cert.ReferenceIdeal.S8x64 .f32) (h2 : ∀ i, ∃ r : ℝ, x2 i = (r : EReal)) (h9 : ∀ i, ∃ r : ℝ, x9 i = (r : EReal))
    (h10 : ∀ i, ∃ r : ℝ, x10 i = (r : EReal)) :
    mm x2 (Host.dotGeneral (F := Ideal) (φ₁ := .f32) (φ₂ := .f32) Cert.KernelIdeal.dot_S42x8_S8x64_S42x64_1_0_0_1_n_n none x9 x10)
      = Host.dotGeneral (F := Ideal) (φ₁ := .f32) (φ₂ := .f32) Cert.ReferenceIdeal.dot_S2097152x8_S8x64_S2097152x64_1_0_0_1_n_n none
          (Host.dotGeneral (F := Ideal) (φ₁ := .f32) (φ₂ := .f32) Cert.ReferenceIdeal.dot_S2097152x42_S42x8_S2097152x8_1_0_0_1_n_n none x2 x9) x10 := by
  rw [dot_eq_mm _ Cert.KernelIdeal.Plain.plain_S42x8_S8x64, dot_eq_mm _ Cert.ReferenceIdeal.Plain.plain_S2097152x8_S8x64,
    dot_eq_mm _ Cert.ReferenceIdeal.Plain.plain_S2097152x42_S42x8, mm_assoc _ _ _ h2 h9 h10]

end Cert.Assoc

end
-- ==== Proof.lean ====
/-
  A directional message-passing interaction block: three pipelined kernels among host operations
  against the whole-array program.

  Over the extended reals both programs compute, per edge, the angular branch
  `silu ((silu (x · W_kj + b_kj) * gate) · W_down)`, gather its rows by one index array, gate them by
  the triplet array, scatter-add them by another index array, and pass the aggregate through the
  up-projection, a residual block, a dense layer with a skip, and two more residual blocks.  They
  differ in two places only: the kernel program multiplies the radial basis array by the product of
  its two small matrices where the whole-array program multiplies twice, and likewise for the
  spherical basis array.  Over finite inputs the matrix product is associative, so the two gates and
  the two triplet arrays are the same arrays, and with them the results.

  The kernel side: each kernel body on a block of rows is the rows of the layers (a change of float
  format is the identity here, the matrix unit's product into a zero accumulator is the plain product,
  and the logistic operation is `1 / (1 + e^(-x))`), the blocks cover the arrays, and the buffers
  between the six segments are walked back to the launch memory.  The whole-array side: its run is
  read in nine stretches, each one layer.  The frames of the two kernel programs are the generated
  ones; the whole-array program's frame is its run with the result dropped.
-/
import proofs.«112893_j944892805681_2_alg».proof.Defs
import proofs.«112893_j944892805681_2_alg».proof.Proof.Gen.Kernel
import proofs.«112893_j944892805681_2_alg».proof.Proof.Gen.Kernel.Skeleton
import proofs.«112893_j944892805681_2_alg».proof.Proof.Gen.Kernel.Launch
import proofs.«112893_j944892805681_2_alg».proof.Proof.Gen.Kernel.Points
import proofs.«112893_j944892805681_2_alg».proof.Proof.Gen.Kernel.Frame
import proofs.«112893_j944892805681_2_alg».proof.Proof.Gen.KernelIdeal
import proofs.«112893_j944892805681_2_alg».proof.Proof.Gen.KernelIdeal.Skeleton
import proofs.«112893_j944892805681_2_alg».proof.Proof.Gen.KernelIdeal.Launch
import proofs.«112893_j944892805681_2_alg».proof.Proof.Gen.KernelIdeal.Points
import proofs.«112893_j944892805681_2_alg».proof.Proof.Gen.KernelIdeal.Frame
import proofs.«112893_j944892805681_2_alg».proof.Proof.Gen.ReferenceIdeal
import proofs.«112893_j944892805681_2_alg».proof.Proof.Gen.Pre_finite_inputs
import proofs.«112893_j944892805681_2_alg».proof.Proof.KernelRun
import proofs.«112893_j944892805681_2_alg».proof.Proof.KernelValue
import proofs.«112893_j944892805681_2_alg».proof.Proof.RefRun
import proofs.«112893_j944892805681_2_alg».proof.Proof.RefKeep
import proofs.«112893_j944892805681_2_alg».proof.Proof.Finite
import proofs.«112893_j944892805681_2_alg».proof.Proof.Assoc
import Idealize.ShloMosaic.Adequacy
import Idealize.ShloMosaic.Init

set_option maxRecDepth 16384

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The whole-array program's frame is its run with the result dropped. -/
theorem frame_ri : Cert.frame_ReferenceIdeal := fun m ρ _ =>
  (θ_run Cert.ReferenceIdeal.defs _ _).mono (fun _ h c => (h c).2) (Cert.ReferenceIdeal.RunV.run (F := Ideal) m ρ)

/-- From memories agreeing on the arguments both programs end with the same result array: each side's result is the
    composition of the layers applied to its arguments; the arguments agree; and the two gates, and the two triplet
    arrays, are one array because the inputs are finite. -/
theorem algebraic : Cert.algebraic_KernelIdeal_ReferenceIdeal := by
  intro m ρ m' ρ' hpre hagree
  refine ⟨fun c => Cert.KernelIdeal.Gen.W6 m ρ c (Proc.devRef .tc Cert.KernelIdeal.main_v16), Cert.KernelIdeal.RunV.run_value m ρ, ?_⟩
  refine (θ_run Cert.ReferenceIdeal.defs _ _).mono (fun _ h c => ⟨(h c).1.trans ?_, (h c).2⟩)
    (Cert.ReferenceIdeal.RunV.run (F := Ideal) m' ρ')
  show _ = Cert.KernelIdeal.Gen.W6 m ρ c (Proc.devRef .tc Cert.KernelIdeal.main_v16)
  obtain ⟨f1, f2, f7, f8, f9, f10⟩ := Cert.Pre_finite_inputs.Finite.finite_of_pre _ _ _ _ _ _ _ _ _ _ _ _ _ _ _ _ _ _ _ _ _ (hpre c)
  obtain ⟨e0, e1, e2, e3, e4, e5, e6, e7, e8, e9, e10, e11, e12, e13, e14, e15, e16, e17, e18, e19, e20⟩ := hagree c
  have a0 : (StableHlo.launchContents m' c (Proc.devRef .tc Cert.ReferenceIdeal.main_arg0)) = (m ((c.tc : Thread Cert.KernelIdeal.nD Cert.KernelIdeal.τ).loc Cert.KernelIdeal.main_arg0)) := e0
  have a1 : (StableHlo.launchContents m' c (Proc.devRef .tc Cert.ReferenceIdeal.main_arg1)) = (m ((c.tc : Thread Cert.KernelIdeal.nD Cert.KernelIdeal.τ).loc Cert.KernelIdeal.main_arg1)) := e1
  have a2 : (StableHlo.launchContents m' c (Proc.devRef .tc Cert.ReferenceIdeal.main_arg2)) = (m ((c.tc : Thread Cert.KernelIdeal.nD Cert.KernelIdeal.τ).loc Cert.KernelIdeal.main_arg2)) := e2
  have a3 : (StableHlo.launchContents m' c (Proc.devRef .tc Cert.ReferenceIdeal.main_arg3)) = (m ((c.tc : Thread Cert.KernelIdeal.nD Cert.KernelIdeal.τ).loc Cert.KernelIdeal.main_arg3)) := e3
  have a4 : (StableHlo.launchContents m' c (Proc.devRef .tc Cert.ReferenceIdeal.main_arg4)) = (m ((c.tc : Thread Cert.KernelIdeal.nD Cert.KernelIdeal.τ).loc Cert.KernelIdeal.main_arg4)) := e4
  have a5 : (StableHlo.launchContents m' c (Proc.devRef .tc Cert.ReferenceIdeal.main_arg5)) = (m ((c.tc : Thread Cert.KernelIdeal.nD Cert.KernelIdeal.τ).loc Cert.KernelIdeal.main_arg5)) := e5
  have a6 : (StableHlo.launchContents m' c (Proc.devRef .tc Cert.ReferenceIdeal.main_arg6)) = (m ((c.tc : Thread Cert.KernelIdeal.nD Cert.KernelIdeal.τ).loc Cert.KernelIdeal.main_arg6)) := e6
  have a7 : (StableHlo.launchContents m' c (Proc.devRef .tc Cert.ReferenceIdeal.main_arg7)) = (m ((c.tc : Thread Cert.KernelIdeal.nD Cert.KernelIdeal.τ).loc Cert.KernelIdeal.main_arg7)) := e7
  have a8 : (StableHlo.launchContents m' c (Proc.devRef .tc Cert.ReferenceIdeal.main_arg8)) = (m ((c.tc : Thread Cert.KernelIdeal.nD Cert.KernelIdeal.τ).loc Cert.KernelIdeal.main_arg8)) := e8
  have a9 : (StableHlo.launchContents m' c (Proc.devRef .tc Cert.ReferenceIdeal.main_arg9)) = (m ((c.tc : Thread Cert.KernelIdeal.nD Cert.KernelIdeal.τ).loc Cert.KernelIdeal.main_arg9)) := e9
  have a10 : (StableHlo.launchContents m' c (Proc.devRef .tc Cert.ReferenceIdeal.main_arg10)) = (m ((c.tc : Thread Cert.KernelIdeal.nD Cert.KernelIdeal.τ).loc Cert.KernelIdeal.main_arg10)) := e10
  have a11 : (StableHlo.launchContents m' c (Proc.devRef .tc Cert.ReferenceIdeal.main_arg11)) = (m ((c.tc : Thread Cert.KernelIdeal.nD Cert.KernelIdeal.τ).loc Cert.KernelIdeal.main_arg11)) := e11
  have a12 : (StableHlo.launchContents m' c (Proc.devRef .tc Cert.ReferenceIdeal.main_arg12)) = (m ((c.tc : Thread Cert.KernelIdeal.nD Cert.KernelIdeal.τ).loc Cert.KernelIdeal.main_arg12)) := e12
  have a13 : (StableHlo.launchContents m' c (Proc.devRef .tc Cert.ReferenceIdeal.main_arg13)) = (m ((c.tc : Thread Cert.KernelIdeal.nD Cert.KernelIdeal.τ).loc Cert.KernelIdeal.main_arg13)) := e13
  have a14 : (StableHlo.launchContents m' c (Proc.devRef .tc Cert.ReferenceIdeal.main_arg14)) = (m ((c.tc : Thread Cert.KernelIdeal.nD Cert.KernelIdeal.τ).loc Cert.KernelIdeal.main_arg14)) := e14
  have a15 : (StableHlo.launchContents m' c (Proc.devRef .tc Cert.ReferenceIdeal.main_arg15)) = (m ((c.tc : Thread Cert.KernelIdeal.nD Cert.KernelIdeal.τ).loc Cert.KernelIdeal.main_arg15)) := e15
  have a16 : (StableHlo.launchContents m' c (Proc.devRef .tc Cert.ReferenceIdeal.main_arg16)) = (m ((c.tc : Thread Cert.KernelIdeal.nD Cert.KernelIdeal.τ).loc Cert.KernelIdeal.main_arg16)) := e16
  have a17 : (StableHlo.launchContents m' c (Proc.devRef .tc Cert.ReferenceIdeal.main_arg17)) = (m ((c.tc : Thread Cert.KernelIdeal.nD Cert.KernelIdeal.τ).loc Cert.KernelIdeal.main_arg17)) := e17
  have a18 : (StableHlo.launchContents m' c (Proc.devRef .tc Cert.ReferenceIdeal.main_arg18)) = (m ((c.tc : Thread Cert.KernelIdeal.nD Cert.KernelIdeal.τ).loc Cert.KernelIdeal.main_arg18)) := e18
  have a19 : (StableHlo.launchContents m' c (Proc.devRef .tc Cert.ReferenceIdeal.main_arg19)) = (m ((c.tc : Thread Cert.KernelIdeal.nD Cert.KernelIdeal.τ).loc Cert.KernelIdeal.main_arg19)) := e19
  have a20 : (StableHlo.launchContents m' c (Proc.devRef .tc Cert.ReferenceIdeal.main_arg20)) = (m ((c.tc : Thread Cert.KernelIdeal.nD Cert.KernelIdeal.τ).loc Cert.KernelIdeal.main_arg20)) := e20
  have hg : Cert.KernelIdeal.Result.gateK m c = Cert.ReferenceIdeal.RunV.gateR (F := Ideal) (m ((c.tc : Thread Cert.KernelIdeal.nD Cert.KernelIdeal.τ).loc Cert.KernelIdeal.main_arg1)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) :=
    Cert.Assoc.gate_eq _ _ _ f1 f7 f8
  have ht : Cert.KernelIdeal.Result.tripK m c = Cert.ReferenceIdeal.RunV.tripR (F := Ideal) (m ((c.tc : Thread Cert.KernelIdeal.nD Cert.KernelIdeal.τ).loc Cert.KernelIdeal.main_arg2)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) :=
    Cert.Assoc.trip_eq _ _ _ f2 f9 f10
  rw [Cert.ReferenceIdeal.RunV.value, Cert.KernelIdeal.Result.result_eq, hg, ht,
    a0, a1, a2, a3, a4, a5, a6, a7, a8, a9, a10, a11, a12, a13, a14, a15, a16, a17, a18, a19, a20]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
